-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x19x512x1024 : Shape := ⟨4, ![4, 19, 512, 1024]⟩
abbrev S4x512x1024 : Shape := ⟨3, ![4, 512, 1024]⟩
abbrev S_ : Shape := ⟨0, ![]⟩

class Facts : Prop where
  bcast_S_S4x19x512x1024 : S_.BroadcastsInDim S4x19x512x1024 (![] : Fin 0 → Fin S4x19x512x1024.rank)
  reducesTo_S4x19x512x1024_S_d0_1_2_3 : S4x19x512x1024.ReducesTo [0, 1, 2, 3] S_
  h_S_ : 0 < S_.numel

variable [Facts]

def fn {F : FTy → Type} [FloatOps F] (main_arg0 : FVec F S4x19x512x1024 .f32) (main_arg1 : IVec S4x512x1024 32) : IVec S_ 1 :=
  let main_v0 : FVec F S4x19x512x1024 .f32 := Host.absf main_arg0
  let main_cst : FVec F S_ .f32 := constant S_ .f32 0x7F800000#32
  let main_v1 : FVec F S4x19x512x1024 .f32 := broadcastInDim S4x19x512x1024 ![] bcast_S_S4x19x512x1024 main_cst
  let main_v2 : IVec S4x19x512x1024 1 := cmpf .olt main_v0 main_v1
  let main_c : IVec S_ 1 := constantI S_ 1 1#1
  let main_v3 : IVec S_ 1 := (fun x v => Host.reduce IntOp.andi x v reducesTo_S4x19x512x1024_S_d0_1_2_3 h_S_) main_v2 main_c
  main_v3
-- ==== Kernel.lean ====
abbrev S4x19x512x1024 : Shape := ⟨4, ![4, 19, 512, 1024]⟩
abbrev S4x512x1024 : Shape := ⟨3, ![4, 512, 1024]⟩
abbrev S2x19x15 : Shape := ⟨3, ![2, 19, 15]⟩
abbrev S1x19x128x128 : Shape := ⟨4, ![1, 19, 128, 128]⟩
abbrev S1x128x128 : Shape := ⟨3, ![1, 128, 128]⟩
abbrev S1x19x15 : Shape := ⟨3, ![1, 19, 15]⟩
abbrev S19x15 : Shape := ⟨2, ![19, 15]⟩
abbrev S19x128x128 : Shape := ⟨3, ![19, 128, 128]⟩
abbrev S128x128 : Shape := ⟨2, ![128, 128]⟩
abbrev S19x128 : Shape := ⟨2, ![19, 128]⟩
abbrev S19x128x1 : Shape := ⟨3, ![19, 128, 1]⟩
abbrev S19x1 : Shape := ⟨2, ![19, 1]⟩
abbrev S1x19x1 : Shape := ⟨3, ![1, 19, 1]⟩
abbrev S19 : Shape := ⟨1, ![19]⟩
abbrev S_ : Shape := ⟨0, ![]⟩

abbrev nBuf : Space → Nat
  | .hbm => 36
  | .vmem => 10
  | .smem => 0
  | _ => 0

abbrev bufTy : (tb : Table) → Fin (tcTables nBuf tb) → BufTy
  | .hbm, ⟨0, _⟩ => ⟨S4x19x512x1024, .f32⟩
  | .hbm, ⟨1, _⟩ => ⟨S4x512x1024, .i32⟩
  | .hbm, ⟨2, _⟩ => ⟨S2x19x15, .f32⟩
  | .hbm, ⟨3, _⟩ => ⟨S2x19x15, .f32⟩
  | .hbm, ⟨4, _⟩ => ⟨S2x19x15, .f32⟩
  | .hbm, ⟨5, _⟩ => ⟨S_, .f32⟩
  | .hbm, ⟨6, _⟩ => ⟨S19x15, .f32⟩
  | .hbm, ⟨7, _⟩ => ⟨S_, .f32⟩
  | .hbm, ⟨8, _⟩ => ⟨S19x15, .f32⟩
  | .hbm, ⟨9, _⟩ => ⟨S_, .f32⟩
  | .hbm, ⟨10, _⟩ => ⟨S19x15, .f32⟩
  | .hbm, ⟨11, _⟩ => ⟨S_, .f32⟩
  | .hbm, ⟨12, _⟩ => ⟨S19x15, .f32⟩
  | .hbm, ⟨13, _⟩ => ⟨S19x15, .i1⟩
  | .hbm, ⟨14, _⟩ => ⟨S_, .f32⟩
  | .hbm, ⟨15, _⟩ => ⟨S_, .f32⟩
  | .hbm, ⟨16, _⟩ => ⟨S19x15, .f32⟩
  | .hbm, ⟨17, _⟩ => ⟨S19x15, .f32⟩
  | .hbm, ⟨18, _⟩ => ⟨S19x15, .f32⟩
  | .hbm, ⟨19, _⟩ => ⟨S19x15, .f32⟩
  | .hbm, ⟨20, _⟩ => ⟨S19x15, .f32⟩
  | .hbm, ⟨21, _⟩ => ⟨S19x15, .f32⟩
  | .hbm, ⟨22, _⟩ => ⟨S19x15, .f32⟩
  | .hbm, ⟨23, _⟩ => ⟨S_, .f32⟩
  | .hbm, ⟨24, _⟩ => ⟨S19x15, .f32⟩
  | .hbm, ⟨25, _⟩ => ⟨S19x15, .f32⟩
  | .hbm, ⟨26, _⟩ => ⟨S_, .f32⟩
  | .hbm, ⟨27, _⟩ => ⟨S_, .f32⟩
  | .hbm, ⟨28, _⟩ => ⟨S19x15, .f32⟩
  | .hbm, ⟨29, _⟩ => ⟨S19x15, .f32⟩
  | .hbm, ⟨30, _⟩ => ⟨S_, .f32⟩
  | .hbm, ⟨31, _⟩ => ⟨S19, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x19x128x128, .f32⟩
  | .local _ .vmem, ⟨1, _⟩ => ⟨S1x19x128x128, .f32⟩
  | .local _ .vmem, ⟨2, _⟩ => ⟨S1x128x128, .i32⟩
  | .local _ .vmem, ⟨3, _⟩ => ⟨S1x128x128, .i32⟩
  | .local _ .vmem, ⟨4, _⟩ => ⟨S1x19x15, .f32⟩
  | .local _ .vmem, ⟨5, _⟩ => ⟨S1x19x15, .f32⟩
  | .local _ .vmem, ⟨6, _⟩ => ⟨S1x19x15, .f32⟩
  | .local _ .vmem, ⟨7, _⟩ => ⟨S1x19x15, .f32⟩
  | .local _ .vmem, ⟨8, _⟩ => ⟨S1x19x15, .f32⟩
  | .local _ .vmem, ⟨9, _⟩ => ⟨S1x19x15, .f32⟩
  | _, _ => ⟨S4x19x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_cst_7 : Ref sig .tc := ⟨.hbm, 32, rfl⟩
abbrev main_v16 : Ref sig .tc := ⟨.hbm, 33, rfl⟩
abbrev main_cst_8 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![2, 2, 4, 8], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat, arg2.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg1
  let c0_i32 : BitVec 32 := 0#32
  ![v1.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x19x15 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, false]

abbrev stage0_3 : Fin 2 → Memref sig .tc .vmem S1x19x15 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 2 → Memref sig .tc .vmem S1x19x15 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false, false]

class Facts₀ : Prop where
  inb_S1x19x15_S1x19x15_0_0_0 : ∀ a, (![0, 0, 0] : Fin 3 → Nat) a + S1x19x15.size a ≤ S1x19x15.size a
  h_S1x19x15 : 0 < S1x19x15.numel
  shapeCasts_S1x19x15_S19x15 : S1x19x15.ShapeCasts S19x15
  shapeCasts_S19x15_S1x19x15 : S19x15.ShapeCasts S1x19x15
  inb_S1x19x128x128_S1x19x128x128_0_0_0_0 : ∀ a, (![0, 0, 0, 0] : Fin 4 → Nat) a + S1x19x128x128.size a ≤ S1x19x128x128.size a
  h_S1x19x128x128 : 0 < S1x19x128x128.numel
  shapeCasts_S1x19x128x128_S19x128x128 : S1x19x128x128.ShapeCasts S19x128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  reduces_S19x128x128_S128x128 : S19x128x128.Reduces [0] S128x128
  shapeCasts_S128x128_S1x128x128 : S128x128.ShapeCasts S1x128x128
  broadcasts_S1x128x128_S19x128x128 : S1x128x128.Broadcasts S19x128x128
  iota_S19x128x128_d0_w32 : S19x128x128.Iotas .tc 32 [0]
  natLt_1_32 : 1 < 32
  reduces_S19x128x128_S19x128 : S19x128x128.Reduces [2] S19x128
  shapeCasts_S19x128_S19x128x1 : S19x128.ShapeCasts S19x128x1
  reduces_S19x128x1_S19x1 : S19x128x1.Reduces [1] S19x1
  inb_S1x19x15_S1x19x1_0_0_0 : ∀ a, (![0, 0, 0] : Fin 3 → Nat) a + S1x19x1.size a ≤ S1x19x15.size a
  h_S1x19x1 : 0 < S1x19x1.numel
  shapeCasts_S1x19x1_S19 : S1x19x1.ShapeCasts S19
  shapeCasts_S19x1_S19 : S19x1.ShapeCasts S19
  shapeCasts_S19_S1x19x1 : S19.ShapeCasts S1x19x1
  inb_S1x19x15_S1x19x1_0_0_1 : ∀ a, (![0, 0, 1] : Fin 3 → Nat) a + S1x19x1.size a ≤ S1x19x15.size a
  inb_S1x19x15_S1x19x1_0_0_2 : ∀ a, (![0, 0, 2] : Fin 3 → Nat) a + S1x19x1.size a ≤ S1x19x15.size a
  inb_S1x19x15_S1x19x1_0_0_3 : ∀ a, (![0, 0, 3] : Fin 3 → Nat) a + S1x19x1.size a ≤ S1x19x15.size a
  inb_S1x19x15_S1x19x1_0_0_4 : ∀ a, (![0, 0, 4] : Fin 3 → Nat) a + S1x19x1.size a ≤ S1x19x15.size a
  inb_S1x19x15_S1x19x1_0_0_5 : ∀ a, (![0, 0, 5] : Fin 3 → Nat) a + S1x19x1.size a ≤ S1x19x15.size a
  inb_S1x19x15_S1x19x1_0_0_6 : ∀ a, (![0, 0, 6] : Fin 3 → Nat) a + S1x19x1.size a ≤ S1x19x15.size a
  inb_S1x19x15_S1x19x1_0_0_7 : ∀ a, (![0, 0, 7] : Fin 3 → Nat) a + S1x19x1.size a ≤ S1x19x15.size a
  inb_S1x19x15_S1x19x1_0_0_8 : ∀ a, (![0, 0, 8] : Fin 3 → Nat) a + S1x19x1.size a ≤ S1x19x15.size a
  inb_S1x19x15_S1x19x1_0_0_9 : ∀ a, (![0, 0, 9] : Fin 3 → Nat) a + S1x19x1.size a ≤ S1x19x15.size a
  inb_S1x19x15_S1x19x1_0_0_10 : ∀ a, (![0, 0, 10] : Fin 3 → Nat) a + S1x19x1.size a ≤ S1x19x15.size a
  inb_S1x19x15_S1x19x1_0_0_11 : ∀ a, (![0, 0, 11] : Fin 3 → Nat) a + S1x19x1.size a ≤ S1x19x15.size a
  inb_S1x19x15_S1x19x1_0_0_12 : ∀ a, (![0, 0, 12] : Fin 3 → Nat) a + S1x19x1.size a ≤ S1x19x15.size a
  inb_S1x19x15_S1x19x1_0_0_13 : ∀ a, (![0, 0, 13] : Fin 3 → Nat) a + S1x19x1.size a ≤ S1x19x15.size a
  inb_S1x19x15_S1x19x1_0_0_14 : ∀ a, (![0, 0, 14] : Fin 3 → Nat) a + S1x19x1.size a ≤ S1x19x15.size a
  reducesTo_S2x19x15_S19x15_d0 : S2x19x15.ReducesTo [0] S19x15
  h_S_ : 0 < S_.numel
  bcast_S_S19x15 : S_.BroadcastsInDim S19x15 (![] : Fin 0 → Fin S19x15.rank)
  reducesTo_S19x15_S19_d1 : S19x15.ReducesTo [1] S19
  reducesTo_S19_S_d0 : S19.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x128x128.size a ≤ S4x19x512x1024.size a
  hwx0_0 : ∀ i : grid0.Coords, EltTy.bits .f32 = 32 ∨ (Rect.block (s := S4x19x512x1024) S1x19x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S4x512x1024.size a
  hwx0_1 : ∀ i : grid0.Coords, EltTy.bits .i32 = 32 ∨ (Rect.block (s := S4x512x1024) S1x128x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x19x15.size a ≤ S2x19x15.size a
  hwx0_2 : ∀ i : grid0.Coords, EltTy.bits .f32 = 32 ∨ (Rect.block (s := S2x19x15) S1x19x15.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x19x15.size a ≤ S2x19x15.size a
  hwx0_3 : ∀ i : grid0.Coords, EltTy.bits .f32 = 32 ∨ (Rect.block (s := S2x19x15) S1x19x15.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x19x15.size a ≤ S2x19x15.size a
  hwx0_4 : ∀ i : grid0.Coords, EltTy.bits .f32 = 32 ∨ (Rect.block (s := S2x19x15) S1x19x15.size (cc0_transform_4 i) (hinb0_4 i)).WholeWords (EltTy.packing .f32)

variable [Facts₀]

abbrev win0_0 : Pipeline.Window sig grid0 :=
  Pipeline.Window.ofSpec (Memref.whole main_arg0) S1x19x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x19x15.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x19x15.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x19x15.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x19x512x1024 : Shape := ⟨4, ![4, 19, 512, 1024]⟩
abbrev S4x512x1024 : Shape := ⟨3, ![4, 512, 1024]⟩
abbrev S_ : Shape := ⟨0, ![]⟩
abbrev S4x1x512x1024 : Shape := ⟨4, ![4, 1, 512, 1024]⟩
abbrev S19x4x512x1024 : Shape := ⟨4, ![19, 4, 512, 1024]⟩
abbrev S19x2097152 : Shape := ⟨2, ![19, 2097152]⟩
abbrev S2097152 : Shape := ⟨1, ![2097152]⟩
abbrev S1x2097152 : Shape := ⟨2, ![1, 2097152]⟩
abbrev S19 : Shape := ⟨1, ![19]⟩
abbrev S19x1 : Shape := ⟨2, ![19, 1]⟩
abbrev S39845888 : Shape := ⟨1, ![39845888]⟩
abbrev S286 : Shape := ⟨1, ![286]⟩
abbrev S39845888x1 : Shape := ⟨2, ![39845888, 1]⟩
abbrev S285 : Shape := ⟨1, ![285]⟩
abbrev S19x15 : Shape := ⟨2, ![19, 15]⟩

abbrev nBuf : Space → Nat
  | .hbm => 104
  | .vmem => 0
  | .smem => 0
  | _ => 0

abbrev bufTy : (tb : Table) → Fin (tcTables nBuf tb) → BufTy
  | .hbm, ⟨0, _⟩ => ⟨S4x19x512x1024, .f32⟩
  | .hbm, ⟨1, _⟩ => ⟨S4x512x1024, .i32⟩
  | .hbm, ⟨2, _⟩ => ⟨S_, .f32⟩
  | .hbm, ⟨3, _⟩ => ⟨S4x512x1024, .f32⟩
  | .hbm, ⟨4, _⟩ => ⟨S_, .f32⟩
  | .hbm, ⟨5, _⟩ => ⟨S4x512x1024, .f32⟩
  | .hbm, ⟨6, _⟩ => ⟨S4x512x1024, .f32⟩
  | .hbm, ⟨7, _⟩ => ⟨S4x1x512x1024, .f32⟩
  | .hbm, ⟨8, _⟩ => ⟨S4x19x512x1024, .f32⟩
  | .hbm, ⟨9, _⟩ => ⟨S4x19x512x1024, .f32⟩
  | .hbm, ⟨10, _⟩ => ⟨S4x19x512x1024, .f32⟩
  | .hbm, ⟨11, _⟩ => ⟨S_, .f32⟩
  | .hbm, ⟨12, _⟩ => ⟨S4x512x1024, .f32⟩
  | .hbm, ⟨13, _⟩ => ⟨S4x1x512x1024, .f32⟩
  | .hbm, ⟨14, _⟩ => ⟨S4x19x512x1024, .f32⟩
  | .hbm, ⟨15, _⟩ => ⟨S4x19x512x1024, .f32⟩
  | .hbm, ⟨16, _⟩ => ⟨S19x4x512x1024, .f32⟩
  | .hbm, ⟨17, _⟩ => ⟨S19x2097152, .f32⟩
  | .hbm, ⟨18, _⟩ => ⟨S2097152, .i32⟩
  | .hbm, ⟨19, _⟩ => ⟨S1x2097152, .i32⟩
  | .hbm, ⟨20, _⟩ => ⟨S19, .i32⟩
  | .hbm, ⟨21, _⟩ => ⟨S19x1, .i32⟩
  | .hbm, ⟨22, _⟩ => ⟨S19x2097152, .i32⟩
  | .hbm, ⟨23, _⟩ => ⟨S19x2097152, .i32⟩
  | .hbm, ⟨24, _⟩ => ⟨S19x2097152, .i1⟩
  | .hbm, ⟨25, _⟩ => ⟨S19x2097152, .f32⟩
  | .hbm, ⟨26, _⟩ => ⟨S_, .f32⟩
  | .hbm, ⟨27, _⟩ => ⟨S19x2097152, .f32⟩
  | .hbm, ⟨28, _⟩ => ⟨S19x2097152, .f32⟩
  | .hbm, ⟨29, _⟩ => ⟨S19x2097152, .f32⟩
  | .hbm, ⟨30, _⟩ => ⟨S19x2097152, .i32⟩
  | .hbm, ⟨31, _⟩ => ⟨S_, .i32⟩
  | .hbm, ⟨32, _⟩ => ⟨S19x2097152, .i32⟩
  | .hbm, ⟨33, _⟩ => ⟨S19x2097152, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S19x2097152, .i32⟩
  | .hbm, ⟨38, _⟩ => ⟨S19x2097152, .i32⟩
  | .hbm, ⟨39, _⟩ => ⟨S_, .i32⟩
  | .hbm, ⟨40, _⟩ => ⟨S19x2097152, .i32⟩
  | .hbm, ⟨41, _⟩ => ⟨S19x2097152, .i32⟩
  | .hbm, ⟨42, _⟩ => ⟨S_, .f32⟩
  | .hbm, ⟨43, _⟩ => ⟨S19x2097152, .f32⟩
  | .hbm, ⟨44, _⟩ => ⟨S19x2097152, .i1⟩
  | .hbm, ⟨45, _⟩ => ⟨S19, .i32⟩
  | .hbm, ⟨46, _⟩ => ⟨S19x1, .i32⟩
  | .hbm, ⟨47, _⟩ => ⟨S_, .i32⟩
  | .hbm, ⟨48, _⟩ => ⟨S19x1, .i32⟩
  | .hbm, ⟨49, _⟩ => ⟨S19x1, .i32⟩
  | .hbm, ⟨50, _⟩ => ⟨S19x2097152, .i32⟩
  | .hbm, ⟨51, _⟩ => ⟨S19x2097152, .i32⟩
  | .hbm, ⟨52, _⟩ => ⟨S_, .i32⟩
  | .hbm, ⟨53, _⟩ => ⟨S_, .i32⟩
  | .hbm, ⟨54, _⟩ => ⟨S19x2097152, .i32⟩
  | .hbm, ⟨55, _⟩ => ⟨S19x2097152, .i32⟩
  | .hbm, ⟨56, _⟩ => ⟨S39845888, .i32⟩
  | .hbm, ⟨57, _⟩ => ⟨S_, .f32⟩
  | .hbm, ⟨58, _⟩ => ⟨S39845888, .f32⟩
  | .hbm, ⟨59, _⟩ => ⟨S_, .f32⟩
  | .hbm, ⟨60, _⟩ => ⟨S286, .f32⟩
  | .hbm, ⟨61, _⟩ => ⟨S39845888x1, .i32⟩
  | .hbm, ⟨62, _⟩ => ⟨S286, .f32⟩
  | .hbm, ⟨63, _⟩ => ⟨S285, .f32⟩
  | .hbm, ⟨64, _⟩ => ⟨S19x15, .f32⟩
  | .hbm, ⟨65, _⟩ => ⟨S39845888, .f32⟩
  | .hbm, ⟨66, _⟩ => ⟨S_, .f32⟩
  | .hbm, ⟨67, _⟩ => ⟨S286, .f32⟩
  | .hbm, ⟨68, _⟩ => ⟨S39845888x1, .i32⟩
  | .hbm, ⟨69, _⟩ => ⟨S286, .f32⟩
  | .hbm, ⟨70, _⟩ => ⟨S285, .f32⟩
  | .hbm, ⟨71, _⟩ => ⟨S19x15, .f32⟩
  | .hbm, ⟨72, _⟩ => ⟨S39845888, .f32⟩
  | .hbm, ⟨73, _⟩ => ⟨S_, .f32⟩
  | .hbm, ⟨74, _⟩ => ⟨S286, .f32⟩
  | .hbm, ⟨75, _⟩ => ⟨S39845888x1, .i32⟩
  | .hbm, ⟨76, _⟩ => ⟨S286, .f32⟩
  | .hbm, ⟨77, _⟩ => ⟨S285, .f32⟩
  | .hbm, ⟨78, _⟩ => ⟨S19x15, .f32⟩
  | .hbm, ⟨79, _⟩ => ⟨S_, .f32⟩
  | .hbm, ⟨80, _⟩ => ⟨S19x15, .f32⟩
  | .hbm, ⟨81, _⟩ => ⟨S19x15, .i1⟩
  | .hbm, ⟨82, _⟩ => ⟨S_, .f32⟩
  | .hbm, ⟨83, _⟩ => ⟨S_, .f32⟩
  | .hbm, ⟨84, _⟩ => ⟨S19x15, .f32⟩
  | .hbm, ⟨85, _⟩ => ⟨S19x15, .f32⟩
  | .hbm, ⟨86, _⟩ => ⟨S19x15, .f32⟩
  | .hbm, ⟨87, _⟩ => ⟨S19x15, .f32⟩
  | .hbm, ⟨88, _⟩ => ⟨S19x15, .f32⟩
  | .hbm, ⟨89, _⟩ => ⟨S19x15, .f32⟩
  | .hbm, ⟨90, _⟩ => ⟨S19x15, .f32⟩
  | .hbm, ⟨91, _⟩ => ⟨S_, .f32⟩
  | .hbm, ⟨92, _⟩ => ⟨S19x15, .f32⟩
  | .hbm, ⟨93, _⟩ => ⟨S19x15, .f32⟩
  | .hbm, ⟨94, _⟩ => ⟨S_, .f32⟩
  | .hbm, ⟨95, _⟩ => ⟨S_, .f32⟩
  | .hbm, ⟨96, _⟩ => ⟨S19x15, .f32⟩
  | .hbm, ⟨97, _⟩ => ⟨S19x15, .f32⟩
  | .hbm, ⟨98, _⟩ => ⟨S_, .f32⟩
  | .hbm, ⟨99, _⟩ => ⟨S19, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S4x19x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_c_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_call1_v0 : Ref sig .tc := ⟨.hbm, 53, rfl⟩
abbrev main_call1_v1 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_call3_v0 : Ref sig .tc := ⟨.hbm, 95, rfl⟩
abbrev main_call3_v1 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_cst_17 : Ref sig .tc := ⟨.hbm, 100, rfl⟩
abbrev main_v68 : Ref sig .tc := ⟨.hbm, 101, rfl⟩
abbrev main_cst_18 : Ref sig .tc := ⟨.hbm, 102, rfl⟩
abbrev main_v69 : Ref sig .tc := ⟨.hbm, 103, rfl⟩

abbrev nD : Nat := 1
abbrev τ : Topo := Topo.v7x

variable {F : FTy → Type} [FloatOps F]

class Facts₀ : Prop where
  reducesTo_S4x19x512x1024_S4x512x1024_d1 : S4x19x512x1024.ReducesTo [1] S4x512x1024
  h_S_ : 0 < S_.numel
  bcast_S_S4x512x1024 : S_.BroadcastsInDim S4x512x1024 (![] : Fin 0 → Fin S4x512x1024.rank)
  bcast_S4x512x1024_S4x1x512x1024_0_2_3 : S4x512x1024.BroadcastsInDim S4x1x512x1024 (![0, 2, 3] : Fin 3 → Fin S4x1x512x1024.rank)
  bcast_S4x1x512x1024_S4x19x512x1024_0_1_2_3 : S4x1x512x1024.BroadcastsInDim S4x19x512x1024 (![0, 1, 2, 3] : Fin 4 → Fin S4x19x512x1024.rank)
  transposes_S4x19x512x1024_S19x4x512x1024_1_0_2_3 : S4x19x512x1024.Transposes [1, 0, 2, 3] S19x4x512x1024
  shapeCasts_S19x4x512x1024_S19x2097152 : S19x4x512x1024.ShapeCasts S19x2097152
  shapeCasts_S4x512x1024_S2097152 : S4x512x1024.ShapeCasts S2097152
  bcast_S2097152_S1x2097152_1 : S2097152.BroadcastsInDim S1x2097152 (![1] : Fin 1 → Fin S1x2097152.rank)
  bcast_S19_S19x1_0 : S19.BroadcastsInDim S19x1 (![0] : Fin 1 → Fin S19x1.rank)
  bcast_S1x2097152_S19x2097152_0_1 : S1x2097152.BroadcastsInDim S19x2097152 (![0, 1] : Fin 2 → Fin S19x2097152.rank)
  bcast_S19x1_S19x2097152_0_1 : S19x1.BroadcastsInDim S19x2097152 (![0, 1] : Fin 2 → Fin S19x2097152.rank)
  bcast_S_S19x2097152 : S_.BroadcastsInDim S19x2097152 (![] : Fin 0 → Fin S19x2097152.rank)
  bcast_S_S19x1 : S_.BroadcastsInDim S19x1 (![] : Fin 0 → Fin S19x1.rank)
  shapeCasts_S19x2097152_S39845888 : S19x2097152.ShapeCasts S39845888
  bcast_S_S39845888 : S_.BroadcastsInDim S39845888 (![] : Fin 0 → Fin S39845888.rank)
  bcast_S_S286 : S_.BroadcastsInDim S286 (![] : Fin 0 → Fin S286.rank)
  bcast_S39845888_S39845888x1_0 : S39845888.BroadcastsInDim S39845888x1 (![0] : Fin 1 → Fin S39845888x1.rank)
  slices_S286_S285_0 : S286.Slices ![0] S285
  shapeCasts_S285_S19x15 : S285.ShapeCasts S19x15
  bcast_S_S19x15 : S_.BroadcastsInDim S19x15 (![] : Fin 0 → Fin S19x15.rank)
  reducesTo_S19x15_S19_d1 : S19x15.ReducesTo [1] S19
  reducesTo_S19_S_d0 : S19.ReducesTo [0] S_
  scatter_S286_S39845888x1_S39845888_n_0_0_1_wf : ScatterDims.WF S286 S39845888x1 S39845888 [] [0] [0] 1

variable [Facts₀]

def scatter_S286_S39845888x1_S39845888_n_0_0_1 : ScatterDims S286 S39845888x1 S39845888 where
  updateWindowDims := []
  insertedWindowDims := [0]
  scatterDimsToOperandDims := [0]
  indexVectorDim := 1
  wf := scatter_S286_S39845888x1_S39845888_n_0_0_1_wf

class Facts : Prop extends Facts₀ where

variable [Facts]
-- ==== Proof.HistogramSpec.lean ====
/-
  The three class-by-bin histograms, as plain functions of the two argument arrays.

  For a pixel (n, h, w) and a class c the confidence is the softmax over the 19 classes,
  conf = exp(x_c - M) / Σ_k exp(x_k - M), with M the largest logit of the pixel. The confidence
  falls in bin b ∈ {0, …, 14} when it is positive and clip(⌈15·conf⌉ - 1, 0, 14) = b. The histograms are

    counts c b = Σ_pixels [conf in bin b]
    hits   c b = Σ_pixels [conf in bin b] · [label = c]
    mass   c b = Σ_pixels [conf in bin b] · conf

  over all 4·512·1024 pixels, as extended reals. Both programs compute exactly these three arrays
  (in different orders of summation) before an identical scalar epilogue.
-/
import Idealize.ShloMosaic.PureOps.Ideal
import Idealize.ShloMosaic.Lib.ValueIdx

noncomputable section

namespace Cert.Histogram

open Idealize.ShloMosaic Idealize.ShloMosaic.ValueIdx

abbrev SLogits : Shape := ⟨4, ![4, 19, 512, 1024]⟩
abbrev SLabels : Shape := ⟨3, ![4, 512, 1024]⟩
abbrev SBins : Shape := ⟨2, ![19, 15]⟩

variable (X : FVec Ideal SLogits .f32) (L : IVec SLabels 32)

/-- The largest logit of a pixel: the maximum over the 19 classes, folded from -∞. -/
def pixMax (n : Fin 4) (h : Fin 512) (w : Fin 1024) : EReal :=
  (Finset.univ : Finset (Fin 19)).fold max (FloatOps.ofBits (F := Ideal) .f32 0xFF800000#32) (fun k => X (ix4 n k h w))

/-- exp(x_c - M). -/
def pixExp (n : Fin 4) (c : Fin 19) (h : Fin 512) (w : Fin 1024) : EReal :=
  FloatOps.exp (F := Ideal) (φ := .f32) (FloatOps.subf (F := Ideal) (φ := .f32) (X (ix4 n c h w)) (pixMax X n h w))

/-- Σ_k exp(x_k - M). -/
def pixSum (n : Fin 4) (h : Fin 512) (w : Fin 1024) : EReal :=
  ∑ k : Fin 19, pixExp X n k h w

/-- The softmax confidence of class c at a pixel. -/
def conf (n : Fin 4) (c : Fin 19) (h : Fin 512) (w : Fin 1024) : EReal :=
  FloatOps.divf (F := Ideal) (φ := .f32) (pixExp X n c h w) (pixSum X n h w)

/-- The bin number clip(⌈15·conf⌉ - 1, 0, 14) as a 32-bit word. -/
def binWord (n : Fin 4) (c : Fin 19) (h : Fin 512) (w : Fin 1024) : BitVec 32 :=
  IntOp.minsi 14#32 (IntOp.maxsi 0#32 (IntOp.subi
    (FloatOps.fptosi (F := Ideal) (φ := .f32) 32 (FloatOps.ceil (F := Ideal) (φ := .f32)
      (FloatOps.mulf (F := Ideal) (φ := .f32) (conf X n c h w) (FloatOps.ofBits (F := Ideal) .f32 0x41700000#32))))
    1#32))

/-- conf > 0, as a bit. -/
def positive (n : Fin 4) (c : Fin 19) (h : Fin 512) (w : Fin 1024) : BitVec 1 :=
  FloatOps.cmpf (F := Ideal) (φ := .f32) .ogt (conf X n c h w) (FloatOps.ofBits (F := Ideal) .f32 0x00000000#32)

/-- The confidence lies in bin b: the bin number is b and the confidence is positive, as a bit. -/
def inBin (b : Fin 15) (n : Fin 4) (c : Fin 19) (h : Fin 512) (w : Fin 1024) : BitVec 1 :=
  IntOp.andi (IntOp.cmpi .eq (binWord X n c h w) (BitVec.ofNat 32 b.val)) (positive X n c h w)

/-- The indicator [conf in bin b] as an extended real, 0 or 1. -/
def weight (b : Fin 15) (n : Fin 4) (c : Fin 19) (h : Fin 512) (w : Fin 1024) : EReal :=
  FloatOps.sitofp (F := Ideal) .f32 (BitVec.setWidth 32 (inBin X b n c h w))

/-- The indicator [label = c] as an extended real, 0 or 1. -/
def isLabel (n : Fin 4) (c : Fin 19) (h : Fin 512) (w : Fin 1024) : EReal :=
  FloatOps.sitofp (F := Ideal) .f32 (BitVec.setWidth 32 (IntOp.cmpi .eq (L (ix3 n h w)) (BitVec.ofNat 32 c.val)))

/-- How many pixels have class c's confidence in bin b. -/
def counts (c : Fin 19) (b : Fin 15) : EReal :=
  ∑ n : Fin 4, ∑ h : Fin 512, ∑ w : Fin 1024, weight X b n c h w

/-- … of which how many are labelled c. -/
def hits (c : Fin 19) (b : Fin 15) : EReal :=
  ∑ n : Fin 4, ∑ h : Fin 512, ∑ w : Fin 1024, weight X b n c h w * isLabel L n c h w

/-- … and the sum of their confidences. -/
def mass (c : Fin 19) (b : Fin 15) : EReal :=
  ∑ n : Fin 4, ∑ h : Fin 512, ∑ w : Fin 1024, weight X b n c h w * conf X n c h w

/-- The three histograms as [19, 15] arrays. -/
def countsArr : FVec Ideal SBins .f32 := fun j => counts X (j 0) (j 1)
def hitsArr : FVec Ideal SBins .f32 := fun j => hits X L (j 0) (j 1)
def massArr : FVec Ideal SBins .f32 := fun j => mass X (j 0) (j 1)

end Cert.Histogram

end
-- ==== Proof.Epilogue.lean ====
/-
  The scalar both programs compute from the three [19, 15] histograms (counts C, hits A, mass S):

    nonzero  = C > 0
    safe     = where(nonzero, C, 1)
    per_bin  = where(nonzero, |S / safe - A / safe| · C / 2097152, 0)
    result   = (Σ_c Σ_b per_bin c b) / 19

  written once, with the operations in the order both programs apply them, and the sum of the two per-core
  partial histograms that precedes it on the kernel's side. The definition is never opened: the two programs
  are compared by showing that each applies it to the same three histograms.
-/
import proofs.«172019_j2396591751307_1_alg».proof.Proof.HistogramSpec
import Idealize.ShloMosaic.PureOps.Ideal.Laws

noncomputable section

namespace Cert.Histogram

open Idealize.ShloMosaic Idealize.ShloMosaic.ValueIdx

abbrev SScalar : Shape := ⟨0, ![]⟩
abbrev SClasses : Shape := ⟨1, ![19]⟩
abbrev SCores : Shape := ⟨3, ![2, 19, 15]⟩

theorem scalar_pos : 0 < SScalar.numel := by decide
theorem scalar_to_bins : SScalar.BroadcastsInDim SBins (![] : Fin 0 → Fin SBins.rank) := by decide
theorem bins_to_classes : SBins.ReducesTo [1] SClasses := by decide
theorem classes_to_scalar : SClasses.ReducesTo [0] SScalar := by decide
theorem cores_to_bins : SCores.ReducesTo [0] SBins := by decide
theorem cores_drop : SCores.Reduces [0] SBins := by decide

/-- where(p, x, v) for a scalar v: the scalar is broadcast to the histogram's shape and selected against. -/
def whereBins (p : IVec SBins 1) (x : FVec Ideal SBins .f32) (v : FVec Ideal SScalar .f32) : FVec Ideal SBins .f32 :=
  select p x (broadcastInDim SBins ![] scalar_to_bins (id v))

/-- The calibration error from the three histograms. -/
def epilogue (C A S : FVec Ideal SBins .f32) : FVec Ideal SScalar .f32 :=
  let nonzero : IVec SBins 1 :=
    cmpf (F := Ideal) .ogt C (broadcastInDim SBins ![] scalar_to_bins (constant (F := Ideal) SScalar .f32 0x00000000#32))
  let safe := whereBins nonzero C (constant (F := Ideal) SScalar .f32 0x3F800000#32)
  let gap := Host.absf (F := Ideal) (subf (F := Ideal) (Host.divf (F := Ideal) S safe) (Host.divf (F := Ideal) A safe))
  let share := Host.divf (F := Ideal) (mulf (F := Ideal) gap C)
    (broadcastInDim SBins ![] scalar_to_bins (constant (F := Ideal) SScalar .f32 0x4A000000#32))
  let perBin := whereBins nonzero share (constant (F := Ideal) SScalar .f32 0x00000000#32)
  let perClass : FVec Ideal SClasses .f32 :=
    Host.reduceAdd (F := Ideal) perBin (constant (F := Ideal) SScalar .f32 0x00000000#32) bins_to_classes scalar_pos
  let total : FVec Ideal SScalar .f32 :=
    Host.reduceAdd (F := Ideal) perClass (constant (F := Ideal) SScalar .f32 0x00000000#32) classes_to_scalar scalar_pos
  Host.divf (F := Ideal) total (constant (F := Ideal) SScalar .f32 0x41980000#32)

/-- The sum over the two cores of a [2, 19, 15] array of per-core partial histograms. -/
def coreSum (P : FVec Ideal SCores .f32) : FVec Ideal SBins .f32 :=
  fun j => P (ix3 0 (j 0) (j 1)) + P (ix3 1 (j 0) (j 1))

/-- The host's sum over axis 0 from the constant 0 is the sum of the two cores' entries. -/
theorem reduceAdd_cores (P : FVec Ideal SCores .f32) :
    Host.reduceAdd (F := Ideal) P (constant (F := Ideal) SScalar .f32 0x00000000#32) cores_to_bins scalar_pos = coreSum P := by
  funext j
  simp only [Host.reduceAdd, Ideal.hostReduceAdd_def]
  rw [Ideal.hostReduceAdd_single cores_to_bins cores_drop]
  simp only [constant, Ideal.ofBits_def, Ideal.ofBits_zero_f32, zero_add]
  show ∑ k : Fin 2, P (cores_drop.lift j k) = _
  rw [Fin.sum_univ_two]
  unfold coreSum
  refine congrArg₂ (· + ·) (congrArg P (funext fun a => Fin.ext ?_)) (congrArg P (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl

end Cert.Histogram

end
-- ==== Proof.KernelEpilogue.lean ====
/-
  The kernel's program after its region: the host sums each of the three [2, 19, 15] result arrays over the two
  cores, and applies to the three [19, 15] sums the operations of `Cert.Histogram.epilogue`. So every run of the
  kernel's program ends with the calibration error of the core-summed histograms, the argument arrays unchanged.
-/
import proofs.«172019_j2396591751307_1_alg».proof.Proof.Epilogue
import proofs.«172019_j2396591751307_1_alg».proof.Proof.Gen.KernelIdeal.Frame

set_option maxRecDepth 16384

noncomputable section

namespace Cert.Histogram.Kernel

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Output window w's array when the kernel's region has run: for w = 2, 3, 4 the [2, 19, 15] arrays of per-core
    partial counts, hits and mass. -/
abbrev arr (c : Dev nD) (w : Fin cfg0.W) := (dats (F := Ideal) m 0 c).arrAt w cfg0.N

set_option maxHeartbeats 400000 in
/-- What the operations after the region leave in the result buffer: the three arrays are summed over the cores
    (`reduceAdd_cores`), and the remaining operations are those of `epilogue`, in its order. -/
theorem tail_result (c : Dev nD) :
    Pipeline.afterTail₀ cfgs (dats (F := Ideal) m) 0 (V0 m) [hostOps1, hostOps1_1, hostOps1_2, hostOps1_3, hostOps1_4] c main_v17
      = epilogue (coreSum (arr m c 2)) (coreSum (arr m c 3)) (coreSum (arr m c 4)) := by
  unfold Pipeline.afterTail₀
  simp only [hostOps1, hostOps1_1, hostOps1_2, hostOps1_3, hostOps1_4, List.flatten_cons, List.flatten_nil, List.append_nil,
    List.cons_append, List.nil_append]
  after_results_simp
  have h2 : Pipeline.withArrays (cfgs 0).spec c (V0 m c) (fun w => (dats (F := Ideal) m 0 c).arrAt w (cfgs 0).N)
      (Proc.devRef .tc main_v0_0) = arr m c 2 := Pipeline.withArrays_arr spec0 launch0.win.arr_inj c _ _ 2
  have h3 : Pipeline.withArrays (cfgs 0).spec c (V0 m c) (fun w => (dats (F := Ideal) m 0 c).arrAt w (cfgs 0).N)
      (Proc.devRef .tc main_v0_1) = arr m c 3 := Pipeline.withArrays_arr spec0 launch0.win.arr_inj c _ _ 3
  have h4 : Pipeline.withArrays (cfgs 0).spec c (V0 m c) (fun w => (dats (F := Ideal) m 0 c).arrAt w (cfgs 0).N)
      (Proc.devRef .tc main_v0_2) = arr m c 4 := Pipeline.withArrays_arr spec0 launch0.win.arr_inj c _ _ 4
  rw [h2, h3, h4]
  generalize arr m c 2 = P2
  generalize arr m c 3 = P3
  generalize arr m c 4 = P4
  rw [← reduceAdd_cores P2, ← reduceAdd_cores P3, ← reduceAdd_cores P4]
  rfl

/-- The result buffer is none of the region's arrays, so the run leaves in it what the operations after the region do. -/
theorem result_bypasses : main_v17 ∈ Pipeline.restRefs sig (cfgs 0).spec :=
  Pipeline.mem_restRefs_of main_v17 rfl (by decide)

/-- Every weakly fair execution of the kernel's program ends with the calibration error of the core-summed
    histograms in its result, and its two argument arrays as they were. -/
theorem kernel_run :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v17)
            = epilogue (coreSum (arr m c 2)) (coreSum (arr m c 3)) (coreSum (arr m c 4))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
    ⟨((h c).2 main_v17 result_bypasses).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Histogram.Kernel

end
-- ==== Proof.ReferenceEpilogue.lean ====
/-
  The reference's last stages are the calibration error of its three histograms: from the three [19, 15] arrays it
  has scattered into (counts, hits, mass) it applies, operation by operation, exactly the operations of
  `Cert.Histogram.epilogue`.
-/
import proofs.«172019_j2396591751307_1_alg».proof.Proof.Epilogue
import proofs.«172019_j2396591751307_1_alg».proof.Proof.ReferenceRead

noncomputable section

namespace Cert.Histogram.Reference

open Idealize.ShloMosaic Cert.ReferenceIdeal Cert.ReferenceIdeal.ReadP

/-- The reference's result is the calibration error of the histograms it computed. -/
theorem result_eq_epilogue (x0 : FVec Ideal SLogits .f32) (x1 : IVec SLabels 32) :
    val_main_v69 (F := Ideal) x0 x1
      = epilogue (val_main_v43 (F := Ideal) x0) (val_main_v49 (F := Ideal) x0 x1) (val_main_v55 (F := Ideal) x0) := by
  unfold val_main_v69 val_main_v68 val_main_v67 val_main_v66 val_main_v65 val_main_v64 val_main_v63 val_main_v62
    val_main_v61 val_main_v60 val_main_v59 val_main_v58 val_main_v57 val_main_v56
    val_main_call3_v1 val_main_call3_v0 val_main_call2_v1 val_main_call2_v0
    val_main_cst_18 val_main_cst_17 val_main_cst_16 val_main_cst_15 val_main_cst_14 val_main_cst_13 val_main_cst_12
  generalize val_main_v43 (F := Ideal) x0 = C
  generalize val_main_v49 (F := Ideal) x0 x1 = A
  generalize val_main_v55 (F := Ideal) x0 = S
  rfl

end Cert.Histogram.Reference

end
-- ==== Proof.BinEntryWords.lean ====
/-
  Counting by a bin number: the words and the sums behind a histogram accumulated entry by entry.

  A histogram with 19 rows (classes) and 15 columns (bins) is kept as a vector of 285 = 19·15 entries, entry
  c·15 + b for row c and column b, followed by one spare entry 285 that collects what is to be dropped. Every element
  (c', p) of a [19, P] array names the entry c'·15 + r, r its bin number clipped into 0 … 14, when it is to be counted,
  and the spare entry otherwise. This file has

  * the words: the clipped bin number is one of 0 … 14; the word c'·15 + r of a row c' < 19 and a bin r < 15 reads,
    signed, as that number (nothing overflows); it is c·15 + b exactly when c' = c and r = b; the spare word 285 is
    none of them;
  * the indicators: a one-bit word widened to 32 bits and converted to a number, or converted unsigned directly, is 1
    when the bit is set and 0 otherwise;
  * the sums: a sum over the range of a·b numbers is the iterated sum over the a blocks of b numbers; and a sum of
    terms that vanish off one row is that row's sum.
-/
import Idealize.ShloMosaic.PureOps.Ideal
import Idealize.ShloMosaic.Lib.ValueIdx
import Idealize.ShloMosaic.Lib.WordArith
import Idealize.ShloMosaic.Lib.Affine

noncomputable section

open scoped BigOperators

namespace Cert.Histogram.Reference

open Idealize.ShloMosaic Idealize.ShloMosaic.ValueIdx

/-! ## Sums over a range of a·b numbers -/

/-- Position j of block i, among a blocks of b. -/
def blockPos {N : Nat} (a b : Nat) (hN : a * b = N) (i : Fin a) (j : Fin b) : Fin N :=
  ⟨i.val * b + j.val, by
    have hi := i.isLt; have hj := j.isLt
    calc i.val * b + j.val < i.val * b + b := by omega
      _ = (i.val + 1) * b := (Nat.succ_mul _ _).symm
      _ ≤ a * b := Nat.mul_le_mul_right b hi
      _ = N := hN⟩

theorem blockPos_val {N : Nat} (a b : Nat) (hN : a * b = N) (i : Fin a) (j : Fin b) :
    (blockPos a b hN i j).val = i.val * b + j.val := rfl

/-- A sum over a·b numbers is the sum over the a blocks of the sums over the b positions of a block. -/
theorem sum_blocks {M : Type*} [AddCommMonoid M] {N : Nat} (a b : Nat) (hN : a * b = N) (f : Fin N → M) :
    ∑ p, f p = ∑ i : Fin a, ∑ j : Fin b, f (blockPos a b hN i j) := by
  subst hN
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm, Nat.add_comm]

/-! ## The words -/

/-- The clipped bin number is one of 0 … 14. -/
theorem clip_bin (y : BitVec 32) :
    ∃ r : Fin 15, IntOp.minsi 14#32 (IntOp.maxsi 0#32 y) = BitVec.ofNat 32 r.val := by
  have h2 : 2 * (IntOp.maxsi 0#32 y).toNat < 2 ^ 32 := WordArith.two_mul_toNat_maxsi_zero_lt y
  have h3 := WordArith.toNat_minsi_of_lt 14#32 (IntOp.maxsi 0#32 y) (by decide) (by omega)
  have h14 : (14#32 : BitVec 32).toNat = 14 := by decide
  rw [h14] at h3
  refine ⟨⟨(IntOp.minsi 14#32 (IntOp.maxsi 0#32 y)).toNat, by rw [h3]; omega⟩, ?_⟩
  apply BitVec.eq_of_toNat_eq
  rw [BitVec.toNat_ofNat]
  show _ = (IntOp.minsi 14#32 (IntOp.maxsi 0#32 y)).toNat % 2 ^ 32
  omega

/-- The word of row c' < 19 and bin r < 15 reads, signed, as c'·15 + r. -/
theorem entry_word_toInt (c' : Fin 19) (r : Fin 15) :
    (IntOp.addi (IntOp.muli (BitVec.ofNat 32 c'.val) 15#32) (BitVec.ofNat 32 r.val)).toInt
      = ((c'.val * 15 + r.val : Nat) : Int) := by
  have e : IntOp.addi (IntOp.muli (BitVec.ofNat 32 c'.val) 15#32) (BitVec.ofNat 32 r.val)
      = BitVec.ofNat 32 (c'.val * 15 + r.val) := by
    show BitVec.ofNat 32 c'.val * BitVec.ofNat 32 15 + BitVec.ofNat 32 r.val = _
    rw [← BitVec.ofNat_mul, ← BitVec.ofNat_add]
  rw [e]
  exact WordArith.toInt_ofNat_small _ (by have := c'.isLt; have := r.isLt; omega)

/-- WHICH ENTRY AN ELEMENT NAMES. An element of row c' whose clipped bin number is the word W and whose "count me"
    bit is P names entry c·15 + b exactly when c' = c, the bit is set and W is the word of b. -/
theorem names_entry_iff (c' c : Fin 19) (b : Fin 15) (P : BitVec 1) (W : BitVec 32)
    (hW : ∃ r : Fin 15, W = BitVec.ofNat 32 r.val) :
    (Scalar.select P (IntOp.addi (IntOp.muli (BitVec.ofNat 32 c'.val) 15#32) W) 285#32).toInt
        = ((c.val * 15 + b.val : Nat) : Int)
      ↔ c' = c ∧ IntOp.andi (IntOp.cmpi .eq W (BitVec.ofNat 32 b.val)) P = 1#1 := by
  obtain ⟨r, rfl⟩ := hW
  have hc' := c'.isLt; have hc := c.isLt; have hb := b.isLt; have hr := r.isLt
  rw [IntOp.andi_eq_one, IntOp.cmpi_eq]
  rcases BitVec.eq_zero_or_eq_one P with h | h
  · subst h
    rw [select_zero]
    have h285 : (285#32 : BitVec 32).toInt = 285 := by decide
    rw [h285]
    constructor
    · intro h; omega
    · intro h; exact absurd h.2.2 (by decide)
  · subst h
    rw [select_one, entry_word_toInt]
    constructor
    · intro h
      have h' : c'.val * 15 + r.val = c.val * 15 + b.val := by exact_mod_cast h
      have hcc : c'.val = c.val := by omega
      have hrb : r.val = b.val := by omega
      exact ⟨Fin.ext hcc, by rw [hrb], rfl⟩
    · rintro ⟨hcc, hrb, -⟩
      subst hcc
      have h1 := congrArg BitVec.toNat hrb
      rw [BitVec.toNat_ofNat, BitVec.toNat_ofNat] at h1
      have : r.val = b.val := by omega
      rw [this]

/-! ## The indicators -/

/-- A bit widened to 32 bits and converted as a signed number: 1 when set, 0 otherwise. -/
theorem indicator_signed (a : BitVec 1) :
    FloatOps.sitofp (F := Ideal) .f32 (BitVec.setWidth 32 a) = if a = 1#1 then 1 else 0 := by
  rcases BitVec.eq_zero_or_eq_one a with h | h <;> subst h
  · rw [if_neg (by decide)]
    show (((BitVec.setWidth 32 0#1).toInt : ℝ) : EReal) = 0
    rw [show (BitVec.setWidth 32 0#1).toInt = 0 from by decide]; norm_num
  · rw [if_pos rfl]
    show (((BitVec.setWidth 32 1#1).toInt : ℝ) : EReal) = 1
    rw [show (BitVec.setWidth 32 1#1).toInt = 1 from by decide]; norm_num

/-- A bit converted as an unsigned number is the same indicator. -/
theorem indicator_unsigned (a : BitVec 1) :
    FloatOps.uitofp (F := Ideal) .f32 a = FloatOps.sitofp (F := Ideal) .f32 (BitVec.setWidth 32 a) := by
  rcases BitVec.eq_zero_or_eq_one a with h | h <;> subst h
  · show (((0#1 : BitVec 1).toNat : ℝ) : EReal) = (((BitVec.setWidth 32 0#1).toInt : ℝ) : EReal)
    rw [show (BitVec.setWidth 32 0#1).toInt = 0 from by decide, show (0#1 : BitVec 1).toNat = 0 from by decide]; norm_num
  · show (((1#1 : BitVec 1).toNat : ℝ) : EReal) = (((BitVec.setWidth 32 1#1).toInt : ℝ) : EReal)
    rw [show (BitVec.setWidth 32 1#1).toInt = 1 from by decide, show (1#1 : BitVec 1).toNat = 1 from by decide]; norm_num

/-- An update counted when a condition holds is the update times the condition's indicator (over the extended
    reals 1·u = u and 0·u = 0 for every u). -/
theorem ite_eq_indicator_mul (a : BitVec 1) (u : EReal) :
    (if a = 1#1 then u else 0) = FloatOps.sitofp (F := Ideal) .f32 (BitVec.setWidth 32 a) * u := by
  rw [indicator_signed]
  by_cases h : a = 1#1
  · rw [if_pos h, if_pos h, one_mul]
  · rw [if_neg h, if_neg h, zero_mul]

end Cert.Histogram.Reference

end
-- ==== Proof.LibVectorGatherScatter.lean ====
/-
  Entries of a vector taken by index and added by index, read at one element.

  For a vector `x : [N]` and a column of integers `idx : [E, 1]`:

  * taking entries — the gather whose result `[E]` has at `e` the entry of `x` that `idx (e, 0)` names — reads at `e`
    the entry `x r`, where `r` is `idx (e, 0)` as a signed integer brought into `[0, N − 1]`;
  * adding entries — the scatter that adds entry `e` of `u : [E]` onto the entry of `x` that `idx (e, 0)` names, an
    entry named outside `[0, N)` being dropped — has at `n`, over the extended reals, the entry `x n` plus the sum of
    `u e` over exactly those `e` whose integer `idx (e, 0)` is `n`.

  These are the one-axis siblings of the row gather and the row scatter-add of a table: the operand's only axis is
  the indexed one, so nothing is carried along and entry `e` of the updates lands on one entry of the operand.
-/
import Idealize.ShloMosaic.Lib.ValueIdx
import Idealize.ShloMosaic.PureOps.Ideal.Laws

noncomputable section

open scoped BigOperators

namespace Cert.VectorGatherScatter

open Idealize.ShloMosaic Idealize.ShloMosaic.ValueIdx

/-! ## A rank-1 index set is its one coordinate range -/

/-- A rank-1 index set is the range of its coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Taking entries -/

section Gather
variable {α : Type}

/-- The dimension numbers of "take the entries `idx` of an `[N]` vector": the one axis collapsed and indexed, no
    axis carried. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRIES TAKEN, READ AT `e`: the vector at the named entry, the integer `idx (e, 0)` read signed and brought
    into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  refine congrArg x ?_
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Adding entries -/

section Scatter

/-- The dimension numbers of "add the entries of `u : [E]` onto the entries `idx` of an `[N]` vector": the one axis
    inserted and indexed, the updates without a window. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e` starts at the integer `idx (e, 0)` read signed; -/
theorem start_vec (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- it has no window: its window coordinate on the one axis is nothing. -/
theorem window_vec (e : Fin E) : (vecScatterDims N E wf).window (ix1 e) 0 = 0 := by
  unfold ScatterDims.window
  rw [dif_neg (show (0 : Fin 1) ∉ (vecScatterDims N E wf).sKept from
    (by decide : (0 : Fin 1) ∉ (List.finRange 1).filter (· ∉ ([0] : List (Fin 1)))))]

/-- WHERE UPDATE `e` LANDS: on `n` exactly when its integer is `n`. -/
theorem resultIdx?_vec (idx : IVec ⟨2, ![E, 1]⟩ w) (e : Fin E) (n : Fin N) :
    (vecScatterDims N E wf).resultIdx? (ix1 e) idx = some (ix1 n) ↔ (idx (ix2 e 0)).toInt = (n.val : Int) := by
  unfold ScatterDims.resultIdx?
  constructor
  · intro h
    split at h
    · rename_i hin
      have h' := Option.some.inj h
      have h0 := congrArg (fun f => (f 0).val) h'
      simp only [start_vec, window_vec] at h0
      have hb := hin 0
      rw [start_vec, window_vec] at hb
      have : ((idx (ix2 e 0)).toInt + ((0 : Nat) : Int)).toNat = n.val := h0
      omega
    · exact absurd h (by simp)
  · intro hr
    have h0 : 0 ≤ (vecScatterDims N E wf).start (ix1 e) idx 0 + (vecScatterDims N E wf).window (ix1 e) 0
        ∧ (vecScatterDims N E wf).start (ix1 e) idx 0 + (vecScatterDims N E wf).window (ix1 e) 0
          < (⟨1, ![N]⟩ : Shape).size 0 := by
      rw [start_vec, window_vec, hr]
      have := n.isLt
      refine ⟨by omega, ?_⟩
      show ((n.val : Int) + ((0 : Nat) : Int)) < ((N : Nat) : Int)
      omega
    have hin : ∀ a : Fin 1, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := fun a => match a with
      | ⟨0, _⟩ => h0
    rw [dif_pos hin]
    refine congrArg some ?_
    funext a
    refine Fin.ext ?_
    match a with
    | ⟨0, _⟩ =>
      show ((vecScatterDims N E wf).start (ix1 e) idx 0 + (vecScatterDims N E wf).window (ix1 e) 0).toNat = n.val
      rw [start_vec, window_vec, hr]; omega

/-- The updates that land on entry `n`: the entries of the index column whose integer is `n`. -/
def hits (idx : IVec ⟨2, ![E, 1]⟩ w) (n : Fin N) : Finset (Fin E) :=
  Finset.univ.filter fun e => (idx (ix2 e 0)).toInt = (n.val : Int)

/-- An update is among the hits of `n` exactly when its integer is `n`. -/
theorem mem_hits (idx : IVec ⟨2, ![E, 1]⟩ w) (n : Fin N) (e : Fin E) :
    e ∈ hits idx n ↔ (idx (ix2 e 0)).toInt = (n.val : Int) := by
  unfold hits
  rw [Finset.mem_filter]
  exact ⟨fun h => h.2, fun h => ⟨Finset.mem_univ e, h⟩⟩

/-- THE ENTRIES ADDED, READ AT `n` over the extended reals: the vector's entry plus the sum of the updates that land
    on `n`. -/
theorem scatterAdd_vec_apply (x : FVec Ideal ⟨1, ![N]⟩ .f32) (idx : IVec ⟨2, ![E, 1]⟩ w)
    (u : FVec Ideal ⟨1, ![E]⟩ .f32) (n : Fin N) :
    Host.scatterAdd (vecScatterDims N E wf) x idx u (ix1 n) = x (ix1 n) + ∑ e ∈ hits idx n, u (ix1 e) := by
  show Ideal.hostScatterAdd (vecScatterDims N E wf) x idx u (ix1 n) = _
  unfold Ideal.hostScatterAdd
  refine congrArg (fun s => x (ix1 n) + s) ?_
  rw [Finset.sum_filter, sum_idx1]
  unfold hits
  rw [Finset.sum_filter]
  refine Finset.sum_congr rfl fun e _ => ?_
  by_cases he : (idx (ix2 e 0)).toInt = (n.val : Int)
  · rw [if_pos he, if_pos ((resultIdx?_vec wf idx e n).mpr he)]
  · rw [if_neg he, if_neg (fun h => he ((resultIdx?_vec wf idx e n).mp h))]

end Scatter

end Cert.VectorGatherScatter

end
-- ==== Proof.ReferenceHistograms.lean ====
/-
  The reference's three histograms are the specification's.

  The reference flattens the confidences to a [19, 2097152] array (row c, column p the number of pixel (n, h, w) among
  the 4·512·1024 pixels, row-major), gives every element (c, p) the entry number c·15 + clip(⌈15·conf⌉ − 1, 0, 14) when
  conf > 0 and the spare entry 285 otherwise, flattens once more to 39845888 = 19·2097152 elements, and adds — entry by
  entry — ones, the indicators [label = c] and the confidences into three zero vectors of 286 entries, of which it keeps
  entries 0 … 284 as [19, 15] arrays.

  Over the extended reals the entry-by-entry addition leaves at entry k the sum of the updates of exactly those
  elements whose entry number is k. Entry c·15 + b is named only by elements of row c (the word c'·15 + r with r ≤ 14
  determines c' and r, and the spare entry is none of these), and by element (c, p) exactly when its confidence is
  positive and its bin number is b: so the entry is the sum over the pixels of [conf in bin b] · update, which is
  the specification's count, hit count and confidence mass, the sum over p regrouped as the sums over n, h and w.
-/
import proofs.«172019_j2396591751307_1_alg».proof.Proof.HistogramSpec
import proofs.«172019_j2396591751307_1_alg».proof.Proof.ReferenceRead
import proofs.«172019_j2396591751307_1_alg».proof.Proof.BinEntryWords
import proofs.«172019_j2396591751307_1_alg».proof.Proof.LibVectorGatherScatter

noncomputable section

open scoped BigOperators

namespace Cert.Histogram.Reference

open Idealize.ShloMosaic Idealize.ShloMosaic.ValueIdx Cert.ReferenceIdeal Cert.ReferenceIdeal.Gen
  Cert.ReferenceIdeal.ReadP Cert.Histogram

/-! ## Pixel numbers and element numbers -/

/-- The number of pixel (n, h, w) among the 4·512·1024 pixels, row-major: n·524288 + h·1024 + w. -/
def pix (n : Fin 4) (h : Fin 512) (w : Fin 1024) : Fin 2097152 :=
  blockPos 4 524288 (by norm_num) n (blockPos 512 1024 (by norm_num) h w)

theorem pix_val (n : Fin 4) (h : Fin 512) (w : Fin 1024) :
    (pix n h w).val = n.val * 524288 + (h.val * 1024 + w.val) := rfl

/-- A sum over the pixel numbers is the sum over n, h and w. -/
theorem sum_pixels {M : Type*} [AddCommMonoid M] (g : Fin 2097152 → M) :
    ∑ p, g p = ∑ n : Fin 4, ∑ h : Fin 512, ∑ w : Fin 1024, g (pix n h w) := by
  rw [sum_blocks 4 524288 (by norm_num)]
  refine Finset.sum_congr rfl fun n _ => ?_
  rw [sum_blocks 512 1024 (by norm_num)]
  rfl

/-- The number of element (c, p) of the [19, 2097152] array among its 39845888 elements: c·2097152 + p. -/
def flat (c : Fin 19) (p : Fin 2097152) : Fin 39845888 := blockPos 19 2097152 (by norm_num) c p

theorem flat_val (c : Fin 19) (p : Fin 2097152) : (flat c p).val = c.val * 2097152 + p.val := rfl

/-! ## The per-pixel stages -/

section Stages
variable (x0 : FVec Ideal S4x19x512x1024 .f32) (x1 : IVec S4x512x1024 32)

/-- A pixel's index with class k put back on axis 1. -/
private theorem lift_pixel (hR : S4x19x512x1024.Reduces [1] S4x512x1024) (n : Fin 4) (h : Fin 512) (w : Fin 1024)
    (k : Fin (S4x19x512x1024.size 1)) : hR.lift (ix3 n h w) k = ix4 n (⟨k.val, k.isLt⟩ : Fin 19) h w := by
  funext a; apply Fin.ext
  fin_cases a <;> rfl

/-- The largest logit of a pixel. -/
theorem ref_max (n : Fin 4) (h : Fin 512) (w : Fin 1024) :
    val_main_v2 (F := Ideal) x0 (ix3 n h w) = pixMax x0 n h w := by
  rw [val_main_v2_apply, val_main_v1_apply, val_main_cst_0_apply]
  unfold val_main_v0
  have hR : S4x19x512x1024.Reduces [1] S4x512x1024 := by decide
  rw [Host.reduce_eq_fold_single FloatOps.maximumf x0 _ _ hR _]
  have hb : ∀ y : EReal, FloatOps.maximumf (F := Ideal) (φ := .f32) (FloatOps.ofBits .f32 0xFF800000#32) y = y := by
    intro y; show max (Ideal.ofBits .f32 0xFF800000#32) y = y; simp [Ideal.ofBits, Ideal.ieee]
  rw [hb]
  unfold pixMax
  have hf : (x0 ∘ hR.lift (ix3 n h w)) = fun k : Fin 19 => x0 (ix4 n k h w) :=
    funext fun k => congrArg x0 (lift_pixel hR n h w k)
  exact congrArg (fun f => Finset.fold max (FloatOps.ofBits (F := Ideal) .f32 0xFF800000#32) f
    (Finset.univ : Finset (Fin 19))) hf

/-- exp(x_c − M). -/
theorem ref_exp (n : Fin 4) (c : Fin 19) (h : Fin 512) (w : Fin 1024) :
    val_main_v6 (F := Ideal) x0 (ix4 n c h w) = pixExp x0 n c h w := by
  rw [val_main_v6_apply, val_main_v5_apply, val_main_v4_apply, val_main_v3_apply]
  have e : idx_main_v3 (idx_main_v4 (ix4 n c h w)) = ix3 n h w := by
    funext a; apply Fin.ext; fin_cases a <;> rfl
  rw [e, ref_max]
  rfl

/-- Σ_k exp(x_k − M). -/
theorem ref_sum (n : Fin 4) (h : Fin 512) (w : Fin 1024) :
    val_main_v7 (F := Ideal) x0 (ix3 n h w) = pixSum x0 n h w := by
  rw [val_main_v7_apply, val_main_cst_1_apply]
  have e : ∀ k : Fin 19, idx_main_v7 (ix3 n h w) k = ix4 n k h w := fun k => by
    funext a; apply Fin.ext; fin_cases a <;> rfl
  simp only [e, ref_exp]
  unfold pixSum
  rw [Ideal.ofBits_def, Ideal.ofBits_zero_f32, zero_add]

/-- The confidence at (n, c, h, w). -/
theorem ref_conf4 (n : Fin 4) (c : Fin 19) (h : Fin 512) (w : Fin 1024) :
    val_main_v10 (F := Ideal) x0 (ix4 n c h w) = conf x0 n c h w := by
  rw [val_main_v10_apply, val_main_v9_apply, val_main_v8_apply, ref_exp]
  have e : idx_main_v8 (idx_main_v9 (ix4 n c h w)) = ix3 n h w := by
    funext a; apply Fin.ext; fin_cases a <;> rfl
  rw [e, ref_sum]
  rfl

/-- The flattened confidences: element (c, p) is the confidence of class c at pixel p. -/
theorem ref_conf (c : Fin 19) (n : Fin 4) (h : Fin 512) (w : Fin 1024) :
    val_main_v12 (F := Ideal) x0 (ix2 c (pix n h w)) = conf x0 n c h w := by
  rw [val_main_v12_apply, val_main_v11_apply]
  have e : idx_main_v11 (idx_main_v12 (ix2 c (pix n h w))) = ix4 n c h w := by
    have hn := n.isLt; have hc := c.isLt; have hh := h.isLt; have hw := w.isLt
    funext a; apply Fin.ext
    fin_cases a
    · show (c.val * 2097152 + (n.val * 524288 + (h.val * 1024 + w.val))) / 524288 % 4 = n.val; omega
    · show (c.val * 2097152 + (n.val * 524288 + (h.val * 1024 + w.val))) / 2097152 = c.val; omega
    · show (c.val * 2097152 + (n.val * 524288 + (h.val * 1024 + w.val))) / 1024 % 512 = h.val; omega
    · show (c.val * 2097152 + (n.val * 524288 + (h.val * 1024 + w.val))) % 1024 = w.val; omega
  rw [e, ref_conf4]

/-- The entry number of element (c, p): c·15 + the clipped bin number when the confidence is positive, else 285. -/
theorem ref_entry (c : Fin 19) (n : Fin 4) (h : Fin 512) (w : Fin 1024) :
    val_main_v36 (F := Ideal) x0 (ix2 c (pix n h w))
      = Scalar.select (positive x0 n c h w)
          (IntOp.addi (IntOp.muli (BitVec.ofNat 32 c.val) 15#32) (binWord x0 n c h w)) 285#32 := by
  rw [val_main_v36_apply, val_main_v29_apply, val_main_v35_apply, val_main_v34_apply, val_main_v33_apply,
    val_main_v32_apply, val_main_v31_apply, val_main_v30_apply, val_main_c_6_apply, val_main_v27_apply,
    val_main_call0_v4_apply, val_main_call0_v3_apply, val_main_c_4_apply, val_main_call0_v2_apply,
    val_main_call0_v1_apply, val_main_call0_v0_apply, val_main_c_3_apply, val_main_v26_apply, val_main_v25_apply,
    val_main_c_apply, val_main_v24_apply, val_main_v23_apply, val_main_v22_apply, val_main_v21_apply,
    val_main_cst_2_apply, val_main_v28_apply, val_main_cst_5_apply, val_main_call1_v1_apply,
    val_main_call1_v0_apply, val_main_c_7_apply, ref_conf]
  rfl

/-- The indicator [label = c] of element (c, p). -/
theorem ref_label (c : Fin 19) (n : Fin 4) (h : Fin 512) (w : Fin 1024) :
    val_main_v20 (F := Ideal) x1 (ix2 c (pix n h w)) = isLabel x1 n c h w := by
  rw [val_main_v20_apply, val_main_v19_apply, val_main_v17_apply, val_main_v14_apply, val_main_v13_apply,
    val_main_v18_apply, val_main_v16_apply, val_main_v15_apply]
  have e : idx_main_v13 (idx_main_v14 (idx_main_v17 (ix2 c (pix n h w)))) = ix3 n h w := by
    have hn := n.isLt; have hh := h.isLt; have hw := w.isLt
    funext a; apply Fin.ext
    fin_cases a
    · show (n.val * 524288 + (h.val * 1024 + w.val)) / 524288 = n.val; omega
    · show (n.val * 524288 + (h.val * 1024 + w.val)) / 1024 % 512 = h.val; omega
    · show (n.val * 524288 + (h.val * 1024 + w.val)) % 1024 = w.val; omega
  rw [e, indicator_unsigned]
  rfl

end Stages

/-! ## The entry-by-entry additions -/

section Scatter
variable (x0 : FVec Ideal S4x19x512x1024 .f32) (x1 : IVec S4x512x1024 32)

/-- The column of entry numbers read at element (c, p). -/
theorem column_apply (idx : IVec S39845888x1 32)
    (hidx : ∀ e : Fin 39845888, idx (ix2 e 0) = val_main_v37 (F := Ideal) x0 (ix1 e))
    (c : Fin 19) (n : Fin 4) (h : Fin 512) (w : Fin 1024) :
    idx (ix2 (flat c (pix n h w)) 0)
      = Scalar.select (positive x0 n c h w)
          (IntOp.addi (IntOp.muli (BitVec.ofNat 32 c.val) 15#32) (binWord x0 n c h w)) 285#32 := by
  rw [hidx, val_main_v37_apply]
  have e : idx_main_v37 (ix1 (flat c (pix n h w))) = ix2 c (pix n h w) := by
    have hp := (pix n h w).isLt
    funext a; apply Fin.ext
    fin_cases a
    · show (c.val * 2097152 + (pix n h w).val) / 2097152 = c.val; omega
    · show (c.val * 2097152 + (pix n h w).val) % 2097152 = (pix n h w).val; omega
  rw [e, ref_entry]

/-- Element (c', p) names entry c·15 + b exactly when c' = c and the confidence lies in bin b. -/
theorem column_names_iff (idx : IVec S39845888x1 32)
    (hidx : ∀ e : Fin 39845888, idx (ix2 e 0) = val_main_v37 (F := Ideal) x0 (ix1 e))
    (c' c : Fin 19) (b : Fin 15) (n : Fin 4) (h : Fin 512) (w : Fin 1024) :
    (idx (ix2 (flat c' (pix n h w)) 0)).toInt = ((c.val * 15 + b.val : Nat) : Int)
      ↔ c' = c ∧ inBin x0 b n c' h w = 1#1 := by
  rw [column_apply x0 idx hidx]
  exact names_entry_iff c' c b (positive x0 n c' h w) (binWord x0 n c' h w) (clip_bin _)

/-- Entry c·15 + b, as an entry of the 286. -/
def entry (c : Fin 19) (b : Fin 15) : Fin 286 :=
  ⟨c.val * 15 + b.val, by have := c.isLt; have := b.isLt; omega⟩

/-- ONE ENTRY OF AN ENTRY-BY-ENTRY ADDITION into the zero vector: entry c·15 + b is the sum over the pixels of
    [conf in bin b] times the update of element (c, p). -/
theorem scatter_entry (idx : IVec S39845888x1 32)
    (hidx : ∀ e : Fin 39845888, idx (ix2 e 0) = val_main_v37 (F := Ideal) x0 (ix1 e))
    (z : FVec Ideal S286 .f32) (hz : ∀ k, z k = 0) (u : FVec Ideal S39845888 .f32) (c : Fin 19) (b : Fin 15) :
    Host.scatterAdd (F := Ideal) scatter_S286_S39845888x1_S39845888_n_0_0_1 z idx u (ix1 (entry c b))
      = ∑ n : Fin 4, ∑ h : Fin 512, ∑ w : Fin 1024, weight x0 b n c h w * u (ix1 (flat c (pix n h w))) := by
  refine (VectorGatherScatter.scatterAdd_vec_apply (N := 286) (E := 39845888)
    scatter_S286_S39845888x1_S39845888_n_0_0_1_wf z idx u (entry c b)).trans ?_
  rw [hz, zero_add]
  unfold VectorGatherScatter.hits
  rw [Finset.sum_filter, sum_blocks 19 2097152 (by norm_num), Finset.sum_eq_single c]
  · rw [sum_pixels]
    refine Finset.sum_congr rfl fun n _ => Finset.sum_congr rfl fun h _ => Finset.sum_congr rfl fun w _ => ?_
    show (if (idx (ix2 (flat c (pix n h w)) 0)).toInt = ((c.val * 15 + b.val : Nat) : Int)
      then u (ix1 (flat c (pix n h w))) else 0) = _
    unfold weight
    rw [← ite_eq_indicator_mul]
    exact if_congr ((column_names_iff x0 idx hidx c c b n h w).trans ⟨fun hh => hh.2, fun hh => ⟨rfl, hh⟩⟩) rfl rfl
  · intro c' _ hne
    rw [sum_pixels]
    refine Finset.sum_eq_zero fun n _ => Finset.sum_eq_zero fun h _ => Finset.sum_eq_zero fun w _ => ?_
    show (if (idx (ix2 (flat c' (pix n h w)) 0)).toInt = ((c.val * 15 + b.val : Nat) : Int)
      then u (ix1 (flat c' (pix n h w))) else 0) = _
    exact if_neg fun hh => hne ((column_names_iff x0 idx hidx c' c b n h w).mp hh).1
  · intro hc; exact absurd (Finset.mem_univ c) hc

/-- The kept entry (c, b) of a 286-vector is its entry c·15 + b. -/
private theorem kept_index (c : Fin 19) (b : Fin 15) :
    idx_main_v42 (idx_main_v43 (ix2 c b)) = ix1 (entry c b) := by
  funext a; apply Fin.ext; fin_cases a; rfl

/-- The three columns of entry numbers are the flattened entry numbers. -/
private theorem column_v40 (e : Fin 39845888) :
    val_main_v40 (F := Ideal) x0 (ix2 e 0) = val_main_v37 (F := Ideal) x0 (ix1 e) := by
  rw [val_main_v40_apply]
  refine congrArg _ ?_
  funext a; apply Fin.ext; fin_cases a; rfl
private theorem column_v46 (e : Fin 39845888) :
    val_main_v46 (F := Ideal) x0 (ix2 e 0) = val_main_v37 (F := Ideal) x0 (ix1 e) := by
  rw [val_main_v46_apply]
  refine congrArg _ ?_
  funext a; apply Fin.ext; fin_cases a; rfl
private theorem column_v52 (e : Fin 39845888) :
    val_main_v52 (F := Ideal) x0 (ix2 e 0) = val_main_v37 (F := Ideal) x0 (ix1 e) := by
  rw [val_main_v52_apply]
  refine congrArg _ ?_
  funext a; apply Fin.ext; fin_cases a; rfl

/-- Element number c·2097152 + p is element (c, p). -/
private theorem unflat (c : Fin 19) (p : Fin 2097152) : idx_main_v44 (ix1 (flat c p)) = ix2 c p := by
  have hp := p.isLt
  funext a; apply Fin.ext
  fin_cases a
  · show (c.val * 2097152 + p.val) / 2097152 = c.val; omega
  · show (c.val * 2097152 + p.val) % 2097152 = p.val; omega

/-- The unit word of single precision denotes the number one. -/
private theorem ofBits_one : Ideal.ofBits .f32 0x3F800000#32 = 1 := by
  simp [Ideal.ofBits, Ideal.ieee, -EReal.coe_mul]; norm_num

/-- THE COUNTS. -/
theorem ref_counts : val_main_v43 (F := Ideal) x0 = countsArr x0 := by
  funext j
  obtain ⟨c, b, rfl⟩ : ∃ (c : Fin 19) (b : Fin 15), j = ix2 c b := ⟨j 0, j 1, eq_ix2 j⟩
  rw [val_main_v43_apply, val_main_v42_apply, kept_index]
  unfold val_main_v41
  rw [scatter_entry x0 _ (column_v40 x0) _ (fun k => by
    rw [val_main_v39_apply, val_main_cst_9_apply, Ideal.ofBits_def, Ideal.ofBits_zero_f32])]
  show _ = counts x0 c b
  unfold counts
  refine Finset.sum_congr rfl fun n _ => Finset.sum_congr rfl fun h _ => Finset.sum_congr rfl fun w _ => ?_
  rw [val_main_v38_apply, val_main_cst_8_apply, Ideal.ofBits_def, ofBits_one, mul_one]

/-- THE HIT COUNTS. -/
theorem ref_hits : val_main_v49 (F := Ideal) x0 x1 = hitsArr x0 x1 := by
  funext j
  obtain ⟨c, b, rfl⟩ : ∃ (c : Fin 19) (b : Fin 15), j = ix2 c b := ⟨j 0, j 1, eq_ix2 j⟩
  rw [val_main_v49_apply, val_main_v48_apply]
  rw [show idx_main_v48 (idx_main_v49 (ix2 c b)) = ix1 (entry c b) from kept_index c b]
  unfold val_main_v47
  rw [scatter_entry x0 _ (column_v46 x0) _ (fun k => by
    rw [val_main_v45_apply, val_main_cst_10_apply, Ideal.ofBits_def, Ideal.ofBits_zero_f32])]
  show _ = hits x0 x1 c b
  unfold hits
  refine Finset.sum_congr rfl fun n _ => Finset.sum_congr rfl fun h _ => Finset.sum_congr rfl fun w _ => ?_
  rw [val_main_v44_apply, unflat, ref_label]

/-- THE CONFIDENCE MASS. -/
theorem ref_mass : val_main_v55 (F := Ideal) x0 = massArr x0 := by
  funext j
  obtain ⟨c, b, rfl⟩ : ∃ (c : Fin 19) (b : Fin 15), j = ix2 c b := ⟨j 0, j 1, eq_ix2 j⟩
  rw [val_main_v55_apply, val_main_v54_apply]
  rw [show idx_main_v54 (idx_main_v55 (ix2 c b)) = ix1 (entry c b) from kept_index c b]
  unfold val_main_v53
  rw [scatter_entry x0 _ (column_v52 x0) _ (fun k => by
    rw [val_main_v51_apply, val_main_cst_11_apply, Ideal.ofBits_def, Ideal.ofBits_zero_f32])]
  show _ = mass x0 c b
  unfold mass
  refine Finset.sum_congr rfl fun n _ => Finset.sum_congr rfl fun h _ => Finset.sum_congr rfl fun w _ => ?_
  rw [val_main_v50_apply]
  rw [show idx_main_v50 (ix1 (flat c (pix n h w))) = ix2 c (pix n h w) from unflat c (pix n h w), ref_conf]

end Scatter

end Cert.Histogram.Reference

end
-- ==== Proof.Assembly.lean ====
/-
  The comparison of the two programs at the ideal values.

  The reference's result is the calibration error `epilogue` of the three histograms it scatters into, and those are
  the histograms `countsArr`, `hitsArr`, `massArr` of its arguments. The kernel's result is `epilogue` of the sums
  over the two cores of its three per-core arrays. So once each core sum is known to be the corresponding histogram of
  the kernel's arguments — a regrouping of the sum over all pixels by core and by grid step — both programs, run from
  memories that agree on the arguments, end with one and the same scalar, `epilogue` of the histograms of those
  arguments. The frames: the kernel's two are its frame certificates; the reference's is its run with the result dropped.
-/
import proofs.«172019_j2396591751307_1_alg».proof.Defs
import proofs.«172019_j2396591751307_1_alg».proof.Proof.Gen.Kernel.Frame
import proofs.«172019_j2396591751307_1_alg».proof.Proof.Gen.KernelIdeal.Frame
import proofs.«172019_j2396591751307_1_alg».proof.Proof.Gen.ReferenceIdeal
import proofs.«172019_j2396591751307_1_alg».proof.Proof.Gen.Pre_finite_inputs
import proofs.«172019_j2396591751307_1_alg».proof.Proof.KernelEpilogue
import proofs.«172019_j2396591751307_1_alg».proof.Proof.ReferenceEpilogue
import proofs.«172019_j2396591751307_1_alg».proof.Proof.ReferenceHistograms

noncomputable section

namespace Cert.Proof

open Idealize.ShloMosaic Idealize.ShloMosaic.TcCoe Idealize.SL.Sem Cert.Histogram

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

/-- Both programs end with the calibration error of the histograms of the (shared) arguments, given that the
    kernel's core-summed arrays are those histograms. -/
theorem algebraic_of
    (core_counts : ∀ (m : (ℓ : Loc Cert.KernelIdeal.nD Cert.KernelIdeal.τ Cert.KernelIdeal.sig) → Buf (Elt Ideal) ℓ) (c : Dev Cert.KernelIdeal.nD),
      coreSum (Kernel.arr m c 2) = countsArr (m ((c.tc : Thread Cert.KernelIdeal.nD Cert.KernelIdeal.τ).loc Cert.KernelIdeal.main_arg0)))
    (core_hits : ∀ (m : (ℓ : Loc Cert.KernelIdeal.nD Cert.KernelIdeal.τ Cert.KernelIdeal.sig) → Buf (Elt Ideal) ℓ) (c : Dev Cert.KernelIdeal.nD),
      coreSum (Kernel.arr m c 3) = hitsArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
    (core_mass : ∀ (m : (ℓ : Loc Cert.KernelIdeal.nD Cert.KernelIdeal.τ Cert.KernelIdeal.sig) → Buf (Elt Ideal) ℓ) (c : Dev Cert.KernelIdeal.nD),
      coreSum (Kernel.arr m c 4) = massArr (m ((c.tc : Thread Cert.KernelIdeal.nD Cert.KernelIdeal.τ).loc Cert.KernelIdeal.main_arg0))) :
    Cert.algebraic_KernelIdeal_ReferenceIdeal := by
  intro m ρ m' ρ' _ hagree
  refine ⟨fun c => epilogue
      (countsArr (m ((c.tc : Thread Cert.KernelIdeal.nD Cert.KernelIdeal.τ).loc Cert.KernelIdeal.main_arg0)))
      (hitsArr (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (massArr (m ((c.tc : Thread Cert.KernelIdeal.nD Cert.KernelIdeal.τ).loc Cert.KernelIdeal.main_arg0))), ?_, ?_⟩
  · refine (θ_run Cert.KernelIdeal.defs _ _).mono (fun _ h c => ⟨(h c).1.trans ?_, (h c).2⟩) (Kernel.kernel_run m ρ)
    rw [core_counts m c, core_hits m c, core_mass m c]
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v69_eq, Reference.result_eq_epilogue, Reference.ref_counts, Reference.ref_hits,
      Reference.ref_mass, (hagree c).1, (hagree c).2]

end Cert.Proof

end
-- ==== Proof.KernelBlock.lean ====
/-
  One grid point of the kernel, as pure functions of the point's two input blocks.

  The body first computes, for its [19,128,128] block of logits, the softmax confidences, the bin
  numbers and the positivity bits, and for its [128,128] block of labels the label indicators. Then,
  for every bin b, it forms the indicator "the confidence lies in bin b" (times the label indicator,
  or times the confidence), sums it over the 128 x 128 pixels of the block class by class, and adds
  the 19 sums to column b of the running [19,15] histogram.
-/
import proofs.«172019_j2396591751307_1_alg».proof.Proof.Gen.KernelIdeal.Skeleton

noncomputable section

namespace Cert.Histogram.Kernel

open Idealize.ShloMosaic Cert.KernelIdeal Cert.KernelIdeal.Gen

variable {F : FTy → Type} [FloatOps F]

/-- The sum of a [19,128,128] array over its last two axes, class by class: first along the lanes,
    then along the rows, each from a zero accumulator. -/
def colSum (v : FVec F S19x128x128 .f32) : FVec F S19x1 .f32 :=
  multiReduction .add [1] S19x1
    (shapeCast S19x128x1 (multiReduction .add [2] S19x128 v 0x00000000#32 reduces_S19x128x128_S19x128 (.inl rfl) rfl)
      shapeCasts_S19x128_S19x128x1)
    0x00000000#32 reduces_S19x128x1_S19x1 (.inl rfl) rfl

/-- The indicator "bin number = b and the confidence is positive", as a float 0 or 1. -/
def maskF (b : BitVec 32) (binw : IVec S19x128x128 32) (valid : IVec S19x128x128 1) : FVec F S19x128x128 .f32 :=
  sitofp .f32 (extui 32 (andi (cmpi .eq binw (broadcast S19x128x128 b)) valid) natLt_1_32)

/-- One column of the histogram updated: the old column plus the 19 sums. -/
def colStore (old : Vec F S1x19x1 .f32) (s : FVec F S19x1 .f32) : FVec F S1x19x1 .f32 :=
  shapeCast S1x19x1 (addf (shapeCast S19 old shapeCasts_S1x19x1_S19) (shapeCast S19 s shapeCasts_S19x1_S19))
    shapeCasts_S19_S1x19x1

/-- The block's softmax confidences. -/
def blkConf (x0 : Vec F S1x19x128x128 .f32) : FVec F S19x128x128 .f32 := k0_pay6 x0
/-- The block's bin numbers clip(ceil(15 conf) - 1, 0, 14). -/
def blkBin (x0 : Vec F S1x19x128x128 .f32) : IVec S19x128x128 32 := k0_pay8 x0
/-- The block's positivity bits conf > 0. -/
def blkValid (x0 : Vec F S1x19x128x128 .f32) : IVec S19x128x128 1 := k0_pay10 (k0_pay6 x0) (k0_pay9 (F := F))
/-- The block's label indicators [label = class]. -/
def blkLabel (x1 : Vec F S1x128x128 .i32) : FVec F S19x128x128 .f32 := k0_pay7 x1

/-- What is summed into the three histograms for bin word b. -/
def countTerm (b : BitVec 32) (x0 : Vec F S1x19x128x128 .f32) : FVec F S19x128x128 .f32 :=
  maskF b (blkBin x0) (blkValid x0)
def hitTerm (b : BitVec 32) (x0 : Vec F S1x19x128x128 .f32) (x1 : Vec F S1x128x128 .i32) : FVec F S19x128x128 .f32 :=
  mulf (countTerm b x0) (blkLabel x1)
def massTerm (b : BitVec 32) (x0 : Vec F S1x19x128x128 .f32) : FVec F S19x128x128 .f32 :=
  mulf (countTerm b x0) (blkConf x0)

end Cert.Histogram.Kernel

end
-- ==== Proof.KernelColumns.lean ====
/-
  A [1,19,15] histogram block filled column by column.

  Each grid point of the kernel writes the fifteen columns of its three running histograms one
  after the other, each column through its own [1,19,1] rectangle; the first point of a core first
  clears the whole block. What such a list of stores leaves at an index depends only on the store
  of the index's own column; and a column read before it has been written (but after the block
  was cleared) reads the cleared contents.
-/
import proofs.«172019_j2396591751307_1_alg».proof.KernelIdeal
import Idealize.ShloMosaic.Lib.Pipeline.Value
import Idealize.ShloMosaic.Lib.ValueIdx

noncomputable section

namespace Cert.Histogram.Kernel

open Idealize.ShloMosaic Idealize.ShloMosaic.ValueIdx Cert.KernelIdeal

variable {Val : EltTy → Type} [∀ e, Nonempty (Val e)] {e : EltTy}

theorem col_inb (k : Fin 15) : ∀ a, (![0, 0, k.val] : Fin 3 → Nat) a + S1x19x1.size a ≤ S1x19x15.size a := by
  intro a
  have := k.isLt
  match a with
  | ⟨0, _⟩ => show 0 + 1 ≤ 1; omega
  | ⟨1, _⟩ => show 0 + 19 ≤ 19; omega
  | ⟨2, _⟩ => show k.val + 1 ≤ 15; omega

/-- Column k of the block: the rectangle [0,1) x [0,19) x [k,k+1). -/
abbrev binCol (k : Fin 15) : Rect S1x19x15 := Rect.unit ![0, 0, k.val] S1x19x1.size (col_inb k)

/-- The column an index lies in. -/
def binOf (y : S1x19x15.Idx) : Fin 15 := y 2

/-- An index's position inside its column. -/
def loc (y : S1x19x15.Idx) : S1x19x1.Idx := ix3 (0 : Fin 1) ((y 1 : Fin 19)) (0 : Fin 1)

theorem emb_loc (y : S1x19x15.Idx) : (binCol (binOf y)).emb (loc y) = y := by
  funext a
  apply Fin.ext
  rw [Rect.emb_apply]
  match a with
  | ⟨0, _⟩ => have : (y 0).val < 1 := (y 0).isLt; show 0 + 1 * 0 = (y 0).val; omega
  | ⟨1, _⟩ => show 0 + 1 * (y 1).val = (y 1).val; omega
  | ⟨2, _⟩ => show (y 2).val + 1 * 0 = (y 2).val; omega

theorem mem_col (k : Fin 15) (y : S1x19x15.Idx) : y ∈ (binCol k).set ↔ binOf y = k := by
  rw [Rect.mem_set_unit]
  constructor
  · intro h
    have h2 := h ⟨2, by decide⟩
    apply Fin.ext
    have h2' : k.val ≤ (y 2).val ∧ (y 2).val < k.val + 1 := h2
    show (y 2).val = k.val
    omega
  · intro h a
    subst h
    match a with
    | ⟨0, _⟩ => have : (y 0).val < 1 := (y 0).isLt; show 0 ≤ (y 0).val ∧ (y 0).val < 0 + 1; omega
    | ⟨1, _⟩ => have : (y 1).val < 19 := (y 1).isLt; show 0 ≤ (y 1).val ∧ (y 1).val < 0 + 19; omega
    | ⟨2, _⟩ => show (y 2).val ≤ (y 2).val ∧ (y 2).val < (y 2).val + 1; omega

theorem binOf_idx (k : Fin 15) (j : (binCol k).shape.Idx) : binOf ((binCol k).toLoadRect.idx j) = k := by
  apply Fin.ext
  have : (j 2).val < 1 := (j 2).isLt
  show k.val + 1 * (j 2).val = k.val
  omega

/-! ## Fifteen column stores -/

/-- The stores of columns n-1, …, 0 (the last store first), column k's payload being g k. -/
def colsB (g : Fin 15 → S1x19x1.Idx → Val e) : (n : ℕ) → n ≤ 15 → List (View.Piece Val S1x19x15 e)
  | 0, _ => []
  | n + 1, h => (⟨binCol ⟨n, h⟩, g ⟨n, h⟩⟩ : View.Piece Val S1x19x15 e) :: colsB g n (Nat.le_of_succ_le h)

/-- The last store decides its own column, -/
theorem canon_col_head (L : List (View.Piece Val S1x19x15 e)) (k : Fin 15) (w : S1x19x1.Idx → Val e)
    (y : S1x19x15.Idx) (hk : binOf y = k) :
    View.canon ((⟨binCol k, w⟩ : View.Piece Val S1x19x15 e) :: L) y = w (loc y) := by
  have e1 := View.canon_cons_emb (Val := Val) (binCol k) w L (loc y)
  have e2 : (binCol k).emb (loc y) = y := by rw [← hk]; exact emb_loc y
  rw [e2] at e1
  exact e1

/-- and leaves the other columns as they were. -/
theorem canon_col_tail (L : List (View.Piece Val S1x19x15 e)) (k : Fin 15) (w : S1x19x1.Idx → Val e)
    (y : S1x19x15.Idx) (hk : binOf y ≠ k) :
    View.canon ((⟨binCol k, w⟩ : View.Piece Val S1x19x15 e) :: L) y = View.canon L y :=
  View.canon_cons_of_not_mem (⟨binCol k, w⟩ : View.Piece Val S1x19x15 e) L (fun hm => hk ((mem_col k y).mp hm))

/-- After them — whatever was stored earlier — an index in one of the columns written holds its column's payload. -/
theorem canon_colsB (g : Fin 15 → S1x19x1.Idx → Val e) (rest : List (View.Piece Val S1x19x15 e))
    (n : ℕ) (h : n ≤ 15) (y : S1x19x15.Idx) (hy : (binOf y).val < n) :
    View.canon (colsB g n h ++ rest) y = g (binOf y) (loc y) := by
  induction n with
  | zero => exact absurd hy (Nat.not_lt_zero _)
  | succ n ih =>
    show View.canon ((⟨binCol ⟨n, h⟩, g ⟨n, h⟩⟩ : View.Piece Val S1x19x15 e) :: (colsB g n (Nat.le_of_succ_le h) ++ rest)) y = _
    by_cases hk : binOf y = ⟨n, h⟩
    · rw [canon_col_head _ _ _ y hk, hk]
    · rw [canon_col_tail _ _ _ y hk]
      have hne : (binOf y).val ≠ n := fun e => hk (Fin.ext e)
      exact ih (Nat.le_of_succ_le h) (by omega)

/-! ## Columns stored over a cleared block -/

/-- L is the store of the whole block with contents z followed by stores of the columns 0, …, n-1. -/
inductive ColsBelow (z : S1x19x15.Idx → Val e) : ℕ → List (View.Piece Val S1x19x15 e) → Prop
  | base (inb : ∀ a, (![0, 0, 0] : Fin 3 → Nat) a + S1x19x15.size a ≤ S1x19x15.size a) :
      ColsBelow z 0 [(⟨Rect.unit ![0, 0, 0] S1x19x15.size inb, z⟩ : View.Piece Val S1x19x15 e)]
  | cons {n : ℕ} {L : List (View.Piece Val S1x19x15 e)} (h : n < 15) (w : S1x19x1.Idx → Val e) :
      ColsBelow z n L → ColsBelow z (n + 1) ((⟨binCol ⟨n, h⟩, w⟩ : View.Piece Val S1x19x15 e) :: L)

theorem hzero3 : (![0, 0, 0] : Fin 3 → Nat) = fun _ => 0 := funext fun a => by
  match a with
  | ⟨0, _⟩ => rfl
  | ⟨1, _⟩ => rfl
  | ⟨2, _⟩ => rfl

/-- Every index is covered (by the clearing store). -/
theorem ColsBelow.cover {z : S1x19x15.Idx → Val e} {n : ℕ} {L : List (View.Piece Val S1x19x15 e)}
    (hL : ColsBelow z n L) (y : S1x19x15.Idx) : ∃ p ∈ L, y ∈ p.1.set := by
  induction hL with
  | base inb => exact ⟨_, List.mem_singleton_self _, View.mem_set_unit_zero hzero3 inb y⟩
  | cons h w _ ih =>
    obtain ⟨p, hp, hy⟩ := ih
    exact ⟨p, List.mem_cons_of_mem _ hp, hy⟩

/-- A column not yet written still holds the cleared contents. -/
theorem ColsBelow.canon_apply {z : S1x19x15.Idx → Val e} {n : ℕ} {L : List (View.Piece Val S1x19x15 e)}
    (hL : ColsBelow z n L) (y : S1x19x15.Idx) (hy : n ≤ (binOf y).val) : View.canon L y = z y := by
  induction hL with
  | base inb => rw [View.canon_unit_zero hzero3 inb]
  | @cons n L h w _ ih =>
    have hne : binOf y ≠ ⟨n, h⟩ := fun e => by have := congrArg Fin.val e; simp only at this; omega
    rw [canon_col_tail L ⟨n, h⟩ w y hne]
    exact ih (by omega)

/-- So a load of such a column reads the cleared contents. -/
theorem ColsBelow.readCov_col {sig : RefSig} {κ : Kind} {sp : Space} (v : View sig κ sp S1x19x15 e)
    {z : S1x19x15.Idx → Val e} {n : ℕ} {L : List (View.Piece Val S1x19x15 e)} (hL : ColsBelow z n L)
    (k : Fin 15) (hk : n ≤ k.val) : v.readCov L (binCol k).toLoadRect = View.ld z (binCol k) := by
  rw [View.readCov_eq_canon v L _ (fun j => hL.cover _)]
  funext j
  exact hL.canon_apply _ (by rw [binOf_idx]; exact hk)

end Cert.Histogram.Kernel

end
-- ==== Proof.KernelPoint.lean ====
/-
  What one grid point leaves in the three running histograms, stated as functions of the point's two
  input blocks and of the histograms' contents before the point.

  At every point, column b of each [1,19,15] histogram block becomes its previous contents plus the
  block's class-by-class sum of the bin-b indicator (counts), of the indicator times the label
  indicator (hits), of the indicator times the confidence (mass). At the first point of a core the
  "previous contents" are the zeros the body has just stored.
-/
import proofs.«172019_j2396591751307_1_alg».proof.Proof.Gen.KernelIdeal.Frame
import proofs.«172019_j2396591751307_1_alg».proof.Proof.KernelBlock
import proofs.«172019_j2396591751307_1_alg».proof.Proof.KernelColumns

noncomputable section

namespace Cert.Histogram.Kernel

open Idealize.ShloMosaic Idealize.ShloMosaic.TcCoe Idealize.SL.Sem Cert.KernelIdeal Cert.KernelIdeal.Gen

variable {F : FTy → Type} [FloatOps F]

/-- Column k of the three histograms after a point: the old column plus the block's sums for bin k. -/
def colCounts (x0 : Vec F S1x19x128x128 .f32) (k : Fin 15) (old : Vec F S1x19x1 .f32) : FVec F S1x19x1 .f32 :=
  colStore old (colSum (countTerm (BitVec.ofNat 32 k.val) x0))
def colHits (x0 : Vec F S1x19x128x128 .f32) (x1 : Vec F S1x128x128 .i32) (k : Fin 15) (old : Vec F S1x19x1 .f32) : FVec F S1x19x1 .f32 :=
  colStore old (colSum (hitTerm (BitVec.ofNat 32 k.val) x0 x1))
def colMass (x0 : Vec F S1x19x128x128 .f32) (k : Fin 15) (old : Vec F S1x19x1 .f32) : FVec F S1x19x1 .f32 :=
  colStore old (colSum (massTerm (BitVec.ofNat 32 k.val) x0))

/-- The three histogram blocks after a point, from the blocks xo before it. -/
def stepCounts (x0 : Vec F S1x19x128x128 .f32) (xo : Vec F S1x19x15 .f32) : Vec F S1x19x15 .f32 :=
  fun y => colCounts x0 (binOf y) (View.ld xo (binCol (binOf y))) (loc y)
def stepHits (x0 : Vec F S1x19x128x128 .f32) (x1 : Vec F S1x128x128 .i32) (xo : Vec F S1x19x15 .f32) : Vec F S1x19x15 .f32 :=
  fun y => colHits x0 x1 (binOf y) (View.ld xo (binCol (binOf y))) (loc y)
def stepMass (x0 : Vec F S1x19x128x128 .f32) (xo : Vec F S1x19x15 .f32) : Vec F S1x19x15 .f32 :=
  fun y => colMass x0 (binOf y) (View.ld xo (binCol (binOf y))) (loc y)

/-- The cleared block the first point of a core starts from. -/
abbrev zeroBlock : Vec F S1x19x15 .f32 :=
  shapeCast S1x19x15 (broadcast S19x15 (Scalar.ofBits (F := F) .f32 0x00000000#32)) shapeCasts_S19x15_S1x19x15

/-- Point j of core `core` in grid order: the grid is (core, batch-in-core, row tile, column tile) of extents
    (2, 2, 4, 8), so a core's 64 points are consecutive. -/
def pt (core : Fin 2) (j : Fin 64) : Fin cfg0.N :=
  ⟨64 * core.val + j.val, by have hN : cfg0.N = 128 := N_0; have := core.isLt; have := j.isLt; rw [hN]; omega⟩

/-- What the body leaves in the three histogram blocks, in its two control cases: at the first point of a core
    (the blocks are cleared first) and at every other point (the blocks hold what the point before left). -/
def CaseFacts (F : FTy → Type) [FloatOps F] : Prop :=
  (∀ (c : Dev nD) (i : grid0.Coords) (a4 : Memref sig .tc .vmem S1x19x128x128 .f32) (h4 : a4.IsWhole) (a5 : Memref sig .tc .vmem S1x128x128 .i32) (h5 : a5.IsWhole) (a6 : Memref sig .tc .vmem S1x19x15 .f32) (h6 : a6.IsWhole) (a7 : Memref sig .tc .vmem S1x19x15 .f32) (h7 : a7.IsWhole) (a8 : Memref sig .tc .vmem S1x19x15 .f32) (h8 : a8.IsWhole) (hc : cond0_0 i) (x0 : Vec F S1x19x128x128 .f32) (x1 : Vec F S1x128x128 .i32),
      out0_A_2 c i a4 h4 a5 h5 a6 h6 a7 h7 a8 h8 hc x0 x1 = stepCounts x0 zeroBlock
      ∧ out0_A_3 c i a4 h4 a5 h5 a6 h6 a7 h7 a8 h8 hc x0 x1 = stepHits x0 x1 zeroBlock
      ∧ out0_A_4 c i a4 h4 a5 h5 a6 h6 a7 h7 a8 h8 hc x0 x1 = stepMass x0 zeroBlock)
  ∧ (∀ (c : Dev nD) (i : grid0.Coords) (a4 : Memref sig .tc .vmem S1x19x128x128 .f32) (h4 : a4.IsWhole) (a5 : Memref sig .tc .vmem S1x128x128 .i32) (h5 : a5.IsWhole) (a6 : Memref sig .tc .vmem S1x19x15 .f32) (h6 : a6.IsWhole) (a7 : Memref sig .tc .vmem S1x19x15 .f32) (h7 : a7.IsWhole) (a8 : Memref sig .tc .vmem S1x19x15 .f32) (h8 : a8.IsWhole) (hc : ¬cond0_0 i) (x0 : Vec F S1x19x128x128 .f32) (x1 : Vec F S1x128x128 .i32) (xo2 xo3 xo4 : Vec F S1x19x15 .f32),
      out0_B_2 c i a4 h4 a5 h5 a6 h6 a7 h7 a8 h8 hc x0 x1 xo2 xo3 xo4 = stepCounts x0 xo2
      ∧ out0_B_3 c i a4 h4 a5 h5 a6 h6 a7 h7 a8 h8 hc x0 x1 xo2 xo3 xo4 = stepHits x0 x1 xo3
      ∧ out0_B_4 c i a4 h4 a5 h5 a6 h6 a7 h7 a8 h8 hc x0 x1 xo2 xo3 xo4 = stepMass x0 xo4)

end Cert.Histogram.Kernel

end
-- ==== Proof.KernelCases.lean ====
/-
  The pieces each control case of the body leaves in the three histogram blocks, read back as values:
  every column of a block is stored exactly once per point, its payload the column's previous contents
  plus the block's sums for that bin; at the first point of a core the previous contents are the zeros
  stored just before, which every column load reads back.
-/
import proofs.«172019_j2396591751307_1_alg».proof.Proof.KernelPoint
import Idealize.ShloMosaic.Lib.Tactic

set_option maxRecDepth 16384

noncomputable section

namespace Cert.Histogram.Kernel

open Idealize.ShloMosaic Idealize.ShloMosaic.TcCoe Idealize.SL.Sem Cert.KernelIdeal Cert.KernelIdeal.Gen

variable {F : FTy → Type} [FloatOps F]

theorem hzero4 : (![0, 0, 0, 0] : Fin 4 → Nat) = fun _ => 0 := funext fun a => by
  match a with
  | ⟨0, _⟩ => rfl
  | ⟨1, _⟩ => rfl
  | ⟨2, _⟩ => rfl
  | ⟨3, _⟩ => rfl

/-! ## A point that is not the first of its core: the columns are loaded from what the point before left -/

set_option maxHeartbeats 1000000 in
theorem out_B_2 (c : Dev nD) (i : grid0.Coords) (a4 : Memref sig .tc .vmem S1x19x128x128 .f32) (h4 : a4.IsWhole) (a5 : Memref sig .tc .vmem S1x128x128 .i32) (h5 : a5.IsWhole) (a6 : Memref sig .tc .vmem S1x19x15 .f32) (h6 : a6.IsWhole) (a7 : Memref sig .tc .vmem S1x19x15 .f32) (h7 : a7.IsWhole) (a8 : Memref sig .tc .vmem S1x19x15 .f32) (h8 : a8.IsWhole) (hc : ¬cond0_0 i)
    (x0 : Vec F S1x19x128x128 .f32) (x1 : Vec F S1x128x128 .i32) (xo2 xo3 xo4 : Vec F S1x19x15 .f32) :
    out0_B_2 c i a4 h4 a5 h5 a6 h6 a7 h7 a8 h8 hc x0 x1 xo2 xo3 xo4 = stepCounts x0 xo2 := by
  unfold out0_B_2
  rw [View.read_writes_eq_canon _ _ _ (cover0_B_2 c i a4 h4 a5 h5 a6 h6 a7 h7 a8 h8 hc x0 x1 xo2 xo3 xo4)]
  unfold kernelRun0_B
  dsimp only
  sl_unfold_run_names
  simp only [View.readAt_eq_ld, h4.read_unread, h5.read_unread, h6.read_unread, h7.read_unread, h8.read_unread, View.ld_unit_zero (S := S1x19x128x128) hzero4, View.ld_unit_zero (S := S1x128x128) hzero3]
  funext y
  have key := canon_colsB (Val := Elt F) (e := .f32) (fun k => colCounts x0 k (View.ld xo2 (binCol k))) [] 15 (le_refl _) y (binOf y).isLt
  rw [List.append_nil] at key
  exact key

set_option maxHeartbeats 1000000 in
theorem out_B_3 (c : Dev nD) (i : grid0.Coords) (a4 : Memref sig .tc .vmem S1x19x128x128 .f32) (h4 : a4.IsWhole) (a5 : Memref sig .tc .vmem S1x128x128 .i32) (h5 : a5.IsWhole) (a6 : Memref sig .tc .vmem S1x19x15 .f32) (h6 : a6.IsWhole) (a7 : Memref sig .tc .vmem S1x19x15 .f32) (h7 : a7.IsWhole) (a8 : Memref sig .tc .vmem S1x19x15 .f32) (h8 : a8.IsWhole) (hc : ¬cond0_0 i)
    (x0 : Vec F S1x19x128x128 .f32) (x1 : Vec F S1x128x128 .i32) (xo2 xo3 xo4 : Vec F S1x19x15 .f32) :
    out0_B_3 c i a4 h4 a5 h5 a6 h6 a7 h7 a8 h8 hc x0 x1 xo2 xo3 xo4 = stepHits x0 x1 xo3 := by
  unfold out0_B_3
  rw [View.read_writes_eq_canon _ _ _ (cover0_B_3 c i a4 h4 a5 h5 a6 h6 a7 h7 a8 h8 hc x0 x1 xo2 xo3 xo4)]
  unfold kernelRun0_B
  dsimp only
  sl_unfold_run_names
  simp only [View.readAt_eq_ld, h4.read_unread, h5.read_unread, h6.read_unread, h7.read_unread, h8.read_unread, View.ld_unit_zero (S := S1x19x128x128) hzero4, View.ld_unit_zero (S := S1x128x128) hzero3]
  funext y
  have key := canon_colsB (Val := Elt F) (e := .f32) (fun k => colHits x0 x1 k (View.ld xo3 (binCol k))) [] 15 (le_refl _) y (binOf y).isLt
  rw [List.append_nil] at key
  exact key

set_option maxHeartbeats 1000000 in
theorem out_B_4 (c : Dev nD) (i : grid0.Coords) (a4 : Memref sig .tc .vmem S1x19x128x128 .f32) (h4 : a4.IsWhole) (a5 : Memref sig .tc .vmem S1x128x128 .i32) (h5 : a5.IsWhole) (a6 : Memref sig .tc .vmem S1x19x15 .f32) (h6 : a6.IsWhole) (a7 : Memref sig .tc .vmem S1x19x15 .f32) (h7 : a7.IsWhole) (a8 : Memref sig .tc .vmem S1x19x15 .f32) (h8 : a8.IsWhole) (hc : ¬cond0_0 i)
    (x0 : Vec F S1x19x128x128 .f32) (x1 : Vec F S1x128x128 .i32) (xo2 xo3 xo4 : Vec F S1x19x15 .f32) :
    out0_B_4 c i a4 h4 a5 h5 a6 h6 a7 h7 a8 h8 hc x0 x1 xo2 xo3 xo4 = stepMass x0 xo4 := by
  unfold out0_B_4
  rw [View.read_writes_eq_canon _ _ _ (cover0_B_4 c i a4 h4 a5 h5 a6 h6 a7 h7 a8 h8 hc x0 x1 xo2 xo3 xo4)]
  unfold kernelRun0_B
  dsimp only
  sl_unfold_run_names
  simp only [View.readAt_eq_ld, h4.read_unread, h5.read_unread, h6.read_unread, h7.read_unread, h8.read_unread, View.ld_unit_zero (S := S1x19x128x128) hzero4, View.ld_unit_zero (S := S1x128x128) hzero3]
  funext y
  have key := canon_colsB (Val := Elt F) (e := .f32) (fun k => colMass x0 k (View.ld xo4 (binCol k))) [] 15 (le_refl _) y (binOf y).isLt
  rw [List.append_nil] at key
  exact key

/-! ## The first point of a core: the blocks are cleared, and every column load reads the cleared block back -/

set_option maxHeartbeats 4000000 in
theorem out_A_2 (c : Dev nD) (i : grid0.Coords) (a4 : Memref sig .tc .vmem S1x19x128x128 .f32) (h4 : a4.IsWhole) (a5 : Memref sig .tc .vmem S1x128x128 .i32) (h5 : a5.IsWhole) (a6 : Memref sig .tc .vmem S1x19x15 .f32) (h6 : a6.IsWhole) (a7 : Memref sig .tc .vmem S1x19x15 .f32) (h7 : a7.IsWhole) (a8 : Memref sig .tc .vmem S1x19x15 .f32) (h8 : a8.IsWhole) (hc : cond0_0 i)
    (x0 : Vec F S1x19x128x128 .f32) (x1 : Vec F S1x128x128 .i32) :
    out0_A_2 c i a4 h4 a5 h5 a6 h6 a7 h7 a8 h8 hc x0 x1 = stepCounts x0 zeroBlock := by
  unfold out0_A_2
  rw [View.read_writes_eq_canon _ _ _ (cover0_A_2 c i a4 h4 a5 h5 a6 h6 a7 h7 a8 h8 hc x0 x1)]
  unfold kernelRun0_A
  dsimp only
  have b1 : ColsBelow (Val := Elt F) (e := .f32) (zeroBlock (F := F)) 0 (kernelRun0_A.sl.H2_1 (F := F)) := ColsBelow.base _
  have b2 : ColsBelow (Val := Elt F) (e := .f32) (zeroBlock (F := F)) 1 (kernelRun0_A.sl.H2_2 c a4 h4 a6 x0) := ColsBelow.cons (n := 0) (by decide) _ b1
  have b3 : ColsBelow (Val := Elt F) (e := .f32) (zeroBlock (F := F)) 2 (kernelRun0_A.sl.H2_3 c a4 h4 a6 x0) := ColsBelow.cons (n := 1) (by decide) _ b2
  have b4 : ColsBelow (Val := Elt F) (e := .f32) (zeroBlock (F := F)) 3 (kernelRun0_A.sl.H2_4 c a4 h4 a6 x0) := ColsBelow.cons (n := 2) (by decide) _ b3
  have b5 : ColsBelow (Val := Elt F) (e := .f32) (zeroBlock (F := F)) 4 (kernelRun0_A.sl.H2_5 c a4 h4 a6 x0) := ColsBelow.cons (n := 3) (by decide) _ b4
  have b6 : ColsBelow (Val := Elt F) (e := .f32) (zeroBlock (F := F)) 5 (kernelRun0_A.sl.H2_6 c a4 h4 a6 x0) := ColsBelow.cons (n := 4) (by decide) _ b5
  have b7 : ColsBelow (Val := Elt F) (e := .f32) (zeroBlock (F := F)) 6 (kernelRun0_A.sl.H2_7 c a4 h4 a6 x0) := ColsBelow.cons (n := 5) (by decide) _ b6
  have b8 : ColsBelow (Val := Elt F) (e := .f32) (zeroBlock (F := F)) 7 (kernelRun0_A.sl.H2_8 c a4 h4 a6 x0) := ColsBelow.cons (n := 6) (by decide) _ b7
  have b9 : ColsBelow (Val := Elt F) (e := .f32) (zeroBlock (F := F)) 8 (kernelRun0_A.sl.H2_9 c a4 h4 a6 x0) := ColsBelow.cons (n := 7) (by decide) _ b8
  have b10 : ColsBelow (Val := Elt F) (e := .f32) (zeroBlock (F := F)) 9 (kernelRun0_A.sl.H2_10 c a4 h4 a6 x0) := ColsBelow.cons (n := 8) (by decide) _ b9
  have b11 : ColsBelow (Val := Elt F) (e := .f32) (zeroBlock (F := F)) 10 (kernelRun0_A.sl.H2_11 c a4 h4 a6 x0) := ColsBelow.cons (n := 9) (by decide) _ b10
  have b12 : ColsBelow (Val := Elt F) (e := .f32) (zeroBlock (F := F)) 11 (kernelRun0_A.sl.H2_12 c a4 h4 a6 x0) := ColsBelow.cons (n := 10) (by decide) _ b11
  have b13 : ColsBelow (Val := Elt F) (e := .f32) (zeroBlock (F := F)) 12 (kernelRun0_A.sl.H2_13 c a4 h4 a6 x0) := ColsBelow.cons (n := 11) (by decide) _ b12
  have b14 : ColsBelow (Val := Elt F) (e := .f32) (zeroBlock (F := F)) 13 (kernelRun0_A.sl.H2_14 c a4 h4 a6 x0) := ColsBelow.cons (n := 12) (by decide) _ b13
  have b15 : ColsBelow (Val := Elt F) (e := .f32) (zeroBlock (F := F)) 14 (kernelRun0_A.sl.H2_15 c a4 h4 a6 x0) := ColsBelow.cons (n := 13) (by decide) _ b14
  have l0 : kernelRun0_A.sl.v54 c a6 = View.ld (zeroBlock (F := F)) (binCol ⟨0, by decide⟩) := b1.readCov_col a6.view ⟨0, by decide⟩ (le_refl _)
  have l1 : kernelRun0_A.sl.v91 c a4 h4 a6 x0 = View.ld (zeroBlock (F := F)) (binCol ⟨1, by decide⟩) := b2.readCov_col a6.view ⟨1, by decide⟩ (le_refl _)
  have l2 : kernelRun0_A.sl.v128 c a4 h4 a6 x0 = View.ld (zeroBlock (F := F)) (binCol ⟨2, by decide⟩) := b3.readCov_col a6.view ⟨2, by decide⟩ (le_refl _)
  have l3 : kernelRun0_A.sl.v165 c a4 h4 a6 x0 = View.ld (zeroBlock (F := F)) (binCol ⟨3, by decide⟩) := b4.readCov_col a6.view ⟨3, by decide⟩ (le_refl _)
  have l4 : kernelRun0_A.sl.v202 c a4 h4 a6 x0 = View.ld (zeroBlock (F := F)) (binCol ⟨4, by decide⟩) := b5.readCov_col a6.view ⟨4, by decide⟩ (le_refl _)
  have l5 : kernelRun0_A.sl.v239 c a4 h4 a6 x0 = View.ld (zeroBlock (F := F)) (binCol ⟨5, by decide⟩) := b6.readCov_col a6.view ⟨5, by decide⟩ (le_refl _)
  have l6 : kernelRun0_A.sl.v276 c a4 h4 a6 x0 = View.ld (zeroBlock (F := F)) (binCol ⟨6, by decide⟩) := b7.readCov_col a6.view ⟨6, by decide⟩ (le_refl _)
  have l7 : kernelRun0_A.sl.v313 c a4 h4 a6 x0 = View.ld (zeroBlock (F := F)) (binCol ⟨7, by decide⟩) := b8.readCov_col a6.view ⟨7, by decide⟩ (le_refl _)
  have l8 : kernelRun0_A.sl.v350 c a4 h4 a6 x0 = View.ld (zeroBlock (F := F)) (binCol ⟨8, by decide⟩) := b9.readCov_col a6.view ⟨8, by decide⟩ (le_refl _)
  have l9 : kernelRun0_A.sl.v387 c a4 h4 a6 x0 = View.ld (zeroBlock (F := F)) (binCol ⟨9, by decide⟩) := b10.readCov_col a6.view ⟨9, by decide⟩ (le_refl _)
  have l10 : kernelRun0_A.sl.v424 c a4 h4 a6 x0 = View.ld (zeroBlock (F := F)) (binCol ⟨10, by decide⟩) := b11.readCov_col a6.view ⟨10, by decide⟩ (le_refl _)
  have l11 : kernelRun0_A.sl.v461 c a4 h4 a6 x0 = View.ld (zeroBlock (F := F)) (binCol ⟨11, by decide⟩) := b12.readCov_col a6.view ⟨11, by decide⟩ (le_refl _)
  have l12 : kernelRun0_A.sl.v498 c a4 h4 a6 x0 = View.ld (zeroBlock (F := F)) (binCol ⟨12, by decide⟩) := b13.readCov_col a6.view ⟨12, by decide⟩ (le_refl _)
  have l13 : kernelRun0_A.sl.v535 c a4 h4 a6 x0 = View.ld (zeroBlock (F := F)) (binCol ⟨13, by decide⟩) := b14.readCov_col a6.view ⟨13, by decide⟩ (le_refl _)
  have l14 : kernelRun0_A.sl.v572 c a4 h4 a6 x0 = View.ld (zeroBlock (F := F)) (binCol ⟨14, by decide⟩) := b15.readCov_col a6.view ⟨14, by decide⟩ (le_refl _)
  unfold kernelRun0_A.sl.H2_15 kernelRun0_A.sl.H2_14 kernelRun0_A.sl.H2_13 kernelRun0_A.sl.H2_12 kernelRun0_A.sl.H2_11 kernelRun0_A.sl.H2_10 kernelRun0_A.sl.H2_9 kernelRun0_A.sl.H2_8 kernelRun0_A.sl.H2_7 kernelRun0_A.sl.H2_6 kernelRun0_A.sl.H2_5 kernelRun0_A.sl.H2_4 kernelRun0_A.sl.H2_3 kernelRun0_A.sl.H2_2 kernelRun0_A.sl.H2_1 kernelRun0_A.sl.r_14 kernelRun0_A.sl.r_17
  rw [l0, l1, l2, l3, l4, l5, l6, l7, l8, l9, l10, l11, l12, l13, l14]
  clear l0 l1 l2 l3 l4 l5 l6 l7 l8 l9 l10 l11 l12 l13 l14 b1 b2 b3 b4 b5 b6 b7 b8 b9 b10 b11 b12 b13 b14 b15
  sl_unfold_run_names
  simp only [View.readAt_eq_ld, h4.read_unread, h5.read_unread, h6.read_unread, h7.read_unread, h8.read_unread, View.ld_unit_zero (S := S1x19x128x128) hzero4, View.ld_unit_zero (S := S1x128x128) hzero3]
  funext y
  exact canon_colsB (Val := Elt F) (e := .f32) (fun k => colCounts x0 k (View.ld (zeroBlock (F := F)) (binCol k))) _ 15 (le_refl _) y (binOf y).isLt

set_option maxHeartbeats 4000000 in
theorem out_A_3 (c : Dev nD) (i : grid0.Coords) (a4 : Memref sig .tc .vmem S1x19x128x128 .f32) (h4 : a4.IsWhole) (a5 : Memref sig .tc .vmem S1x128x128 .i32) (h5 : a5.IsWhole) (a6 : Memref sig .tc .vmem S1x19x15 .f32) (h6 : a6.IsWhole) (a7 : Memref sig .tc .vmem S1x19x15 .f32) (h7 : a7.IsWhole) (a8 : Memref sig .tc .vmem S1x19x15 .f32) (h8 : a8.IsWhole) (hc : cond0_0 i)
    (x0 : Vec F S1x19x128x128 .f32) (x1 : Vec F S1x128x128 .i32) :
    out0_A_3 c i a4 h4 a5 h5 a6 h6 a7 h7 a8 h8 hc x0 x1 = stepHits x0 x1 zeroBlock := by
  unfold out0_A_3
  rw [View.read_writes_eq_canon _ _ _ (cover0_A_3 c i a4 h4 a5 h5 a6 h6 a7 h7 a8 h8 hc x0 x1)]
  unfold kernelRun0_A
  dsimp only
  have b1 : ColsBelow (Val := Elt F) (e := .f32) (zeroBlock (F := F)) 0 (kernelRun0_A.sl.H3_1 (F := F)) := ColsBelow.base _
  have b2 : ColsBelow (Val := Elt F) (e := .f32) (zeroBlock (F := F)) 1 (kernelRun0_A.sl.H3_2 c a4 h4 a5 h5 a7 x0 x1) := ColsBelow.cons (n := 0) (by decide) _ b1
  have b3 : ColsBelow (Val := Elt F) (e := .f32) (zeroBlock (F := F)) 2 (kernelRun0_A.sl.H3_3 c a4 h4 a5 h5 a7 x0 x1) := ColsBelow.cons (n := 1) (by decide) _ b2
  have b4 : ColsBelow (Val := Elt F) (e := .f32) (zeroBlock (F := F)) 3 (kernelRun0_A.sl.H3_4 c a4 h4 a5 h5 a7 x0 x1) := ColsBelow.cons (n := 2) (by decide) _ b3
  have b5 : ColsBelow (Val := Elt F) (e := .f32) (zeroBlock (F := F)) 4 (kernelRun0_A.sl.H3_5 c a4 h4 a5 h5 a7 x0 x1) := ColsBelow.cons (n := 3) (by decide) _ b4
  have b6 : ColsBelow (Val := Elt F) (e := .f32) (zeroBlock (F := F)) 5 (kernelRun0_A.sl.H3_6 c a4 h4 a5 h5 a7 x0 x1) := ColsBelow.cons (n := 4) (by decide) _ b5
  have b7 : ColsBelow (Val := Elt F) (e := .f32) (zeroBlock (F := F)) 6 (kernelRun0_A.sl.H3_7 c a4 h4 a5 h5 a7 x0 x1) := ColsBelow.cons (n := 5) (by decide) _ b6
  have b8 : ColsBelow (Val := Elt F) (e := .f32) (zeroBlock (F := F)) 7 (kernelRun0_A.sl.H3_8 c a4 h4 a5 h5 a7 x0 x1) := ColsBelow.cons (n := 6) (by decide) _ b7
  have b9 : ColsBelow (Val := Elt F) (e := .f32) (zeroBlock (F := F)) 8 (kernelRun0_A.sl.H3_9 c a4 h4 a5 h5 a7 x0 x1) := ColsBelow.cons (n := 7) (by decide) _ b8
  have b10 : ColsBelow (Val := Elt F) (e := .f32) (zeroBlock (F := F)) 9 (kernelRun0_A.sl.H3_10 c a4 h4 a5 h5 a7 x0 x1) := ColsBelow.cons (n := 8) (by decide) _ b9
  have b11 : ColsBelow (Val := Elt F) (e := .f32) (zeroBlock (F := F)) 10 (kernelRun0_A.sl.H3_11 c a4 h4 a5 h5 a7 x0 x1) := ColsBelow.cons (n := 9) (by decide) _ b10
  have b12 : ColsBelow (Val := Elt F) (e := .f32) (zeroBlock (F := F)) 11 (kernelRun0_A.sl.H3_12 c a4 h4 a5 h5 a7 x0 x1) := ColsBelow.cons (n := 10) (by decide) _ b11
  have b13 : ColsBelow (Val := Elt F) (e := .f32) (zeroBlock (F := F)) 12 (kernelRun0_A.sl.H3_13 c a4 h4 a5 h5 a7 x0 x1) := ColsBelow.cons (n := 11) (by decide) _ b12
  have b14 : ColsBelow (Val := Elt F) (e := .f32) (zeroBlock (F := F)) 13 (kernelRun0_A.sl.H3_14 c a4 h4 a5 h5 a7 x0 x1) := ColsBelow.cons (n := 12) (by decide) _ b13
  have b15 : ColsBelow (Val := Elt F) (e := .f32) (zeroBlock (F := F)) 14 (kernelRun0_A.sl.H3_15 c a4 h4 a5 h5 a7 x0 x1) := ColsBelow.cons (n := 13) (by decide) _ b14
  have l0 : kernelRun0_A.sl.v61 c a7 = View.ld (zeroBlock (F := F)) (binCol ⟨0, by decide⟩) := b1.readCov_col a7.view ⟨0, by decide⟩ (le_refl _)
  have l1 : kernelRun0_A.sl.v98 c a4 h4 a5 h5 a7 x0 x1 = View.ld (zeroBlock (F := F)) (binCol ⟨1, by decide⟩) := b2.readCov_col a7.view ⟨1, by decide⟩ (le_refl _)
  have l2 : kernelRun0_A.sl.v135 c a4 h4 a5 h5 a7 x0 x1 = View.ld (zeroBlock (F := F)) (binCol ⟨2, by decide⟩) := b3.readCov_col a7.view ⟨2, by decide⟩ (le_refl _)
  have l3 : kernelRun0_A.sl.v172 c a4 h4 a5 h5 a7 x0 x1 = View.ld (zeroBlock (F := F)) (binCol ⟨3, by decide⟩) := b4.readCov_col a7.view ⟨3, by decide⟩ (le_refl _)
  have l4 : kernelRun0_A.sl.v209 c a4 h4 a5 h5 a7 x0 x1 = View.ld (zeroBlock (F := F)) (binCol ⟨4, by decide⟩) := b5.readCov_col a7.view ⟨4, by decide⟩ (le_refl _)
  have l5 : kernelRun0_A.sl.v246 c a4 h4 a5 h5 a7 x0 x1 = View.ld (zeroBlock (F := F)) (binCol ⟨5, by decide⟩) := b6.readCov_col a7.view ⟨5, by decide⟩ (le_refl _)
  have l6 : kernelRun0_A.sl.v283 c a4 h4 a5 h5 a7 x0 x1 = View.ld (zeroBlock (F := F)) (binCol ⟨6, by decide⟩) := b7.readCov_col a7.view ⟨6, by decide⟩ (le_refl _)
  have l7 : kernelRun0_A.sl.v320 c a4 h4 a5 h5 a7 x0 x1 = View.ld (zeroBlock (F := F)) (binCol ⟨7, by decide⟩) := b8.readCov_col a7.view ⟨7, by decide⟩ (le_refl _)
  have l8 : kernelRun0_A.sl.v357 c a4 h4 a5 h5 a7 x0 x1 = View.ld (zeroBlock (F := F)) (binCol ⟨8, by decide⟩) := b9.readCov_col a7.view ⟨8, by decide⟩ (le_refl _)
  have l9 : kernelRun0_A.sl.v394 c a4 h4 a5 h5 a7 x0 x1 = View.ld (zeroBlock (F := F)) (binCol ⟨9, by decide⟩) := b10.readCov_col a7.view ⟨9, by decide⟩ (le_refl _)
  have l10 : kernelRun0_A.sl.v431 c a4 h4 a5 h5 a7 x0 x1 = View.ld (zeroBlock (F := F)) (binCol ⟨10, by decide⟩) := b11.readCov_col a7.view ⟨10, by decide⟩ (le_refl _)
  have l11 : kernelRun0_A.sl.v468 c a4 h4 a5 h5 a7 x0 x1 = View.ld (zeroBlock (F := F)) (binCol ⟨11, by decide⟩) := b12.readCov_col a7.view ⟨11, by decide⟩ (le_refl _)
  have l12 : kernelRun0_A.sl.v505 c a4 h4 a5 h5 a7 x0 x1 = View.ld (zeroBlock (F := F)) (binCol ⟨12, by decide⟩) := b13.readCov_col a7.view ⟨12, by decide⟩ (le_refl _)
  have l13 : kernelRun0_A.sl.v542 c a4 h4 a5 h5 a7 x0 x1 = View.ld (zeroBlock (F := F)) (binCol ⟨13, by decide⟩) := b14.readCov_col a7.view ⟨13, by decide⟩ (le_refl _)
  have l14 : kernelRun0_A.sl.v579 c a4 h4 a5 h5 a7 x0 x1 = View.ld (zeroBlock (F := F)) (binCol ⟨14, by decide⟩) := b15.readCov_col a7.view ⟨14, by decide⟩ (le_refl _)
  unfold kernelRun0_A.sl.H3_15 kernelRun0_A.sl.H3_14 kernelRun0_A.sl.H3_13 kernelRun0_A.sl.H3_12 kernelRun0_A.sl.H3_11 kernelRun0_A.sl.H3_10 kernelRun0_A.sl.H3_9 kernelRun0_A.sl.H3_8 kernelRun0_A.sl.H3_7 kernelRun0_A.sl.H3_6 kernelRun0_A.sl.H3_5 kernelRun0_A.sl.H3_4 kernelRun0_A.sl.H3_3 kernelRun0_A.sl.H3_2 kernelRun0_A.sl.H3_1 kernelRun0_A.sl.r_7 kernelRun0_A.sl.r_9 kernelRun0_A.sl.r_35
  rw [l0, l1, l2, l3, l4, l5, l6, l7, l8, l9, l10, l11, l12, l13, l14]
  clear l0 l1 l2 l3 l4 l5 l6 l7 l8 l9 l10 l11 l12 l13 l14 b1 b2 b3 b4 b5 b6 b7 b8 b9 b10 b11 b12 b13 b14 b15
  sl_unfold_run_names
  simp only [View.readAt_eq_ld, h4.read_unread, h5.read_unread, h6.read_unread, h7.read_unread, h8.read_unread, View.ld_unit_zero (S := S1x19x128x128) hzero4, View.ld_unit_zero (S := S1x128x128) hzero3]
  funext y
  exact canon_colsB (Val := Elt F) (e := .f32) (fun k => colHits x0 x1 k (View.ld (zeroBlock (F := F)) (binCol k))) _ 15 (le_refl _) y (binOf y).isLt

set_option maxHeartbeats 4000000 in
theorem out_A_4 (c : Dev nD) (i : grid0.Coords) (a4 : Memref sig .tc .vmem S1x19x128x128 .f32) (h4 : a4.IsWhole) (a5 : Memref sig .tc .vmem S1x128x128 .i32) (h5 : a5.IsWhole) (a6 : Memref sig .tc .vmem S1x19x15 .f32) (h6 : a6.IsWhole) (a7 : Memref sig .tc .vmem S1x19x15 .f32) (h7 : a7.IsWhole) (a8 : Memref sig .tc .vmem S1x19x15 .f32) (h8 : a8.IsWhole) (hc : cond0_0 i)
    (x0 : Vec F S1x19x128x128 .f32) (x1 : Vec F S1x128x128 .i32) :
    out0_A_4 c i a4 h4 a5 h5 a6 h6 a7 h7 a8 h8 hc x0 x1 = stepMass x0 zeroBlock := by
  unfold out0_A_4
  rw [View.read_writes_eq_canon _ _ _ (cover0_A_4 c i a4 h4 a5 h5 a6 h6 a7 h7 a8 h8 hc x0 x1)]
  unfold kernelRun0_A
  dsimp only
  have b1 : ColsBelow (Val := Elt F) (e := .f32) (zeroBlock (F := F)) 0 (kernelRun0_A.sl.H4_1 (F := F)) := ColsBelow.base _
  have b2 : ColsBelow (Val := Elt F) (e := .f32) (zeroBlock (F := F)) 1 (kernelRun0_A.sl.H4_2 c a4 h4 a8 x0) := ColsBelow.cons (n := 0) (by decide) _ b1
  have b3 : ColsBelow (Val := Elt F) (e := .f32) (zeroBlock (F := F)) 2 (kernelRun0_A.sl.H4_3 c a4 h4 a8 x0) := ColsBelow.cons (n := 1) (by decide) _ b2
  have b4 : ColsBelow (Val := Elt F) (e := .f32) (zeroBlock (F := F)) 3 (kernelRun0_A.sl.H4_4 c a4 h4 a8 x0) := ColsBelow.cons (n := 2) (by decide) _ b3
  have b5 : ColsBelow (Val := Elt F) (e := .f32) (zeroBlock (F := F)) 4 (kernelRun0_A.sl.H4_5 c a4 h4 a8 x0) := ColsBelow.cons (n := 3) (by decide) _ b4
  have b6 : ColsBelow (Val := Elt F) (e := .f32) (zeroBlock (F := F)) 5 (kernelRun0_A.sl.H4_6 c a4 h4 a8 x0) := ColsBelow.cons (n := 4) (by decide) _ b5
  have b7 : ColsBelow (Val := Elt F) (e := .f32) (zeroBlock (F := F)) 6 (kernelRun0_A.sl.H4_7 c a4 h4 a8 x0) := ColsBelow.cons (n := 5) (by decide) _ b6
  have b8 : ColsBelow (Val := Elt F) (e := .f32) (zeroBlock (F := F)) 7 (kernelRun0_A.sl.H4_8 c a4 h4 a8 x0) := ColsBelow.cons (n := 6) (by decide) _ b7
  have b9 : ColsBelow (Val := Elt F) (e := .f32) (zeroBlock (F := F)) 8 (kernelRun0_A.sl.H4_9 c a4 h4 a8 x0) := ColsBelow.cons (n := 7) (by decide) _ b8
  have b10 : ColsBelow (Val := Elt F) (e := .f32) (zeroBlock (F := F)) 9 (kernelRun0_A.sl.H4_10 c a4 h4 a8 x0) := ColsBelow.cons (n := 8) (by decide) _ b9
  have b11 : ColsBelow (Val := Elt F) (e := .f32) (zeroBlock (F := F)) 10 (kernelRun0_A.sl.H4_11 c a4 h4 a8 x0) := ColsBelow.cons (n := 9) (by decide) _ b10
  have b12 : ColsBelow (Val := Elt F) (e := .f32) (zeroBlock (F := F)) 11 (kernelRun0_A.sl.H4_12 c a4 h4 a8 x0) := ColsBelow.cons (n := 10) (by decide) _ b11
  have b13 : ColsBelow (Val := Elt F) (e := .f32) (zeroBlock (F := F)) 12 (kernelRun0_A.sl.H4_13 c a4 h4 a8 x0) := ColsBelow.cons (n := 11) (by decide) _ b12
  have b14 : ColsBelow (Val := Elt F) (e := .f32) (zeroBlock (F := F)) 13 (kernelRun0_A.sl.H4_14 c a4 h4 a8 x0) := ColsBelow.cons (n := 12) (by decide) _ b13
  have b15 : ColsBelow (Val := Elt F) (e := .f32) (zeroBlock (F := F)) 14 (kernelRun0_A.sl.H4_15 c a4 h4 a8 x0) := ColsBelow.cons (n := 13) (by decide) _ b14
  have l0 : kernelRun0_A.sl.v68 c a8 = View.ld (zeroBlock (F := F)) (binCol ⟨0, by decide⟩) := b1.readCov_col a8.view ⟨0, by decide⟩ (le_refl _)
  have l1 : kernelRun0_A.sl.v105 c a4 h4 a8 x0 = View.ld (zeroBlock (F := F)) (binCol ⟨1, by decide⟩) := b2.readCov_col a8.view ⟨1, by decide⟩ (le_refl _)
  have l2 : kernelRun0_A.sl.v142 c a4 h4 a8 x0 = View.ld (zeroBlock (F := F)) (binCol ⟨2, by decide⟩) := b3.readCov_col a8.view ⟨2, by decide⟩ (le_refl _)
  have l3 : kernelRun0_A.sl.v179 c a4 h4 a8 x0 = View.ld (zeroBlock (F := F)) (binCol ⟨3, by decide⟩) := b4.readCov_col a8.view ⟨3, by decide⟩ (le_refl _)
  have l4 : kernelRun0_A.sl.v216 c a4 h4 a8 x0 = View.ld (zeroBlock (F := F)) (binCol ⟨4, by decide⟩) := b5.readCov_col a8.view ⟨4, by decide⟩ (le_refl _)
  have l5 : kernelRun0_A.sl.v253 c a4 h4 a8 x0 = View.ld (zeroBlock (F := F)) (binCol ⟨5, by decide⟩) := b6.readCov_col a8.view ⟨5, by decide⟩ (le_refl _)
  have l6 : kernelRun0_A.sl.v290 c a4 h4 a8 x0 = View.ld (zeroBlock (F := F)) (binCol ⟨6, by decide⟩) := b7.readCov_col a8.view ⟨6, by decide⟩ (le_refl _)
  have l7 : kernelRun0_A.sl.v327 c a4 h4 a8 x0 = View.ld (zeroBlock (F := F)) (binCol ⟨7, by decide⟩) := b8.readCov_col a8.view ⟨7, by decide⟩ (le_refl _)
  have l8 : kernelRun0_A.sl.v364 c a4 h4 a8 x0 = View.ld (zeroBlock (F := F)) (binCol ⟨8, by decide⟩) := b9.readCov_col a8.view ⟨8, by decide⟩ (le_refl _)
  have l9 : kernelRun0_A.sl.v401 c a4 h4 a8 x0 = View.ld (zeroBlock (F := F)) (binCol ⟨9, by decide⟩) := b10.readCov_col a8.view ⟨9, by decide⟩ (le_refl _)
  have l10 : kernelRun0_A.sl.v438 c a4 h4 a8 x0 = View.ld (zeroBlock (F := F)) (binCol ⟨10, by decide⟩) := b11.readCov_col a8.view ⟨10, by decide⟩ (le_refl _)
  have l11 : kernelRun0_A.sl.v475 c a4 h4 a8 x0 = View.ld (zeroBlock (F := F)) (binCol ⟨11, by decide⟩) := b12.readCov_col a8.view ⟨11, by decide⟩ (le_refl _)
  have l12 : kernelRun0_A.sl.v512 c a4 h4 a8 x0 = View.ld (zeroBlock (F := F)) (binCol ⟨12, by decide⟩) := b13.readCov_col a8.view ⟨12, by decide⟩ (le_refl _)
  have l13 : kernelRun0_A.sl.v549 c a4 h4 a8 x0 = View.ld (zeroBlock (F := F)) (binCol ⟨13, by decide⟩) := b14.readCov_col a8.view ⟨13, by decide⟩ (le_refl _)
  have l14 : kernelRun0_A.sl.v586 c a4 h4 a8 x0 = View.ld (zeroBlock (F := F)) (binCol ⟨14, by decide⟩) := b15.readCov_col a8.view ⟨14, by decide⟩ (le_refl _)
  unfold kernelRun0_A.sl.H4_15 kernelRun0_A.sl.H4_14 kernelRun0_A.sl.H4_13 kernelRun0_A.sl.H4_12 kernelRun0_A.sl.H4_11 kernelRun0_A.sl.H4_10 kernelRun0_A.sl.H4_9 kernelRun0_A.sl.H4_8 kernelRun0_A.sl.H4_7 kernelRun0_A.sl.H4_6 kernelRun0_A.sl.H4_5 kernelRun0_A.sl.H4_4 kernelRun0_A.sl.H4_3 kernelRun0_A.sl.H4_2 kernelRun0_A.sl.H4_1 kernelRun0_A.sl.r_4 kernelRun0_A.sl.r_31 kernelRun0_A.sl.r_32
  rw [l0, l1, l2, l3, l4, l5, l6, l7, l8, l9, l10, l11, l12, l13, l14]
  clear l0 l1 l2 l3 l4 l5 l6 l7 l8 l9 l10 l11 l12 l13 l14 b1 b2 b3 b4 b5 b6 b7 b8 b9 b10 b11 b12 b13 b14 b15
  sl_unfold_run_names
  simp only [View.readAt_eq_ld, h4.read_unread, h5.read_unread, h6.read_unread, h7.read_unread, h8.read_unread, View.ld_unit_zero (S := S1x19x128x128) hzero4, View.ld_unit_zero (S := S1x128x128) hzero3]
  funext y
  exact canon_colsB (Val := Elt F) (e := .f32) (fun k => colMass x0 k (View.ld (zeroBlock (F := F)) (binCol k))) _ 15 (le_refl _) y (binOf y).isLt

/-- Both control cases, all three histograms. -/
theorem caseFacts : CaseFacts F :=
  ⟨fun c i a4 h4 a5 h5 a6 h6 a7 h7 a8 h8 hc x0 x1 =>
      ⟨out_A_2 c i a4 h4 a5 h5 a6 h6 a7 h7 a8 h8 hc x0 x1, out_A_3 c i a4 h4 a5 h5 a6 h6 a7 h7 a8 h8 hc x0 x1, out_A_4 c i a4 h4 a5 h5 a6 h6 a7 h7 a8 h8 hc x0 x1⟩,
    fun c i a4 h4 a5 h5 a6 h6 a7 h7 a8 h8 hc x0 x1 xo2 xo3 xo4 =>
      ⟨out_B_2 c i a4 h4 a5 h5 a6 h6 a7 h7 a8 h8 hc x0 x1 xo2 xo3 xo4, out_B_3 c i a4 h4 a5 h5 a6 h6 a7 h7 a8 h8 hc x0 x1 xo2 xo3 xo4, out_B_4 c i a4 h4 a5 h5 a6 h6 a7 h7 a8 h8 hc x0 x1 xo2 xo3 xo4⟩⟩

end Cert.Histogram.Kernel
end
-- ==== Proof.KernelBlockSums.lean ====
/-
  One grid point's sums, as the specification's sums over the point's pixels.

  A grid point (core, bg, hb, wb) of the 2 x 2 x 4 x 8 grid works on batch n = 2·core + bg and on the 128 x 128 tile
  of rows 128·hb … 128·hb + 127 and columns 128·wb … 128·wb + 127. Over the extended reals:

  * the softmax the body computes on its [19, 128, 128] block of logits is, at class c and tile pixel (p, q), the
    specification's confidence of class c at pixel (128·hb + p, 128·wb + q) of batch n; its bin words, positivity
    bits and label indicators are the specification's there;
  * the sum of a [19, 128, 128] array over its last two axes — first along the lanes, then along the rows — is at
    class c the double sum over (p, q); so the three sums the body adds to column b of its histograms are the sums over
    the tile's pixels of the specification's weight, weight · label indicator and weight · confidence;
  * a histogram column updated is the old column plus these sums;
  * the tiles of all the grid points of both cores partition the pixels: the sum over the cores, over the 64 points
    of a core and over a tile's 128 x 128 pixels is the sum over all (n, h, w).
-/
import proofs.«172019_j2396591751307_1_alg».proof.Proof.KernelBlock
import proofs.«172019_j2396591751307_1_alg».proof.Proof.HistogramSpec
import proofs.«172019_j2396591751307_1_alg».proof.Proof.BinEntryWords
import Idealize.ShloMosaic.Lib.Pipeline.Value
import Idealize.ShloMosaic.PureOps.Ideal.Laws

noncomputable section

open scoped BigOperators

namespace Cert.Histogram.Kernel

open Idealize.ShloMosaic Idealize.ShloMosaic.ValueIdx Cert.KernelIdeal Cert.KernelIdeal.Gen Cert.Histogram
  Cert.Histogram.Reference

/-! ## Tiles -/

/-- Row p of tile row hb: 128·hb + p. -/
def row (hb : Fin 4) (p : Fin 128) : Fin 512 := blockPos 4 128 (by norm_num) hb p
/-- Column q of tile column wb: 128·wb + q. -/
def col (wb : Fin 8) (q : Fin 128) : Fin 1024 := blockPos 8 128 (by norm_num) wb q

theorem row_val (hb : Fin 4) (p : Fin 128) : (row hb p).val = hb.val * 128 + p.val := rfl
theorem col_val (wb : Fin 8) (q : Fin 128) : (col wb q).val = wb.val * 128 + q.val := rfl

/-- The block of logits of batch n and tile (hb, wb). -/
def blockX (X : FVec Ideal SLogits .f32) (n : Fin 4) (hb : Fin 4) (wb : Fin 8) : Vec Ideal S1x19x128x128 .f32 :=
  fun y => X (ix4 n (⟨(y 1).val, (y 1).isLt⟩ : Fin 19) (row hb ⟨(y 2).val, (y 2).isLt⟩) (col wb ⟨(y 3).val, (y 3).isLt⟩))

/-- The block of labels of batch n and tile (hb, wb). -/
def blockL (L : IVec SLabels 32) (n : Fin 4) (hb : Fin 4) (wb : Fin 8) : Vec Ideal S1x128x128 .i32 :=
  fun y => L (ix3 n (row hb ⟨(y 1).val, (y 1).isLt⟩) (col wb ⟨(y 2).val, (y 2).isLt⟩))

theorem blockX_apply (X : FVec Ideal SLogits .f32) (n : Fin 4) (hb : Fin 4) (wb : Fin 8) (k : Fin 19) (p q : Fin 128) :
    blockX X n hb wb (ix4 0 k p q) = X (ix4 n k (row hb p) (col wb q)) := rfl

theorem blockL_apply (L : IVec SLabels 32) (n : Fin 4) (hb : Fin 4) (wb : Fin 8) (p q : Fin 128) :
    blockL L n hb wb (ix3 0 p q) = L (ix3 n (row hb p) (col wb q)) := rfl

/-! ## A histogram column updated -/

/-- The updated column at class cls: the old entry plus the class's sum. -/
theorem colStore_apply (old : Vec Ideal S1x19x1 .f32) (s : FVec Ideal S19x1 .f32) (cls : Fin 19) :
    colStore old s (ix3 0 cls 0) = old (ix3 0 cls 0) + s (ix2 cls 0) := by
  unfold colStore
  rw [shapeCast_apply _ _ (ix3 0 cls 0) (ix1 cls) (by
    rewrite [Shape.rowMajor_val_one, Shape.rowMajor_val_three]
    show cls.val = (0 * 19 + cls.val) * 1 + 0; omega)]
  rw [addf_apply]
  rw [shapeCast_apply old _ (ix1 cls) (ix3 0 cls 0) (by
    rewrite [Shape.rowMajor_val_one, Shape.rowMajor_val_three]
    show (0 * 19 + cls.val) * 1 + 0 = cls.val; omega)]
  rw [shapeCast_apply s _ (ix1 cls) (ix2 cls 0) (by
    rewrite [Shape.rowMajor_val_one, Shape.rowMajor_val_two]
    show cls.val * 1 + 0 = cls.val; omega)]

/-- The same at any index of the [1, 19, 1] column. -/
theorem colStore_apply' (old : Vec Ideal S1x19x1 .f32) (s : FVec Ideal S19x1 .f32) (x : S1x19x1.Idx) :
    colStore old s x = old x + s (ix2 (⟨(x 1).val, (x 1).isLt⟩ : Fin 19) 0) := by
  have hx : x = ix3 0 (⟨(x 1).val, (x 1).isLt⟩ : Fin 19) 0 := by
    funext a; apply Fin.ext
    fin_cases a
    · have h0 : (x 0).val < 1 := (x 0).isLt
      show (x 0).val = 0; omega
    · rfl
    · have h2 : (x 2).val < 1 := (x 2).isLt
      show (x 2).val = 0; omega
  rw [hx]
  exact colStore_apply old s _

/-! ## The sum over a block's pixels -/

private theorem lift_lane (h : S19x128x128.Reduces [2] S19x128) (cls : Fin 19) (p : Fin 128)
    (q : Fin (S19x128x128.size 2)) : h.lift (ix2 cls p) q = ix3 cls p (⟨q.val, q.isLt⟩ : Fin 128) := by
  funext a; apply Fin.ext
  fin_cases a <;> rfl

private theorem lift_rowAxis (h : S19x128x1.Reduces [1] S19x1) (cls : Fin 19)
    (p : Fin (S19x128x1.size 1)) : h.lift (ix2 cls 0) p = ix3 cls (⟨p.val, p.isLt⟩ : Fin 128) 0 := by
  funext a; apply Fin.ext
  fin_cases a <;> rfl

/-- The class-by-class sum over the last two axes is the double sum over the tile's pixels. -/
theorem colSum_apply (v : FVec Ideal S19x128x128 .f32) (cls : Fin 19) :
    colSum v (ix2 cls 0) = ∑ p : Fin 128, ∑ q : Fin 128, v (ix3 cls p q) := by
  unfold colSum
  refine (Ideal.multiReduction_add_single _ _ _ _ _ (ix2 cls 0)).trans ?_
  refine Finset.sum_congr rfl fun p _ => ?_
  rw [lift_rowAxis]
  rw [shapeCast_apply _ _ (ix3 cls (⟨p.val, p.isLt⟩ : Fin 128) 0) (ix2 cls (⟨p.val, p.isLt⟩ : Fin 128)) (by
    rewrite [Shape.rowMajor_val_two, Shape.rowMajor_val_three]
    show cls.val * 128 + p.val = (cls.val * 128 + p.val) * 1 + 0; omega)]
  refine (Ideal.multiReduction_add_single _ _ _ _ _ (ix2 cls (⟨p.val, p.isLt⟩ : Fin 128))).trans ?_
  refine Finset.sum_congr rfl fun q _ => ?_
  rw [lift_lane]
  rfl

/-! ## The block's softmax, stage by stage -/

section Softmax
variable (v7 : Vec Ideal S1x19x128x128 .f32)

/-- The block without its unit axis. -/
private def blk (v7 : Vec Ideal S1x19x128x128 .f32) : FVec Ideal S19x128x128 .f32 :=
  shapeCast S19x128x128 v7 shapeCasts_S1x19x128x128_S19x128x128

/-- The largest logit of each tile pixel. -/
private def blkMax (v7 : Vec Ideal S1x19x128x128 .f32) : FVec Ideal S128x128 .f32 :=
  multiReduction .maximumf [0] S128x128 (blk v7) 0xFF800000#32 reduces_S19x128x128_S128x128 (.inl rfl) rfl

/-- exp(x − M) on the block. -/
private def blkExp (v7 : Vec Ideal S1x19x128x128 .f32) : FVec Ideal S19x128x128 .f32 :=
  exp (subf (blk v7) (broadcastTo S19x128x128 (shapeCast S1x128x128 (blkMax v7) shapeCasts_S128x128_S1x128x128)
    broadcasts_S1x128x128_S19x128x128))

/-- Σ_k exp(x_k − M) of each tile pixel. -/
private def blkSum (v7 : Vec Ideal S1x19x128x128 .f32) : FVec Ideal S128x128 .f32 :=
  multiReduction .add [0] S128x128 (blkExp v7) 0x00000000#32 reduces_S19x128x128_S128x128 (.inl rfl) rfl

private theorem blkConf_eq : blkConf v7 = divf (blkExp v7) (broadcastTo S19x128x128
    (shapeCast S1x128x128 (blkSum v7) shapeCasts_S128x128_S1x128x128) broadcasts_S1x128x128_S19x128x128) := rfl

private theorem blk_apply (k : Fin 19) (p q : Fin 128) : blk v7 (ix3 k p q) = v7 (ix4 0 k p q) := by
  unfold blk
  exact shapeCast_apply v7 _ (ix3 k p q) (ix4 0 k p q) (by
    rewrite [Shape.rowMajor_val_four, Shape.rowMajor_val_three]
    show ((0 * 19 + k.val) * 128 + p.val) * 128 + q.val = (k.val * 128 + p.val) * 128 + q.val; omega)

/-- A [128, 128] array given a unit axis and repeated over the 19 classes reads, at (k, p, q), the array at (p, q). -/
private theorem repeat_apply {α : Type} (y : S128x128.Idx → α) (k : Fin 19) (p q : Fin 128) :
    broadcastTo S19x128x128 (shapeCast S1x128x128 y shapeCasts_S128x128_S1x128x128)
      broadcasts_S1x128x128_S19x128x128 (ix3 k p q) = y (ix2 p q) := by
  rw [broadcastTo_apply _ _ (ix3 k p q) (ix3 0 p q) (fun a => by
    fin_cases a
    · show (0 : Nat) = if (1 : Nat) = 1 then 0 else _; rw [if_pos rfl]
    · show p.val = if (128 : Nat) = 1 then 0 else p.val; rw [if_neg (by decide)]
    · show q.val = if (128 : Nat) = 1 then 0 else q.val; rw [if_neg (by decide)])]
  exact shapeCast_apply y _ (ix3 0 p q) (ix2 p q) (by
    rewrite [Shape.rowMajor_val_two, Shape.rowMajor_val_three]
    show p.val * 128 + q.val = (0 * 128 + p.val) * 128 + q.val; omega)

private theorem lift_class (h : S19x128x128.Reduces [0] S128x128) (p q : Fin 128)
    (k : Fin (S19x128x128.size 0)) : h.lift (ix2 p q) k = ix3 (⟨k.val, k.isLt⟩ : Fin 19) p q := by
  funext a; apply Fin.ext
  fin_cases a <;> rfl

private theorem blkMax_apply (p q : Fin 128) :
    blkMax v7 (ix2 p q) = (Finset.univ : Finset (Fin 19)).fold max (FloatOps.ofBits (F := Ideal) .f32 0xFF800000#32)
      (fun k => v7 (ix4 0 k p q)) := by
  unfold blkMax
  refine (Ideal.multiReduction_maximumf_single _ _ reduces_S19x128x128_S128x128 _ _ (ix2 p q)).trans ?_
  have hf : (blk v7 ∘ (reduces_S19x128x128_S128x128).lift (ix2 p q)) = fun k : Fin 19 => v7 (ix4 0 k p q) :=
    funext fun k => by
      show blk v7 ((reduces_S19x128x128_S128x128).lift (ix2 p q) k) = _
      rw [lift_class]; exact blk_apply v7 _ p q
  exact congrArg (fun f => Finset.fold max (FloatOps.ofBits (F := Ideal) .f32 0xFF800000#32) f
    (Finset.univ : Finset (Fin 19))) hf

private theorem blkExp_apply (k : Fin 19) (p q : Fin 128) :
    blkExp v7 (ix3 k p q) = FloatOps.exp (F := Ideal) (φ := .f32) (FloatOps.subf (F := Ideal) (φ := .f32)
      (v7 (ix4 0 k p q)) ((Finset.univ : Finset (Fin 19)).fold max (FloatOps.ofBits (F := Ideal) .f32 0xFF800000#32)
        (fun k => v7 (ix4 0 k p q)))) := by
  unfold blkExp
  show FloatOps.exp (FloatOps.subf (blk v7 (ix3 k p q)) (broadcastTo S19x128x128
    (shapeCast S1x128x128 (blkMax v7) shapeCasts_S128x128_S1x128x128) broadcasts_S1x128x128_S19x128x128 (ix3 k p q))) = _
  rw [repeat_apply, blk_apply, blkMax_apply]

private theorem blkSum_apply (p q : Fin 128) :
    blkSum v7 (ix2 p q) = ∑ k : Fin 19, blkExp v7 (ix3 k p q) := by
  unfold blkSum
  refine (Ideal.multiReduction_add_single _ _ reduces_S19x128x128_S128x128 _ _ (ix2 p q)).trans ?_
  refine Finset.sum_congr rfl fun k _ => ?_
  rw [lift_class]
  rfl

end Softmax

/-! ## The block functions at a tile pixel -/

section AtPixel
variable (X : FVec Ideal SLogits .f32) (L : IVec SLabels 32) (n : Fin 4) (hb : Fin 4) (wb : Fin 8)

private theorem blkExp_block (k : Fin 19) (p q : Fin 128) :
    blkExp (blockX X n hb wb) (ix3 k p q) = pixExp X n k (row hb p) (col wb q) := by
  rw [blkExp_apply]
  rfl

/-- THE CONFIDENCES of the block are the specification's at the tile's pixels. -/
theorem blkConf_block (cls : Fin 19) (p q : Fin 128) :
    blkConf (blockX X n hb wb) (ix3 cls p q) = conf X n cls (row hb p) (col wb q) := by
  rw [blkConf_eq]
  show FloatOps.divf (blkExp (blockX X n hb wb) (ix3 cls p q)) (broadcastTo S19x128x128
    (shapeCast S1x128x128 (blkSum (blockX X n hb wb)) shapeCasts_S128x128_S1x128x128)
    broadcasts_S1x128x128_S19x128x128 (ix3 cls p q)) = _
  rw [repeat_apply, blkSum_apply, blkExp_block]
  simp only [blkExp_block]
  rfl

/-- What is counted for bin word b at an index, from the confidence there. -/
private theorem countTerm_apply (b : BitVec 32) (v7 : Vec Ideal S1x19x128x128 .f32) (i : S19x128x128.Idx) :
    countTerm b v7 i = FloatOps.sitofp (F := Ideal) .f32 (BitVec.setWidth 32 (IntOp.andi
      (IntOp.cmpi .eq (IntOp.minsi 14#32 (IntOp.maxsi 0#32 (IntOp.subi
        (FloatOps.fptosi (F := Ideal) (φ := .f32) 32 (FloatOps.ceil (F := Ideal) (φ := .f32)
          (FloatOps.mulf (F := Ideal) (φ := .f32) (blkConf v7 i) (FloatOps.ofBits (F := Ideal) .f32 0x41700000#32))))
        1#32))) b)
      (FloatOps.cmpf (F := Ideal) (φ := .f32) .ogt (blkConf v7 i) (FloatOps.ofBits (F := Ideal) .f32 0x00000000#32)))) :=
  rfl

/-- THE COUNTED INDICATOR of bin b is the specification's weight at the tile's pixels. -/
theorem countTerm_block (b : Fin 15) (cls : Fin 19) (p q : Fin 128) :
    countTerm (BitVec.ofNat 32 b.val) (blockX X n hb wb) (ix3 cls p q) = weight X b n cls (row hb p) (col wb q) := by
  rw [countTerm_apply, blkConf_block]
  rfl

/-- THE LABEL INDICATORS of the block are the specification's at the tile's pixels. -/
theorem blkLabel_block (cls : Fin 19) (p q : Fin 128) :
    blkLabel (F := Ideal) (blockL L n hb wb) (ix3 cls p q) = isLabel L n cls (row hb p) (col wb q) := by
  show FloatOps.sitofp (F := Ideal) .f32 (BitVec.setWidth 32 (IntOp.cmpi .eq
    (broadcastTo S19x128x128 (shapeCast S1x128x128 (shapeCast S128x128 (blockL L n hb wb) shapeCasts_S1x128x128_S128x128)
      shapeCasts_S128x128_S1x128x128) broadcasts_S1x128x128_S19x128x128 (ix3 cls p q))
    (iota .tc S19x128x128 32 [0] iota_S19x128x128_d0_w32 (ix3 cls p q)))) = _
  rw [repeat_apply, iota_single_apply]
  rw [shapeCast_apply (blockL L n hb wb) _ (ix2 p q) (ix3 0 p q) (by
    rewrite [Shape.rowMajor_val_two, Shape.rowMajor_val_three]
    show (0 * 128 + p.val) * 128 + q.val = p.val * 128 + q.val; omega)]
  rfl

theorem hitTerm_block (b : Fin 15) (cls : Fin 19) (p q : Fin 128) :
    hitTerm (BitVec.ofNat 32 b.val) (blockX X n hb wb) (blockL L n hb wb) (ix3 cls p q)
      = weight X b n cls (row hb p) (col wb q) * isLabel L n cls (row hb p) (col wb q) := by
  unfold hitTerm
  rw [mulf_apply, countTerm_block, blkLabel_block]

theorem massTerm_block (b : Fin 15) (cls : Fin 19) (p q : Fin 128) :
    massTerm (BitVec.ofNat 32 b.val) (blockX X n hb wb) (ix3 cls p q)
      = weight X b n cls (row hb p) (col wb q) * conf X n cls (row hb p) (col wb q) := by
  unfold massTerm
  rw [mulf_apply, countTerm_block, blkConf_block]

/-- THE THREE SUMS OF A GRID POINT for bin b, class by class: the specification's sums over the tile's pixels. -/
theorem countSum_block (b : Fin 15) (cls : Fin 19) :
    colSum (countTerm (BitVec.ofNat 32 b.val) (blockX X n hb wb)) (ix2 cls 0)
      = ∑ p : Fin 128, ∑ q : Fin 128, weight X b n cls (row hb p) (col wb q) := by
  rw [colSum_apply]
  exact Finset.sum_congr rfl fun p _ => Finset.sum_congr rfl fun q _ => countTerm_block X n hb wb b cls p q

theorem hitSum_block (b : Fin 15) (cls : Fin 19) :
    colSum (hitTerm (BitVec.ofNat 32 b.val) (blockX X n hb wb) (blockL L n hb wb)) (ix2 cls 0)
      = ∑ p : Fin 128, ∑ q : Fin 128,
          weight X b n cls (row hb p) (col wb q) * isLabel L n cls (row hb p) (col wb q) := by
  rw [colSum_apply]
  exact Finset.sum_congr rfl fun p _ => Finset.sum_congr rfl fun q _ => hitTerm_block X L n hb wb b cls p q

theorem massSum_block (b : Fin 15) (cls : Fin 19) :
    colSum (massTerm (BitVec.ofNat 32 b.val) (blockX X n hb wb)) (ix2 cls 0)
      = ∑ p : Fin 128, ∑ q : Fin 128,
          weight X b n cls (row hb p) (col wb q) * conf X n cls (row hb p) (col wb q) := by
  rw [colSum_apply]
  exact Finset.sum_congr rfl fun p _ => Finset.sum_congr rfl fun q _ => massTerm_block X n hb wb b cls p q

end AtPixel

/-! ## The tiles of all grid points partition the pixels -/

/-- The batch of point j of a core: 2·core + j / 32. -/
def batchOf (core : Fin 2) (j : Fin 64) : Fin 4 := ⟨2 * core.val + j.val / 32, by have := core.isLt; have := j.isLt; omega⟩
/-- The tile row of point j: (j / 8) mod 4. -/
def hbOf (j : Fin 64) : Fin 4 := ⟨j.val / 8 % 4, by omega⟩
/-- The tile column of point j: j mod 8. -/
def wbOf (j : Fin 64) : Fin 8 := ⟨j.val % 8, by omega⟩

/-- A sum over the rows and columns is the sum over the tiles and, in each tile, over its pixels. -/
theorem sum_tiles {M : Type*} [AddCommMonoid M] (g : Fin 512 → Fin 1024 → M) :
    ∑ h : Fin 512, ∑ w : Fin 1024, g h w
      = ∑ hb : Fin 4, ∑ wb : Fin 8, ∑ p : Fin 128, ∑ q : Fin 128, g (row hb p) (col wb q) := by
  rw [sum_blocks 4 128 (by norm_num)]
  refine Finset.sum_congr rfl fun hb _ => ?_
  rw [show (∑ p : Fin 128, ∑ w : Fin 1024, g (blockPos 4 128 (by norm_num) hb p) w)
      = ∑ p : Fin 128, ∑ wb : Fin 8, ∑ q : Fin 128, g (row hb p) (col wb q) from
    Finset.sum_congr rfl fun p _ => sum_blocks 8 128 (by norm_num) _]
  exact Finset.sum_comm

/-- THE REGROUPING: the sum over the two cores, the 64 grid points of a core and the 128 x 128 pixels of a point's
    tile is the sum over all (n, h, w). -/
theorem sum_grid {M : Type*} [AddCommMonoid M] (f : Fin 4 → Fin 512 → Fin 1024 → M) :
    ∑ core : Fin 2, ∑ j : Fin 64, ∑ p : Fin 128, ∑ q : Fin 128, f (batchOf core j) (row (hbOf j) p) (col (wbOf j) q)
      = ∑ n : Fin 4, ∑ h : Fin 512, ∑ w : Fin 1024, f n h w := by
  rw [sum_blocks 2 2 (by norm_num) (fun n : Fin 4 => ∑ h : Fin 512, ∑ w : Fin 1024, f n h w)]
  refine Finset.sum_congr rfl fun core _ => ?_
  rw [sum_blocks 2 32 (by norm_num)]
  refine Finset.sum_congr rfl fun bg _ => ?_
  rw [sum_tiles, sum_blocks 4 8 (by norm_num)]
  refine Finset.sum_congr rfl fun hb _ => Finset.sum_congr rfl fun wb _ => ?_
  have hc := core.isLt; have hbg := bg.isLt; have hhb := hb.isLt; have hwb := wb.isLt
  have e1 : batchOf core (blockPos 2 32 (by norm_num) bg (blockPos 4 8 (by norm_num) hb wb))
      = blockPos 2 2 (by norm_num) core bg := Fin.ext (by
    show 2 * core.val + (bg.val * 32 + (hb.val * 8 + wb.val)) / 32 = core.val * 2 + bg.val; omega)
  have e2 : hbOf (blockPos 2 32 (by norm_num) bg (blockPos 4 8 (by norm_num) hb wb)) = hb := Fin.ext (by
    show (bg.val * 32 + (hb.val * 8 + wb.val)) / 8 % 4 = hb.val; omega)
  have e3 : wbOf (blockPos 2 32 (by norm_num) bg (blockPos 4 8 (by norm_num) hb wb)) = wb := Fin.ext (by
    show (bg.val * 32 + (hb.val * 8 + wb.val)) % 8 = wb.val; omega)
  rw [e1, e2, e3]

end Cert.Histogram.Kernel

end
-- ==== Proof.KernelStep.lean ====
/-
  One grid point at the exact values: entry (class, bin b) of each histogram block becomes its previous
  value plus the block's class sum of the bin-b term; the cleared block is zero everywhere.
-/
import proofs.«172019_j2396591751307_1_alg».proof.Proof.KernelPoint
import proofs.«172019_j2396591751307_1_alg».proof.Proof.KernelBlockSums

noncomputable section

namespace Cert.Histogram.Kernel

open Idealize.ShloMosaic Idealize.ShloMosaic.ValueIdx Cert.KernelIdeal Cert.KernelIdeal.Gen

theorem binOf_ix3 (cls : Fin 19) (b : Fin 15) : binOf (ix3 (0 : Fin 1) cls b) = b := rfl

theorem loc_ix3 (cls : Fin 19) (b : Fin 15) : loc (ix3 (0 : Fin 1) cls b) = ix3 (0 : Fin 1) cls (0 : Fin 1) := rfl

/-- Column b read at class cls is the block's entry (cls, b). -/
theorem ld_binCol (xo : Vec Ideal S1x19x15 .f32) (cls : Fin 19) (b : Fin 15) :
    View.ld xo (binCol b) (ix3 (0 : Fin 1) cls (0 : Fin 1)) = xo (ix3 (0 : Fin 1) cls b) := by
  show xo ((binCol b).toLoadRect.idx (ix3 (0 : Fin 1) cls (0 : Fin 1))) = xo (ix3 (0 : Fin 1) cls b)
  congr 1
  funext a
  apply Fin.ext
  match a with
  | ⟨0, _⟩ => rfl
  | ⟨1, _⟩ => show 0 + 1 * cls.val = cls.val; omega
  | ⟨2, _⟩ => show b.val + 1 * 0 = b.val; omega

theorem stepCounts_apply (x0 : Vec Ideal S1x19x128x128 .f32) (xo : Vec Ideal S1x19x15 .f32) (cls : Fin 19) (b : Fin 15) :
    stepCounts x0 xo (ix3 (0 : Fin 1) cls b)
      = xo (ix3 (0 : Fin 1) cls b) + colSum (countTerm (BitVec.ofNat 32 b.val) x0) (ix2 cls (0 : Fin 1)) := by
  show colStore (View.ld xo (binCol b)) (colSum (countTerm (BitVec.ofNat 32 b.val) x0)) (ix3 (0 : Fin 1) cls (0 : Fin 1)) = _
  rw [colStore_apply, ld_binCol]

theorem stepHits_apply (x0 : Vec Ideal S1x19x128x128 .f32) (x1 : Vec Ideal S1x128x128 .i32) (xo : Vec Ideal S1x19x15 .f32)
    (cls : Fin 19) (b : Fin 15) :
    stepHits x0 x1 xo (ix3 (0 : Fin 1) cls b)
      = xo (ix3 (0 : Fin 1) cls b) + colSum (hitTerm (BitVec.ofNat 32 b.val) x0 x1) (ix2 cls (0 : Fin 1)) := by
  show colStore (View.ld xo (binCol b)) (colSum (hitTerm (BitVec.ofNat 32 b.val) x0 x1)) (ix3 (0 : Fin 1) cls (0 : Fin 1)) = _
  rw [colStore_apply, ld_binCol]

theorem stepMass_apply (x0 : Vec Ideal S1x19x128x128 .f32) (xo : Vec Ideal S1x19x15 .f32) (cls : Fin 19) (b : Fin 15) :
    stepMass x0 xo (ix3 (0 : Fin 1) cls b)
      = xo (ix3 (0 : Fin 1) cls b) + colSum (massTerm (BitVec.ofNat 32 b.val) x0) (ix2 cls (0 : Fin 1)) := by
  show colStore (View.ld xo (binCol b)) (colSum (massTerm (BitVec.ofNat 32 b.val) x0)) (ix3 (0 : Fin 1) cls (0 : Fin 1)) = _
  rw [colStore_apply, ld_binCol]

/-- The cleared block is zero everywhere. -/
theorem zeroBlock_apply (y : S1x19x15.Idx) : zeroBlock (F := Ideal) y = 0 := by
  show shapeCast S1x19x15 (broadcast S19x15 (Scalar.ofBits (F := Ideal) .f32 0x00000000#32)) shapeCasts_S19x15_S1x19x15 y = 0
  unfold shapeCast broadcast
  exact Ideal.ofBits_zero_f32

end Cert.Histogram.Kernel

end
-- ==== Proof.KernelGrid.lean ====
/-
  The kernel's three histograms over the grid.

  A core's 64 grid points are consecutive. At the first of them the three [1, 19, 15] histogram blocks are cleared and
  the point's sums are added; at every later one the point's sums are added to what the point before left. So after
  point j of a core an entry of a block is the sum, over the core's points 0, …, j, of that point's class-by-class sum
  for the entry's bin. The blocks are written back once per core, after its last point, into row `core` of the
  [2, 19, 15] result arrays: an entry (core, class, bin) of a result array is the sum over the core's 64 points.
-/
import proofs.«172019_j2396591751307_1_alg».proof.Proof.KernelCases
import proofs.«172019_j2396591751307_1_alg».proof.Proof.KernelStep
import proofs.«172019_j2396591751307_1_alg».proof.Proof.KernelEpilogue
import Idealize.ShloMosaic.Lib.Pipeline.Value

set_option maxRecDepth 16384

noncomputable section

namespace Cert.Histogram.Kernel

open Idealize.ShloMosaic Idealize.ShloMosaic.TcCoe Idealize.ShloMosaic.ValueIdx Idealize.SL.Sem
open Cert.KernelIdeal Cert.KernelIdeal.Gen
open Idealize.ShloMosaic.Pipeline (Dat)

section Blocks

variable {F : FTy → Type} [FloatOps F]
variable (m : (ℓ : Loc nD τ sig) → Buf (Elt F) ℓ)

/-! ## The running blocks -/

/-- A block that is cleared and stepped at the first point of a core, and stepped from what the point before left
    at every other point: its contents after point n. -/
def chain (stp : (n : ℕ) → n < cfg0.N → Vec F S1x19x15 .f32 → Vec F S1x19x15 .f32) :
    (n : ℕ) → n < cfg0.N → Vec F S1x19x15 .f32
  | 0, h => stp 0 h zeroBlock
  | n + 1, h =>
    if (n + 1) % 64 = 0 then stp (n + 1) h zeroBlock
    else stp (n + 1) h (chain stp n (Nat.lt_of_succ_lt h))

theorem chain_first (stp : (n : ℕ) → n < cfg0.N → Vec F S1x19x15 .f32 → Vec F S1x19x15 .f32) (n : ℕ) (h : n < cfg0.N)
    (h0 : n % 64 = 0) : chain stp n h = stp n h zeroBlock := by
  cases n with
  | zero => rfl
  | succ n => exact if_pos h0

theorem chain_next (stp : (n : ℕ) → n < cfg0.N → Vec F S1x19x15 .f32 → Vec F S1x19x15 .f32) (n : ℕ) (h : n + 1 < cfg0.N)
    (h0 : ¬(n + 1) % 64 = 0) : chain stp (n + 1) h = stp (n + 1) h (chain stp n (Nat.lt_of_succ_lt h)) :=
  if_neg h0

theorem chain_congr (stp : (n : ℕ) → n < cfg0.N → Vec F S1x19x15 .f32 → Vec F S1x19x15 .f32) (n n' : ℕ) (h : n < cfg0.N)
    (h' : n' < cfg0.N) (e : n = n') : chain stp n h = chain stp n' h' := by
  subst e; rfl

/-- The counts, hits and mass blocks after point n. -/
def chainCounts (c : Dev nD) : (n : ℕ) → n < cfg0.N → Vec F S1x19x15 .f32 :=
  chain fun n h xo => stepCounts (iblk m c 0 ⟨n, h⟩) xo
def chainHits (c : Dev nD) : (n : ℕ) → n < cfg0.N → Vec F S1x19x15 .f32 :=
  chain fun n h xo => stepHits (iblk m c 0 ⟨n, h⟩) (iblk m c 1 ⟨n, h⟩) xo
def chainMass (c : Dev nD) : (n : ℕ) → n < cfg0.N → Vec F S1x19x15 .f32 :=
  chain fun n h xo => stepMass (iblk m c 0 ⟨n, h⟩) xo

/-- What the three staging buffers hold after point n are the three running blocks: by induction on the point. -/
theorem outsAt_eq (c : Dev nD) :
    ∀ (n : ℕ) (h : n < cfg0.N), outsAt0 m c n h = (chainCounts m c n h, chainHits m c n h, chainMass m c n h)
  | 0, h => by
    rw [outsAt0_A m c ⟨0, h⟩ rfl]
    obtain ⟨e2, e3, e4⟩ := (caseFacts (F := F)).1 c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩)
      ((hcond0_0 ⟨0, h⟩).mpr rfl) (iblk m c 0 ⟨0, h⟩) (iblk m c 1 ⟨0, h⟩)
    rw [e2, e3, e4]
    rfl
  | n + 1, h => by
    by_cases h0 : (n + 1) % 64 = 0
    · refine (dif_pos h0).trans ?_
      obtain ⟨e2, e3, e4⟩ := (caseFacts (F := F)).1 c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
        (hs0_4 ⟨n + 1, h⟩) ((hcond0_0 ⟨n + 1, h⟩).mpr h0) (iblk m c 0 ⟨n + 1, h⟩) (iblk m c 1 ⟨n + 1, h⟩)
      rw [e2, e3, e4]
      refine Prod.ext ?_ (Prod.ext ?_ ?_)
      · show _ = (if (n + 1) % 64 = 0 then _ else _); rw [if_pos h0]
      · show _ = (if (n + 1) % 64 = 0 then _ else _); rw [if_pos h0]
      · show _ = (if (n + 1) % 64 = 0 then _ else _); rw [if_pos h0]
    · refine (dif_neg h0).trans ?_
      have ih := outsAt_eq c n (Nat.lt_of_succ_lt h)
      obtain ⟨e2, e3, e4⟩ := (caseFacts (F := F)).2 c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
        (hs0_4 ⟨n + 1, h⟩) (fun h' => h0 ((hcond0_0 ⟨n + 1, h⟩).mp h')) (iblk m c 0 ⟨n + 1, h⟩) (iblk m c 1 ⟨n + 1, h⟩)
        (outsAt0 m c n (Nat.lt_of_succ_lt h)).1 (outsAt0 m c n (Nat.lt_of_succ_lt h)).2.1 (outsAt0 m c n (Nat.lt_of_succ_lt h)).2.2
      rw [e2, e3, e4, ih]
      refine Prod.ext ?_ (Prod.ext ?_ ?_)
      · show _ = (if (n + 1) % 64 = 0 then _ else _); rw [if_neg h0]; rfl
      · show _ = (if (n + 1) % 64 = 0 then _ else _); rw [if_neg h0]; rfl
      · show _ = (if (n + 1) % 64 = 0 then _ else _); rw [if_neg h0]; rfl

/-! ## The write-back -/

theorem lt_N (core : Fin 2) (j : ℕ) (hj : j < 64) : 64 * core.val + j < cfg0.N := by
  rw [show cfg0.N = 128 from N_0]; have := core.isLt; omega

/-- The [2, 19, 15] array whose row `core` is a running block after the core's last point. -/
def finalArr (ch : (n : ℕ) → n < cfg0.N → Vec F S1x19x15 .f32) : Vec F S2x19x15 .f32 :=
  fun i => ch (64 * (i 0).val + 63) (lt_N ⟨(i 0).val, (i 0).isLt⟩ 63 (by omega)) (ix3 (0 : Fin 1) (⟨(i 1).val, (i 1).isLt⟩ : Fin 19) (⟨(i 2).val, (i 2).isLt⟩ : Fin 15))

/-- The three output windows move block (core, 0, 0): where the block's index comes from — decided over the grid. -/
theorem index_2 : ∀ t : Fin cfg0.N, win0_2.index t 0 = t.val / 64 ∧ win0_2.index t 1 = 0 ∧ win0_2.index t 2 = 0 :=
  (by decide +kernel : ∀ t : Fin grid0.N, win0_2.index t 0 = t.val / 64 ∧ win0_2.index t 1 = 0 ∧ win0_2.index t 2 = 0)
theorem index_3 : ∀ t : Fin cfg0.N, win0_3.index t 0 = t.val / 64 ∧ win0_3.index t 1 = 0 ∧ win0_3.index t 2 = 0 :=
  (by decide +kernel : ∀ t : Fin grid0.N, win0_3.index t 0 = t.val / 64 ∧ win0_3.index t 1 = 0 ∧ win0_3.index t 2 = 0)
theorem index_4 : ∀ t : Fin cfg0.N, win0_4.index t 0 = t.val / 64 ∧ win0_4.index t 1 = 0 ∧ win0_4.index t 2 = 0 :=
  (by decide +kernel : ∀ t : Fin grid0.N, win0_4.index t 0 = t.val / 64 ∧ win0_4.index t 1 = 0 ∧ win0_4.index t 2 = 0)

/-- At the last point t of a core, the block's entry y sits in the array at (t / 64, y 1, y 2), where the array built
    from the running block reads the block after point t. -/
theorem finalArr_at (stp : (n : ℕ) → n < cfg0.N → Vec F S1x19x15 .f32 → Vec F S1x19x15 .f32) (t : Fin cfg0.N)
    (h63 : t.val % 64 = 63) (i : S2x19x15.Idx) (y : S1x19x15.Idx) (h0 : (i 0).val = t.val / 64)
    (h1 : (i 1).val = (y 1).val) (h2 : (i 2).val = (y 2).val) : finalArr (chain stp) i = chain stp t.val t.isLt y := by
  unfold finalArr
  rw [chain_congr stp (64 * (i 0).val + 63) t.val _ t.isLt (by omega)]
  refine congrArg _ (funext fun a => Fin.ext ?_)
  match a with
  | ⟨0, _⟩ => have : (y 0).val < 1 := (y 0).isLt; show 0 = (y 0).val; omega
  | ⟨1, _⟩ => exact h1
  | ⟨2, _⟩ => exact h2

/-- At the last point of a core the write-back of window 2 writes the counts block after that point. -/
theorem flushed_counts (c : Dev nD) (t : Fin cfg0.N) (hf : (cfg0.win 2).flush t = true) :
    (dats m 0 c).flushed 2 t = ((cfg0.win 2).blk t).view.read (Elt F) (finalArr (chainCounts m c)) := by
  have h63 : t.val % 64 = 63 := (flush0_2 t).mp hf
  obtain ⟨i0, i1, i2⟩ := index_2 t
  show (cfg0.win 2).cut (grid0.coords t) ((dats m 0 c).after 2 t) = _
  rw [after0_2, outsAt_eq]
  funext y
  rw [View.read_apply]
  refine (finalArr_at _ t h63 _ y ?_ ?_ ?_).symm
  · show win0_2.index t 0 * 1 + 1 * (y 0).val = t.val / 64
    have : (y 0).val < 1 := (y 0).isLt
    rw [i0]; omega
  · show win0_2.index t 1 * 19 + 1 * (y 1).val = (y 1).val
    rw [i1]; omega
  · show win0_2.index t 2 * 15 + 1 * (y 2).val = (y 2).val
    rw [i2]; omega

/-- Every entry (core, class, bin) of window 2's array lies in the block written back at the core's last point. -/
theorem cover_counts (i : S2x19x15.Idx) :
    ∃ t : Fin cfg0.N, (cfg0.win 2).flush t = true ∧ i ∈ ((cfg0.win 2).blk t).view.set := by
  have hi0 : (i 0).val < 2 := (i 0).isLt
  have hi1 : (i 1).val < 19 := (i 1).isLt
  have hi2 : (i 2).val < 15 := (i 2).isLt
  obtain ⟨t, ht⟩ : ∃ t : Fin cfg0.N, t.val = 64 * (i 0).val + 63 :=
    ⟨⟨64 * (i 0).val + 63, lt_N ⟨(i 0).val, hi0⟩ 63 (by omega)⟩, rfl⟩
  obtain ⟨i0, i1, i2⟩ := index_2 t
  refine ⟨t, (flush0_2 t).mpr (by omega), ?_⟩
  show i ∈ ((View.whole main_v0_0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [i0]; omega
  | ⟨1, _⟩ =>
    show win0_2.index t 1 * 19 ≤ (i 1).val ∧ (i 1).val < win0_2.index t 1 * 19 + 19
    rw [i1]; omega
  | ⟨2, _⟩ =>
    show win0_2.index t 2 * 15 ≤ (i 2).val ∧ (i 2).val < win0_2.index t 2 * 15 + 15
    rw [i2]; omega

/-- So window 2's array ends holding, in row `core`, the counts block after the core's last point. -/
theorem arr_eq_counts (c : Dev nD) : (dats m 0 c).arrAt 2 cfg0.N = finalArr (chainCounts m c) :=
  (dats m 0 c).arrAt_eq_of_cover 2 (finalArr (chainCounts m c)) (flushed_counts m c) fun i => cover_counts i

/-- At the last point of a core the write-back of window 3 writes the hits block after that point. -/
theorem flushed_hits (c : Dev nD) (t : Fin cfg0.N) (hf : (cfg0.win 3).flush t = true) :
    (dats m 0 c).flushed 3 t = ((cfg0.win 3).blk t).view.read (Elt F) (finalArr (chainHits m c)) := by
  have h63 : t.val % 64 = 63 := (flush0_3 t).mp hf
  obtain ⟨i0, i1, i2⟩ := index_3 t
  show (cfg0.win 3).cut (grid0.coords t) ((dats m 0 c).after 3 t) = _
  rw [after0_3, outsAt_eq]
  funext y
  rw [View.read_apply]
  refine (finalArr_at _ t h63 _ y ?_ ?_ ?_).symm
  · show win0_3.index t 0 * 1 + 1 * (y 0).val = t.val / 64
    have : (y 0).val < 1 := (y 0).isLt
    rw [i0]; omega
  · show win0_3.index t 1 * 19 + 1 * (y 1).val = (y 1).val
    rw [i1]; omega
  · show win0_3.index t 2 * 15 + 1 * (y 2).val = (y 2).val
    rw [i2]; omega

/-- Every entry (core, class, bin) of window 3's array lies in the block written back at the core's last point. -/
theorem cover_hits (i : S2x19x15.Idx) :
    ∃ t : Fin cfg0.N, (cfg0.win 3).flush t = true ∧ i ∈ ((cfg0.win 3).blk t).view.set := by
  have hi0 : (i 0).val < 2 := (i 0).isLt
  have hi1 : (i 1).val < 19 := (i 1).isLt
  have hi2 : (i 2).val < 15 := (i 2).isLt
  obtain ⟨t, ht⟩ : ∃ t : Fin cfg0.N, t.val = 64 * (i 0).val + 63 :=
    ⟨⟨64 * (i 0).val + 63, lt_N ⟨(i 0).val, hi0⟩ 63 (by omega)⟩, rfl⟩
  obtain ⟨i0, i1, i2⟩ := index_3 t
  refine ⟨t, (flush0_3 t).mpr (by omega), ?_⟩
  show i ∈ ((View.whole main_v0_1).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [i0]; omega
  | ⟨1, _⟩ =>
    show win0_3.index t 1 * 19 ≤ (i 1).val ∧ (i 1).val < win0_3.index t 1 * 19 + 19
    rw [i1]; omega
  | ⟨2, _⟩ =>
    show win0_3.index t 2 * 15 ≤ (i 2).val ∧ (i 2).val < win0_3.index t 2 * 15 + 15
    rw [i2]; omega

/-- So window 3's array ends holding, in row `core`, the hits block after the core's last point. -/
theorem arr_eq_hits (c : Dev nD) : (dats m 0 c).arrAt 3 cfg0.N = finalArr (chainHits m c) :=
  (dats m 0 c).arrAt_eq_of_cover 3 (finalArr (chainHits m c)) (flushed_hits m c) fun i => cover_hits i

/-- At the last point of a core the write-back of window 4 writes the mass block after that point. -/
theorem flushed_mass (c : Dev nD) (t : Fin cfg0.N) (hf : (cfg0.win 4).flush t = true) :
    (dats m 0 c).flushed 4 t = ((cfg0.win 4).blk t).view.read (Elt F) (finalArr (chainMass m c)) := by
  have h63 : t.val % 64 = 63 := (flush0_4 t).mp hf
  obtain ⟨i0, i1, i2⟩ := index_4 t
  show (cfg0.win 4).cut (grid0.coords t) ((dats m 0 c).after 4 t) = _
  rw [after0_4, outsAt_eq]
  funext y
  rw [View.read_apply]
  refine (finalArr_at _ t h63 _ y ?_ ?_ ?_).symm
  · show win0_4.index t 0 * 1 + 1 * (y 0).val = t.val / 64
    have : (y 0).val < 1 := (y 0).isLt
    rw [i0]; omega
  · show win0_4.index t 1 * 19 + 1 * (y 1).val = (y 1).val
    rw [i1]; omega
  · show win0_4.index t 2 * 15 + 1 * (y 2).val = (y 2).val
    rw [i2]; omega

/-- Every entry (core, class, bin) of window 4's array lies in the block written back at the core's last point. -/
theorem cover_mass (i : S2x19x15.Idx) :
    ∃ t : Fin cfg0.N, (cfg0.win 4).flush t = true ∧ i ∈ ((cfg0.win 4).blk t).view.set := by
  have hi0 : (i 0).val < 2 := (i 0).isLt
  have hi1 : (i 1).val < 19 := (i 1).isLt
  have hi2 : (i 2).val < 15 := (i 2).isLt
  obtain ⟨t, ht⟩ : ∃ t : Fin cfg0.N, t.val = 64 * (i 0).val + 63 :=
    ⟨⟨64 * (i 0).val + 63, lt_N ⟨(i 0).val, hi0⟩ 63 (by omega)⟩, rfl⟩
  obtain ⟨i0, i1, i2⟩ := index_4 t
  refine ⟨t, (flush0_4 t).mpr (by omega), ?_⟩
  show i ∈ ((View.whole main_v0_2).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [i0]; omega
  | ⟨1, _⟩ =>
    show win0_4.index t 1 * 19 ≤ (i 1).val ∧ (i 1).val < win0_4.index t 1 * 19 + 19
    rw [i1]; omega
  | ⟨2, _⟩ =>
    show win0_4.index t 2 * 15 ≤ (i 2).val ∧ (i 2).val < win0_4.index t 2 * 15 + 15
    rw [i2]; omega

/-- So window 4's array ends holding, in row `core`, the mass block after the core's last point. -/
theorem arr_eq_mass (c : Dev nD) : (dats m 0 c).arrAt 4 cfg0.N = finalArr (chainMass m c) :=
  (dats m 0 c).arrAt_eq_of_cover 4 (finalArr (chainMass m c)) (flushed_mass m c) fun i => cover_mass i

end Blocks

/-! ## The closed form at the ideal values -/

section Sums

variable (m : (ℓ : Loc nD τ sig) → Buf (Elt Ideal) ℓ)

/-- A running block whose step adds a term to the entry y holds there, after point j of a core, the sum of the terms
    of the core's points 0, …, j (the cleared block is zero). -/
theorem chain_sum (stp : (n : ℕ) → n < cfg0.N → Vec Ideal S1x19x15 .f32 → Vec Ideal S1x19x15 .f32) (y : S1x19x15.Idx)
    (term : (n : ℕ) → n < cfg0.N → EReal) (hstp : ∀ n h xo, stp n h xo y = xo y + term n h) (core : Fin 2) :
    ∀ (j : ℕ) (hj : j < 64), chain stp (64 * core.val + j) (lt_N core j hj) y
      = ∑ i : Fin (j + 1), term (64 * core.val + i.val) (lt_N core i.val (by have := i.isLt; omega))
  | 0, hj => by
    rw [chain_first stp (64 * core.val + 0) (lt_N core 0 hj) (by omega), hstp, zeroBlock_apply, zero_add]
    exact (Fin.sum_univ_one (fun i : Fin 1 => term (64 * core.val + i.val) (lt_N core i.val (by have := i.isLt; omega)))).symm
  | j + 1, hj => by
    have ih := chain_sum stp y term hstp core j (Nat.lt_of_succ_lt hj)
    show chain stp (64 * core.val + j + 1) (lt_N core (j + 1) hj) y = _
    rw [chain_next stp (64 * core.val + j) (lt_N core (j + 1) hj) (by omega), hstp, ih]
    exact (Fin.sum_univ_castSucc
      (fun i : Fin (j + 1 + 1) => term (64 * core.val + i.val) (lt_N core i.val (by have := i.isLt; omega)))).symm

/-- An entry of the counts array is the sum over the core's 64 points of the point's count for the entry's bin. -/
theorem arr_counts (c : Dev nD) (core : Fin 2) (cls : Fin 19) (b : Fin 15) :
    arr m c 2 (ix3 core cls b)
      = ∑ j : Fin 64, colSum (countTerm (BitVec.ofNat 32 b.val) (iblk m c 0 (pt core j))) (ix2 cls 0) := by
  show (dats (F := Ideal) m 0 c).arrAt 2 cfg0.N (ix3 core cls b) = _
  rw [arr_eq_counts]
  show chain _ (64 * core.val + 63) (lt_N core 63 (by omega)) (ix3 (0 : Fin 1) cls b) = _
  rw [chain_sum _ (ix3 (0 : Fin 1) cls b)
    (fun n h => colSum (countTerm (BitVec.ofNat 32 b.val) (iblk m c 0 ⟨n, h⟩)) (ix2 cls 0))
    (fun n h xo => stepCounts_apply (iblk m c 0 ⟨n, h⟩) xo cls b) core 63 (by omega)]
  rfl

/-- An entry of the hits array likewise, with the label indicator. -/
theorem arr_hits (c : Dev nD) (core : Fin 2) (cls : Fin 19) (b : Fin 15) :
    arr m c 3 (ix3 core cls b)
      = ∑ j : Fin 64, colSum (hitTerm (BitVec.ofNat 32 b.val) (iblk m c 0 (pt core j)) (iblk m c 1 (pt core j))) (ix2 cls 0) := by
  show (dats (F := Ideal) m 0 c).arrAt 3 cfg0.N (ix3 core cls b) = _
  rw [arr_eq_hits]
  show chain _ (64 * core.val + 63) (lt_N core 63 (by omega)) (ix3 (0 : Fin 1) cls b) = _
  rw [chain_sum _ (ix3 (0 : Fin 1) cls b)
    (fun n h => colSum (hitTerm (BitVec.ofNat 32 b.val) (iblk m c 0 ⟨n, h⟩) (iblk m c 1 ⟨n, h⟩)) (ix2 cls 0))
    (fun n h xo => stepHits_apply (iblk m c 0 ⟨n, h⟩) (iblk m c 1 ⟨n, h⟩) xo cls b) core 63 (by omega)]
  rfl

/-- An entry of the mass array likewise, with the confidence. -/
theorem arr_mass (c : Dev nD) (core : Fin 2) (cls : Fin 19) (b : Fin 15) :
    arr m c 4 (ix3 core cls b)
      = ∑ j : Fin 64, colSum (massTerm (BitVec.ofNat 32 b.val) (iblk m c 0 (pt core j))) (ix2 cls 0) := by
  show (dats (F := Ideal) m 0 c).arrAt 4 cfg0.N (ix3 core cls b) = _
  rw [arr_eq_mass]
  show chain _ (64 * core.val + 63) (lt_N core 63 (by omega)) (ix3 (0 : Fin 1) cls b) = _
  rw [chain_sum _ (ix3 (0 : Fin 1) cls b)
    (fun n h => colSum (massTerm (BitVec.ofNat 32 b.val) (iblk m c 0 ⟨n, h⟩)) (ix2 cls 0))
    (fun n h xo => stepMass_apply (iblk m c 0 ⟨n, h⟩) xo cls b) core 63 (by omega)]
  rfl

end Sums

end Cert.Histogram.Kernel

end
-- ==== Proof.KernelHistograms.lean ====
/-
  The kernel's three per-core arrays, summed over the two cores, are the specification's histograms.

  Grid point j of core `core` (the grid is (core, batch in the core, tile row, tile column) of extents (2, 2, 4, 8),
  a core's 64 points consecutive) reads the block of logits and the block of labels of batch 2·core + j / 32 and tile
  ((j / 8) mod 4, j mod 8). A core's entry (c, b) of each result array is the sum over the core's 64 points of the
  point's sum over its tile; the tile sums are the specification's sums over the tile's pixels, and the tiles of all the
  points of both cores partition the 4·512·1024 pixels.
-/
import proofs.«172019_j2396591751307_1_alg».proof.Proof.KernelBlockSums
import proofs.«172019_j2396591751307_1_alg».proof.Proof.KernelPoint
import proofs.«172019_j2396591751307_1_alg».proof.Proof.KernelEpilogue

noncomputable section

open scoped BigOperators

namespace Cert.Histogram.Kernel

open Idealize.ShloMosaic Idealize.ShloMosaic.TcCoe Idealize.SL.Sem Idealize.ShloMosaic.ValueIdx
open Cert.KernelIdeal Cert.KernelIdeal.Gen Cert.Histogram

/-! ## Which blocks a grid point reads -/

/-- The block of logits of point t: batch t / 32, all classes, tile row (t / 8) mod 4, tile column t mod 8. -/
theorem logits_index : ∀ t : Fin cfg0.N, win0_0.index t 0 = t.val / 32 ∧ win0_0.index t 1 = 0
    ∧ win0_0.index t 2 = t.val / 8 % 4 ∧ win0_0.index t 3 = t.val % 8 :=
  (by decide +kernel : ∀ t : Fin grid0.N, _)

/-- The block of labels of point t: batch t / 32, tile row (t / 8) mod 4, tile column t mod 8. -/
theorem labels_index : ∀ t : Fin cfg0.N, win0_1.index t 0 = t.val / 32
    ∧ win0_1.index t 1 = t.val / 8 % 4 ∧ win0_1.index t 2 = t.val % 8 :=
  (by decide +kernel : ∀ t : Fin grid0.N, _)

section Blocks
variable (m : (ℓ : Loc nD τ sig) → Buf (Elt Ideal) ℓ) (c : Dev nD)

/-- THE LOGITS A POINT READS are the block of its batch and tile. -/
theorem iblk_logits (core : Fin 2) (j : Fin 64) :
    (iblk m c 0 (pt core j) : Vec Ideal S1x19x128x128 .f32)
      = blockX (m ((c.tc : Thread nD τ).loc main_arg0)) (batchOf core j) (hbOf j) (wbOf j) := by
  obtain ⟨h0, h1, h2, h3⟩ := logits_index (pt core j)
  have hc := core.isLt; have hj := j.isLt
  funext y
  have y0 : (y 0).val < 1 := (y 0).isLt
  have y1 : (y 1).val < 19 := (y 1).isLt
  have y2 : (y 2).val < 128 := (y 2).isLt
  have y3 : (y 3).val < 128 := (y 3).isLt
  unfold iblk blockX
  rw [View.read_apply]
  show V m c main_arg0 _ = m (c.tc.loc main_arg0) _
  rw [V_main_arg0]
  refine congrArg _ ?_
  funext a
  apply Fin.ext
  match a with
  | ⟨0, _⟩ =>
    show win0_0.index (pt core j) 0 * 1 + 1 * (y 0).val = 2 * core.val + j.val / 32
    rw [h0]; show (64 * core.val + j.val) / 32 * 1 + 1 * (y 0).val = _; omega
  | ⟨1, _⟩ =>
    show win0_0.index (pt core j) 1 * 19 + 1 * (y 1).val = (y 1).val
    rw [h1]; omega
  | ⟨2, _⟩ =>
    show win0_0.index (pt core j) 2 * 128 + 1 * (y 2).val = j.val / 8 % 4 * 128 + (y 2).val
    rw [h2]; show (64 * core.val + j.val) / 8 % 4 * 128 + 1 * (y 2).val = _; omega
  | ⟨3, _⟩ =>
    show win0_0.index (pt core j) 3 * 128 + 1 * (y 3).val = j.val % 8 * 128 + (y 3).val
    rw [h3]; show (64 * core.val + j.val) % 8 * 128 + 1 * (y 3).val = _; omega

/-- THE LABELS A POINT READS are the block of its batch and tile. -/
theorem iblk_labels (core : Fin 2) (j : Fin 64) :
    (iblk m c 1 (pt core j) : Vec Ideal S1x128x128 .i32)
      = blockL (m ((c.tc : Thread nD τ).loc main_arg1)) (batchOf core j) (hbOf j) (wbOf j) := by
  obtain ⟨h0, h1, h2⟩ := labels_index (pt core j)
  have hc := core.isLt; have hj := j.isLt
  funext y
  have y0 : (y 0).val < 1 := (y 0).isLt
  have y1 : (y 1).val < 128 := (y 1).isLt
  have y2 : (y 2).val < 128 := (y 2).isLt
  unfold iblk blockL
  rw [View.read_apply]
  show V m c main_arg1 _ = m (c.tc.loc main_arg1) _
  rw [V_main_arg1]
  refine congrArg _ ?_
  funext a
  apply Fin.ext
  match a with
  | ⟨0, _⟩ =>
    show win0_1.index (pt core j) 0 * 1 + 1 * (y 0).val = 2 * core.val + j.val / 32
    rw [h0]; show (64 * core.val + j.val) / 32 * 1 + 1 * (y 0).val = _; omega
  | ⟨1, _⟩ =>
    show win0_1.index (pt core j) 1 * 128 + 1 * (y 1).val = j.val / 8 % 4 * 128 + (y 1).val
    rw [h1]; show (64 * core.val + j.val) / 8 % 4 * 128 + 1 * (y 1).val = _; omega
  | ⟨2, _⟩ =>
    show win0_1.index (pt core j) 2 * 128 + 1 * (y 2).val = j.val % 8 * 128 + (y 2).val
    rw [h2]; show (64 * core.val + j.val) % 8 * 128 + 1 * (y 2).val = _; omega

end Blocks

/-! ## The core sums -/

section CoreSums
variable (m : (ℓ : Loc nD τ sig) → Buf (Elt Ideal) ℓ) (c : Dev nD)

/-- THE COUNTS: if each core's array holds, at (class, bin), the sum over the core's 64 points of the point's tile
    sum, then the two cores' arrays add up to the specification's counts. -/
theorem core_counts_of
    (arr_counts : ∀ (core : Fin 2) (cls : Fin 19) (b : Fin 15), arr m c 2 (ix3 core cls b)
      = ∑ j : Fin 64, colSum (countTerm (BitVec.ofNat 32 b.val) (iblk m c 0 (pt core j))) (ix2 cls 0)) :
    coreSum (arr m c 2) = countsArr (m ((c.tc : Thread nD τ).loc main_arg0)) := by
  funext i
  obtain ⟨cls, b, rfl⟩ : ∃ (cls : Fin 19) (b : Fin 15), i = ix2 cls b := ⟨i 0, i 1, eq_ix2 i⟩
  have e0 : (arr m c 2 (ix3 0 cls b) : EReal) = _ := arr_counts 0 cls b
  have e1 : (arr m c 2 (ix3 1 cls b) : EReal) = _ := arr_counts 1 cls b
  refine (congrArg₂ (fun x y : EReal => x + y) e0 e1).trans ?_
  simp only [iblk_logits, countSum_block]
  show _ = counts (m ((c.tc : Thread nD τ).loc main_arg0)) cls b
  unfold counts
  rw [← sum_grid (fun n h w => weight (m ((c.tc : Thread nD τ).loc main_arg0)) b n cls h w), Fin.sum_univ_two]

/-- THE HIT COUNTS, likewise. -/
theorem core_hits_of
    (arr_hits : ∀ (core : Fin 2) (cls : Fin 19) (b : Fin 15), arr m c 3 (ix3 core cls b)
      = ∑ j : Fin 64, colSum (hitTerm (BitVec.ofNat 32 b.val) (iblk m c 0 (pt core j)) (iblk m c 1 (pt core j)))
          (ix2 cls 0)) :
    coreSum (arr m c 3) = hitsArr (m ((c.tc : Thread nD τ).loc main_arg0)) (m ((c.tc : Thread nD τ).loc main_arg1)) := by
  funext i
  obtain ⟨cls, b, rfl⟩ : ∃ (cls : Fin 19) (b : Fin 15), i = ix2 cls b := ⟨i 0, i 1, eq_ix2 i⟩
  have e0 : (arr m c 3 (ix3 0 cls b) : EReal) = _ := arr_hits 0 cls b
  have e1 : (arr m c 3 (ix3 1 cls b) : EReal) = _ := arr_hits 1 cls b
  refine (congrArg₂ (fun x y : EReal => x + y) e0 e1).trans ?_
  simp only [iblk_logits, iblk_labels, hitSum_block]
  show _ = hits (m ((c.tc : Thread nD τ).loc main_arg0)) (m ((c.tc : Thread nD τ).loc main_arg1)) cls b
  unfold hits
  rw [← sum_grid (fun n h w => weight (m ((c.tc : Thread nD τ).loc main_arg0)) b n cls h w
    * isLabel (m ((c.tc : Thread nD τ).loc main_arg1)) n cls h w), Fin.sum_univ_two]

/-- THE CONFIDENCE MASS, likewise. -/
theorem core_mass_of
    (arr_mass : ∀ (core : Fin 2) (cls : Fin 19) (b : Fin 15), arr m c 4 (ix3 core cls b)
      = ∑ j : Fin 64, colSum (massTerm (BitVec.ofNat 32 b.val) (iblk m c 0 (pt core j))) (ix2 cls 0)) :
    coreSum (arr m c 4) = massArr (m ((c.tc : Thread nD τ).loc main_arg0)) := by
  funext i
  obtain ⟨cls, b, rfl⟩ : ∃ (cls : Fin 19) (b : Fin 15), i = ix2 cls b := ⟨i 0, i 1, eq_ix2 i⟩
  have e0 : (arr m c 4 (ix3 0 cls b) : EReal) = _ := arr_mass 0 cls b
  have e1 : (arr m c 4 (ix3 1 cls b) : EReal) = _ := arr_mass 1 cls b
  refine (congrArg₂ (fun x y : EReal => x + y) e0 e1).trans ?_
  simp only [iblk_logits, massSum_block]
  show _ = mass (m ((c.tc : Thread nD τ).loc main_arg0)) cls b
  unfold mass
  rw [← sum_grid (fun n h w => weight (m ((c.tc : Thread nD τ).loc main_arg0)) b n cls h w
    * conf (m ((c.tc : Thread nD τ).loc main_arg0)) n cls h w), Fin.sum_univ_two]

end CoreSums

end Cert.Histogram.Kernel

end
-- ==== Proof.KernelCoreSums.lean ====
/-
  The kernel's three histograms: each of its [2,19,15] result arrays, summed over the two cores, is the
  specification's histogram of the argument arrays — a core's entry is the sum over the core's 64 grid
  points of the point's block sums, the blocks tile the pixels, and a sum may be regrouped.
-/
import proofs.«172019_j2396591751307_1_alg».proof.Proof.KernelGrid
import proofs.«172019_j2396591751307_1_alg».proof.Proof.KernelHistograms

noncomputable section

namespace Cert.Histogram.Kernel

open Idealize.ShloMosaic Idealize.SL.Sem Cert.Histogram

theorem core_counts (m : (ℓ : Loc Cert.KernelIdeal.nD Cert.KernelIdeal.τ Cert.KernelIdeal.sig) → Buf (Elt Ideal) ℓ)
    (c : Dev Cert.KernelIdeal.nD) :
    coreSum (arr m c 2) = countsArr (m ((c.tc : Thread Cert.KernelIdeal.nD Cert.KernelIdeal.τ).loc Cert.KernelIdeal.main_arg0)) :=
  core_counts_of m c (fun core cls b => arr_counts m c core cls b)

theorem core_hits (m : (ℓ : Loc Cert.KernelIdeal.nD Cert.KernelIdeal.τ Cert.KernelIdeal.sig) → Buf (Elt Ideal) ℓ)
    (c : Dev Cert.KernelIdeal.nD) :
    coreSum (arr m c 3) = hitsArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) :=
  core_hits_of m c (fun core cls b => arr_hits m c core cls b)

theorem core_mass (m : (ℓ : Loc Cert.KernelIdeal.nD Cert.KernelIdeal.τ Cert.KernelIdeal.sig) → Buf (Elt Ideal) ℓ)
    (c : Dev Cert.KernelIdeal.nD) :
    coreSum (arr m c 4) = massArr (m ((c.tc : Thread Cert.KernelIdeal.nD Cert.KernelIdeal.τ).loc Cert.KernelIdeal.main_arg0)) :=
  core_mass_of m c (fun core cls b => arr_mass m c core cls b)

end Cert.Histogram.Kernel

end
-- ==== Proof.lean ====
/-
  The certificate: a class-wise calibration error.

  For each pixel the 19 logits are turned into softmax confidences; each (class, pixel) pair falls in one of 15
  confidence bins (or in none, when the confidence is not positive), and three [19, 15] histograms are accumulated
  over all 4·512·1024 pixels: how many pairs fall in each bin, how many of those are labelled with the class, and
  the sum of their confidences. From the three histograms a short scalar computation gives the result
  (Proof/Epilogue.lean).

  The kernel accumulates the histograms block by block over its grid, one partial histogram per core, and the
  host adds the two cores; the reference scatters every (class, pixel) pair into its bin. At the ideal values a sum
  may be regrouped freely, so both compute the histograms of Proof/HistogramSpec.lean:
    * the reference's three scatters are those histograms (Proof/ReferenceHistograms.lean),
    * the kernel's core-summed arrays are those histograms (Proof/KernelCases.lean: what one grid point leaves;
      Proof/KernelGrid.lean: the grid; Proof/KernelHistograms.lean, Proof/KernelCoreSums.lean: the sums regrouped),
    * each program then applies the same scalar computation (Proof/ReferenceEpilogue.lean, Proof/KernelEpilogue.lean),
  and Proof/Assembly.lean puts the two runs side by side. No finiteness of the inputs is used: only the
  commutative-monoid laws of addition on the extended reals, 0·x = 0 and 1·x = x.
-/
import proofs.«172019_j2396591751307_1_alg».proof.Defs
import proofs.«172019_j2396591751307_1_alg».proof.Proof.Gen.Kernel
import proofs.«172019_j2396591751307_1_alg».proof.Proof.Gen.Kernel.Skeleton
import proofs.«172019_j2396591751307_1_alg».proof.Proof.Gen.Kernel.Launch
import proofs.«172019_j2396591751307_1_alg».proof.Proof.Gen.Kernel.Points
import proofs.«172019_j2396591751307_1_alg».proof.Proof.Gen.Kernel.Frame
import proofs.«172019_j2396591751307_1_alg».proof.Proof.Gen.KernelIdeal
import proofs.«172019_j2396591751307_1_alg».proof.Proof.Gen.KernelIdeal.Skeleton
import proofs.«172019_j2396591751307_1_alg».proof.Proof.Gen.KernelIdeal.Launch
import proofs.«172019_j2396591751307_1_alg».proof.Proof.Gen.KernelIdeal.Points
import proofs.«172019_j2396591751307_1_alg».proof.Proof.Gen.KernelIdeal.Frame
import proofs.«172019_j2396591751307_1_alg».proof.Proof.Gen.ReferenceIdeal
import proofs.«172019_j2396591751307_1_alg».proof.Proof.Gen.Pre_finite_inputs
import Idealize.ShloMosaic.Adequacy
import Idealize.ShloMosaic.Init
import proofs.«172019_j2396591751307_1_alg».proof.Proof.Assembly
import proofs.«172019_j2396591751307_1_alg».proof.Proof.KernelCoreSums

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial,
    algebraic_of Cert.Histogram.Kernel.core_counts Cert.Histogram.Kernel.core_hits Cert.Histogram.Kernel.core_mass⟩

end Cert.Proof

end
